-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v52)) (v3 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v52) = v2 c
          ∧ r.2.mem ((c.tc : Thread Cert.KernelIdeal.nD Cert.KernelIdeal.τ).loc Cert.KernelIdeal.main_v56) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v49) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x200000x512 : Shape := ⟨3, ![1, 200000, 512]⟩
abbrev S512x256 : Shape := ⟨2, ![512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S256x33 : Shape := ⟨2, ![256, 33]⟩
abbrev S33 : Shape := ⟨1, ![33]⟩
abbrev S256x55 : Shape := ⟨2, ![256, 55]⟩
abbrev S55 : Shape := ⟨1, ![55]⟩
abbrev S_ : Shape := ⟨0, ![]⟩

class Facts : Prop where
  bcast_S_S1x200000x512 : S_.BroadcastsInDim S1x200000x512 (![] : Fin 0 → Fin S1x200000x512.rank)
  reducesTo_S1x200000x512_S_d0_1_2 : S1x200000x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S256x33 : S_.BroadcastsInDim S256x33 (![] : Fin 0 → Fin S256x33.rank)
  reducesTo_S256x33_S_d0_1 : S256x33.ReducesTo [0, 1] S_
  bcast_S_S33 : S_.BroadcastsInDim S33 (![] : Fin 0 → Fin S33.rank)
  reducesTo_S33_S_d0 : S33.ReducesTo [0] S_
  bcast_S_S256x55 : S_.BroadcastsInDim S256x55 (![] : Fin 0 → Fin S256x55.rank)
  reducesTo_S256x55_S_d0_1 : S256x55.ReducesTo [0, 1] S_
  bcast_S_S55 : S_.BroadcastsInDim S55 (![] : Fin 0 → Fin S55.rank)
  reducesTo_S55_S_d0 : S55.ReducesTo [0] S_

variable [Facts]

def fn_part4 {F : FTy → Type} [FloatOps F] (main_arg14 : FVec F S55 .f32) (main_v63 : IVec S_ 1) (main_v67 : IVec S_ 1) : IVec S_ 1 :=
  let main_v68 : IVec S_ 1 := andi main_v63 main_v67
  let main_v69 : FVec F S55 .f32 := Host.absf main_arg14
  let main_cst_26 : FVec F S_ .f32 := constant S_ .f32 0x7F800000#32
  let main_v70 : FVec F S55 .f32 := broadcastInDim S55 ![] bcast_S_S55 main_cst_26
  let main_v71 : IVec S55 1 := cmpf .olt main_v69 main_v70
  let main_c_27 : IVec S_ 1 := constantI S_ 1 1#1
  let main_v72 : IVec S_ 1 := (fun x v => Host.reduce IntOp.andi x v reducesTo_S55_S_d0 h_S_) main_v71 main_c_27
  let main_v73 : IVec S_ 1 := andi main_v68 main_v72
  main_v73

def fn_part3 {F : FTy → Type} [FloatOps F] (main_arg11 : FVec F S256x33 .f32) (main_arg12 : FVec F S33 .f32) (main_arg13 : FVec F S256x55 .f32) (main_arg14 : FVec F S55 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x33 .f32 := Host.absf main_arg11
  let main_cst_20 : FVec F S_ .f32 := constant S_ .f32 0x7F800000#32
  let main_v55 : FVec F S256x33 .f32 := broadcastInDim S256x33 ![] bcast_S_S256x33 main_cst_20
  let main_v56 : IVec S256x33 1 := cmpf .olt main_v54 main_v55
  let main_c_21 : IVec S_ 1 := constantI S_ 1 1#1
  let main_v57 : IVec S_ 1 := (fun x v => Host.reduce IntOp.andi x v reducesTo_S256x33_S_d0_1 h_S_) main_v56 main_c_21
  let main_v58 : IVec S_ 1 := andi main_v53 main_v57
  let main_v59 : FVec F S33 .f32 := Host.absf main_arg12
  let main_cst_22 : FVec F S_ .f32 := constant S_ .f32 0x7F800000#32
  let main_v60 : FVec F S33 .f32 := broadcastInDim S33 ![] bcast_S_S33 main_cst_22
  let main_v61 : IVec S33 1 := cmpf .olt main_v59 main_v60
  let main_c_23 : IVec S_ 1 := constantI S_ 1 1#1
  let main_v62 : IVec S_ 1 := (fun x v => Host.reduce IntOp.andi x v reducesTo_S33_S_d0 h_S_) main_v61 main_c_23
  let main_v63 : IVec S_ 1 := andi main_v58 main_v62
  let main_v64 : FVec F S256x55 .f32 := Host.absf main_arg13
  let main_cst_24 : FVec F S_ .f32 := constant S_ .f32 0x7F800000#32
  let main_v65 : FVec F S256x55 .f32 := broadcastInDim S256x55 ![] bcast_S_S256x55 main_cst_24
  let main_v66 : IVec S256x55 1 := cmpf .olt main_v64 main_v65
  let main_c_25 : IVec S_ 1 := constantI S_ 1 1#1
  let main_v67 : IVec S_ 1 := (fun x v => Host.reduce IntOp.andi x v reducesTo_S256x55_S_d0_1 h_S_) main_v66 main_c_25
  fn_part4 (F := F) main_arg14 main_v63 main_v67

def fn_part2 {F : FTy → Type} [FloatOps F] (main_arg7 : FVec F S256x1 .f32) (main_arg8 : FVec F S1 .f32) (main_arg9 : FVec F S256x256 .f32) (main_arg10 : FVec F S256 .f32) (main_arg11 : FVec F S256x33 .f32) (main_arg12 : FVec F S33 .f32) (main_arg13 : FVec F S256x55 .f32) (main_arg14 : FVec F S55 .f32) (main_v33 : IVec S_ 1) : IVec S_ 1 :=
  let main_v34 : FVec F S256x1 .f32 := Host.absf main_arg7
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_v48 main_v49 main_v50

def fn_part1 {F : FTy → Type} [FloatOps F] (main_arg4 : FVec F S256 .f32) (main_arg5 : FVec F S256x256 .f32) (main_arg6 : FVec F S256 .f32) (main_arg7 : FVec F S256x1 .f32) (main_arg8 : FVec F S1 .f32) (main_arg9 : FVec F S256x256 .f32) (main_arg10 : FVec F S256 .f32) (main_arg11 : FVec F S256x33 .f32) (main_arg12 : FVec F S33 .f32) (main_arg13 : FVec F S256x55 .f32) (main_arg14 : FVec F S55 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S1x200000x512 .f32) (main_arg1 : FVec F S512x256 .f32) (main_arg2 : FVec F S256 .f32) (main_arg3 : FVec F S256x256 .f32) (main_arg4 : FVec F S256 .f32) (main_arg5 : FVec F S256x256 .f32) (main_arg6 : FVec F S256 .f32) (main_arg7 : FVec F S256x1 .f32) (main_arg8 : FVec F S1 .f32) (main_arg9 : FVec F S256x256 .f32) (main_arg10 : FVec F S256 .f32) (main_arg11 : FVec F S256x33 .f32) (main_arg12 : FVec F S33 .f32) (main_arg13 : FVec F S256x55 .f32) (main_arg14 : FVec F S55 .f32) : IVec S_ 1 :=
  let main_v0 : FVec F S1x200000x512 .f32 := Host.absf main_arg0
  let main_cst : FVec F S_ .f32 := constant S_ .f32 0x7F800000#32
  let main_v1 : FVec F S1x200000x512 .f32 := broadcastInDim S1x200000x512 ![] bcast_S_S1x200000x512 main_cst
  let main_v2 : IVec S1x200000x512 1 := cmpf .olt main_v0 main_v1
  let main_c : IVec S_ 1 := constantI S_ 1 1#1
  let main_v3 : IVec S_ 1 := (fun x v => Host.reduce IntOp.andi x v reducesTo_S1x200000x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S1x200000x512 : Shape := ⟨3, ![1, 200000, 512]⟩
abbrev S512x256 : Shape := ⟨2, ![512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S256x33 : Shape := ⟨2, ![256, 33]⟩
abbrev S33 : Shape := ⟨1, ![33]⟩
abbrev S256x55 : Shape := ⟨2, ![256, 55]⟩
abbrev S55 : Shape := ⟨1, ![55]⟩
abbrev S200000x512 : Shape := ⟨2, ![200000, 512]⟩
abbrev S1x256 : Shape := ⟨2, ![1, 256]⟩
abbrev S1x1 : Shape := ⟨2, ![1, 1]⟩
abbrev S200000x1 : Shape := ⟨2, ![200000, 1]⟩
abbrev S2x1x1 : Shape := ⟨3, ![2, 1, 1]⟩
abbrev S2x1x256 : Shape := ⟨3, ![2, 1, 256]⟩
abbrev S2000x512 : Shape := ⟨2, ![2000, 512]⟩
abbrev S2000x1 : Shape := ⟨2, ![2000, 1]⟩
abbrev S1x1x1 : Shape := ⟨3, ![1, 1, 1]⟩
abbrev S1x1x256 : Shape := ⟨3, ![1, 1, 256]⟩
abbrev S2000x256 : Shape := ⟨2, ![2000, 256]⟩
abbrev S1x2000 : Shape := ⟨2, ![1, 2000]⟩
abbrev S_ : Shape := ⟨0, ![]⟩
abbrev S1x200000 : Shape := ⟨2, ![1, 200000]⟩
abbrev S1x33 : Shape := ⟨2, ![1, 33]⟩
abbrev S1x55 : Shape := ⟨2, ![1, 55]⟩

abbrev nBuf : Space → Nat
  | .hbm => 80
  | .vmem => 21
  | .smem => 0
  | _ => 0

abbrev bufTy : (tb : Table) → Fin (tcTables nBuf tb) → BufTy
  | .hbm, ⟨0, _⟩ => ⟨S1x200000x512, .f32⟩
  | .hbm, ⟨1, _⟩ => ⟨S512x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S256x256, .f32⟩
  | .hbm, ⟨10, _⟩ => ⟨S256, .f32⟩
  | .hbm, ⟨11, _⟩ => ⟨S256x33, .f32⟩
  | .hbm, ⟨12, _⟩ => ⟨S33, .f32⟩
  | .hbm, ⟨13, _⟩ => ⟨S256x55, .f32⟩
  | .hbm, ⟨14, _⟩ => ⟨S55, .f32⟩
  | .hbm, ⟨15, _⟩ => ⟨S200000x512, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S1x1, .f32⟩
  | .hbm, ⟨20, _⟩ => ⟨S200000x1, .f32⟩
  | .hbm, ⟨21, _⟩ => ⟨S2x1x1, .f32⟩
  | .hbm, ⟨22, _⟩ => ⟨S2x1x1, .f32⟩
  | .hbm, ⟨23, _⟩ => ⟨S2x1x256, .f32⟩
  | .hbm, ⟨24, _⟩ => ⟨S1x1x1, .f32⟩
  | .hbm, ⟨25, _⟩ => ⟨S_, .f32⟩
  | .hbm, ⟨26, _⟩ => ⟨S1x1x1, .f32⟩
  | .hbm, ⟨27, _⟩ => ⟨S_, .f32⟩
  | .hbm, ⟨28, _⟩ => ⟨S1x1x1, .f32⟩
  | .hbm, ⟨29, _⟩ => ⟨S_, .f32⟩
  | .hbm, ⟨30, _⟩ => ⟨S1x1x1, .f32⟩
  | .hbm, ⟨31, _⟩ => ⟨S_, .f32⟩
  | .hbm, ⟨32, _⟩ => ⟨S1x1x256, .f32⟩
  | .hbm, ⟨33, _⟩ => ⟨S256, .f32⟩
  | .hbm, ⟨34, _⟩ => ⟨S1x1x256, .f32⟩
  | .hbm, ⟨35, _⟩ => ⟨S256, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S256, .f32⟩
  | .hbm, ⟨45, _⟩ => ⟨S256, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S256, .f32⟩
  | .hbm, ⟨50, _⟩ => ⟨S256, .f32⟩
  | .hbm, ⟨51, _⟩ => ⟨S1x256, .f32⟩
  | .hbm, ⟨52, _⟩ => ⟨S1x200000, .f32⟩
  | .hbm, ⟨53, _⟩ => ⟨S_, .f32⟩
  | .hbm, ⟨54, _⟩ => ⟨S1, .f32⟩
  | .hbm, ⟨55, _⟩ => ⟨S_, .f32⟩
  | .hbm, ⟨56, _⟩ => ⟨S1, .f32⟩
  | .hbm, ⟨57, _⟩ => ⟨S1, .f32⟩
  | .hbm, ⟨58, _⟩ => ⟨S1x1, .f32⟩
  | .hbm, ⟨59, _⟩ => ⟨S1x200000, .f32⟩
  | .hbm, ⟨60, _⟩ => ⟨S1x200000, .f32⟩
  | .hbm, ⟨61, _⟩ => ⟨S1x200000, .f32⟩
  | .hbm, ⟨62, _⟩ => ⟨S_, .f32⟩
  | .hbm, ⟨63, _⟩ => ⟨S1, .f32⟩
  | .hbm, ⟨64, _⟩ => ⟨S1x1, .f32⟩
  | .hbm, ⟨65, _⟩ => ⟨S1x200000, .f32⟩
  | .hbm, ⟨66, _⟩ => ⟨S1x200000, .f32⟩
  | .hbm, ⟨67, _⟩ => ⟨S1x256, .f32⟩
  | .hbm, ⟨68, _⟩ => ⟨S1x256, .f32⟩
  | .hbm, ⟨69, _⟩ => ⟨S1x256, .f32⟩
  | .hbm, ⟨70, _⟩ => ⟨S_, .f32⟩
  | .hbm, ⟨71, _⟩ => ⟨S1x256, .f32⟩
  | .hbm, ⟨72, _⟩ => ⟨S1x256, .f32⟩
  | .hbm, ⟨73, _⟩ => ⟨S1x33, .f32⟩
  | .hbm, ⟨74, _⟩ => ⟨S1x33, .f32⟩
  | .hbm, ⟨75, _⟩ => ⟨S1x33, .f32⟩
  | .hbm, ⟨76, _⟩ => ⟨S1x55, .f32⟩
  | .hbm, ⟨77, _⟩ => ⟨S1x55, .f32⟩
  | .hbm, ⟨78, _⟩ => ⟨S1x55, .f32⟩
  | .hbm, ⟨79, _⟩ => ⟨S55, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x1, .f32⟩
  | .local _ .vmem, ⟨9, _⟩ => ⟨S1x1, .f32⟩
  | .local _ .vmem, ⟨10, _⟩ => ⟨S2000x1, .f32⟩
  | .local _ .vmem, ⟨11, _⟩ => ⟨S2000x1, .f32⟩
  | .local _ .vmem, ⟨12, _⟩ => ⟨S1x1x1, .f32⟩
  | .local _ .vmem, ⟨13, _⟩ => ⟨S1x1x1, .f32⟩
  | .local _ .vmem, ⟨14, _⟩ => ⟨S1x1x1, .f32⟩
  | .local _ .vmem, ⟨15, _⟩ => ⟨S1x1x1, .f32⟩
  | .local _ .vmem, ⟨16, _⟩ => ⟨S1x1x256, .f32⟩
  | .local _ .vmem, ⟨17, _⟩ => ⟨S1x1x256, .f32⟩
  | .local _ .vmem, ⟨18, _⟩ => ⟨S1x1, .f32⟩
  | .local _ .vmem, ⟨19, _⟩ => ⟨S1x1, .f32⟩
  | .local _ .vmem, ⟨20, _⟩ => ⟨S1x256, .f32⟩
  | _, _ => ⟨S1x200000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev main_v5_2 : Ref sig .tc := ⟨.hbm, 22, rfl⟩
abbrev main_v5_3 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst : Ref sig .tc := ⟨.hbm, 53, rfl⟩
abbrev main_v35 : Ref sig .tc := ⟨.hbm, 54, rfl⟩
abbrev main_cst_0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_1 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call0_cst : Ref sig .tc := ⟨.hbm, 70, rfl⟩
abbrev main_call0_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v72 : BitVec 1 := Scalar.cmpi .eq arg1 c49_i32
  let v73 : BitVec 32 := Scalar.extui v72
  let c0_i32_39 : BitVec 32 := 0#32
  let v74 : BitVec 1 := Scalar.cmpi .ne v73 c0_i32_39
  v74

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

class Facts₀ : Prop where
  shapeCasts_S1x200000x512_S200000x512 : S1x200000x512.ShapeCasts S200000x512
  shapeCasts_S256_S1x256 : S256.ShapeCasts S1x256
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  transposes_S2000x1_p1_0_S1x2000 : S2000x1.Transposes [1, 0] S1x2000
  reduces_S1x2000_S1 : S1x2000.Reduces [1] S1
  broadcasts_S1x1_S1x2000 : S1x1.Broadcasts S1x2000
  broadcasts_S1x1_S1x256 : S1x1.Broadcasts S1x256
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  slices_S2x1x256_S1x1x256_0_0_0 : S2x1x256.Slices ![0, 0, 0] S1x1x256
  shapeCasts_S1x1x256_S256 : S1x1x256.ShapeCasts S256
  slices_S2x1x256_S1x1x256_1_0_0 : S2x1x256.Slices ![1, 0, 0] S1x1x256
  bcast_S_S256 : S_.BroadcastsInDim S256 (![] : Fin 0 → Fin S256.rank)
  shapeCasts_S200000x1_S1x200000 : S200000x1.ShapeCasts S1x200000
  reducesTo_S1x200000_S1_d1 : S1x200000.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x200000_0_1 : S1x1.BroadcastsInDim S1x200000 (![0, 1] : Fin 2 → Fin S1x200000.rank)
  bcast_S256_S1x256_1 : S256.BroadcastsInDim S1x256 (![1] : Fin 1 → Fin S1x256.rank)
  bcast_S_S1x256 : S_.BroadcastsInDim S1x256 (![] : Fin 0 → Fin S1x256.rank)
  bcast_S33_S1x33_1 : S33.BroadcastsInDim S1x33 (![1] : Fin 1 → Fin S1x33.rank)
  bcast_S55_S1x55_1 : S55.BroadcastsInDim S1x55 (![1] : Fin 1 → Fin S1x55.rank)
  shapeCasts_S1x55_S55 : S1x55.ShapeCasts S55
  dot_S2000x512_S512x256_S2000x256_1_0_0_1_n_n_wf : DotDims.WF S2000x512 S512x256 S2000x256 [1] [0] [0] [1] [] []
  dot_S2000x256_S256x256_S2000x256_1_0_0_1_n_n_wf : DotDims.WF S2000x256 S256x256 S2000x256 [1] [0] [0] [1] [] []
  dot_S2000x256_S256x1_S2000x1_1_0_0_1_n_n_wf : DotDims.WF S2000x256 S256x1 S2000x1 [1] [0] [0] [1] [] []
  dot_S1x2000_S2000x256_S1x256_1_0_0_1_n_n_wf : DotDims.WF S1x2000 S2000x256 S1x256 [1] [0] [0] [1] [] []
  dot_S1x256_S256x256_S1x256_1_0_0_1_n_n_wf : DotDims.WF S1x256 S256x256 S1x256 [1] [0] [0] [1] [] []
  dot_S1x256_S256x33_S1x33_1_0_0_1_n_n_wf : DotDims.WF S1x256 S256x33 S1x33 [1] [0] [0] [1] [] []
  dot_S1x256_S256x55_S1x55_1_0_0_1_n_n_wf : DotDims.WF S1x256 S256x55 S1x55 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S200000x512.size a
  hwx0_0 : ∀ i : grid0.Coords, EltTy.bits .f32 = 32 ∨ (Rect.block (s := S200000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S256x1.size a
  hwx0_7 : ∀ i : grid0.Coords, EltTy.bits .f32 = 32 ∨ (Rect.block (s := S256x1) S256x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x1.size a ≤ S200000x1.size a
  hwx0_9 : ∀ i : grid0.Coords, EltTy.bits .f32 = 32 ∨ (Rect.block (s := S200000x1) S2000x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x1.size a ≤ S2x1x1.size a
  hwx0_10 : ∀ i : grid0.Coords, EltTy.bits .f32 = 32 ∨ (Rect.block (s := S2x1x1) S1x1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x1.size a ≤ S2x1x1.size a
  hwx0_11 : ∀ i : grid0.Coords, EltTy.bits .f32 = 32 ∨ (Rect.block (s := S2x1x1) S1x1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x256.size a ≤ S2x1x256.size a
  hwx0_12 : ∀ i : grid0.Coords, EltTy.bits .f32 = 32 ∨ (Rect.block (s := S2x1x256) S1x1x256.size (cc0_transform_12 i) (hinb0_12 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf
def dot_S1x2000_S2000x256_S1x256_1_0_0_1_n_n : DotDims S1x2000 S2000x256 S1x256 where
  lhsContracting := [1]
  rhsContracting := [0]
  lhsNonContracting := [0]
  rhsNonContracting := [1]
  lhsBatch := []
  rhsBatch := []
  wf := dot_S1x2000_S2000x256_S1x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S1x256_S256x33_S1x33_1_0_0_1_n_n : DotDims S1x256 S256x33 S1x33 where
  lhsContracting := [1]
  rhsContracting := [0]
  lhsNonContracting := [0]
  rhsNonContracting := [1]
  lhsBatch := []
  rhsBatch := []
  wf := dot_S1x256_S256x33_S1x33_1_0_0_1_n_n_wf
def dot_S1x256_S256x55_S1x55_1_0_0_1_n_n : DotDims S1x256 S256x55 S1x55 where
  lhsContracting := [1]
  rhsContracting := [0]
  lhsNonContracting := [0]
  rhsNonContracting := [1]
  lhsBatch := []
  rhsBatch := []
  wf := dot_S1x256_S256x55_S1x55_1_0_0_1_n_n_wf

abbrev win0_0 : Pipeline.Window sig grid0 :=
  Pipeline.Window.ofSpec (Memref.whole main_v0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5_0) S2000x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_1) S1x1x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_2) S1x1x1.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v5_3) S1x1x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | 12 => fun i => !(k0_cond2 i == 1#1) | ⟨_ + 13, h⟩ => absurd h (Nat.not_lt.2 (Nat.le_add_left _ _))

class Facts : Prop extends Facts₀ where

variable [Facts]
-- ==== ReferenceIdeal.lean ====
abbrev S1x200000x512 : Shape := ⟨3, ![1, 200000, 512]⟩
abbrev S512x256 : Shape := ⟨2, ![512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S256x33 : Shape := ⟨2, ![256, 33]⟩
abbrev S33 : Shape := ⟨1, ![33]⟩
abbrev S256x55 : Shape := ⟨2, ![256, 55]⟩
abbrev S55 : Shape := ⟨1, ![55]⟩
abbrev S200000x512 : Shape := ⟨2, ![200000, 512]⟩
abbrev S200000x256 : Shape := ⟨2, ![200000, 256]⟩
abbrev S1x256 : Shape := ⟨2, ![1, 256]⟩
abbrev S_ : Shape := ⟨0, ![]⟩
abbrev S200000x1 : Shape := ⟨2, ![200000, 1]⟩
abbrev S1x1 : Shape := ⟨2, ![1, 1]⟩
abbrev S1x200000 : Shape := ⟨2, ![1, 200000]⟩
abbrev S1x33 : Shape := ⟨2, ![1, 33]⟩
abbrev S1x55 : Shape := ⟨2, ![1, 55]⟩

abbrev nBuf : Space → Nat
  | .hbm => 74
  | .vmem => 0
  | .smem => 0
  | _ => 0

abbrev bufTy : (tb : Table) → Fin (tcTables nBuf tb) → BufTy
  | .hbm, ⟨0, _⟩ => ⟨S1x200000x512, .f32⟩
  | .hbm, ⟨1, _⟩ => ⟨S512x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S256x256, .f32⟩
  | .hbm, ⟨10, _⟩ => ⟨S256, .f32⟩
  | .hbm, ⟨11, _⟩ => ⟨S256x33, .f32⟩
  | .hbm, ⟨12, _⟩ => ⟨S33, .f32⟩
  | .hbm, ⟨13, _⟩ => ⟨S256x55, .f32⟩
  | .hbm, ⟨14, _⟩ => ⟨S55, .f32⟩
  | .hbm, ⟨15, _⟩ => ⟨S200000x512, .f32⟩
  | .hbm, ⟨16, _⟩ => ⟨S200000x256, .f32⟩
  | .hbm, ⟨17, _⟩ => ⟨S1x256, .f32⟩
  | .hbm, ⟨18, _⟩ => ⟨S200000x256, .f32⟩
  | .hbm, ⟨19, _⟩ => ⟨S200000x256, .f32⟩
  | .hbm, ⟨20, _⟩ => ⟨S_, .f32⟩
  | .hbm, ⟨21, _⟩ => ⟨S200000x256, .f32⟩
  | .hbm, ⟨22, _⟩ => ⟨S200000x256, .f32⟩
  | .hbm, ⟨23, _⟩ => ⟨S200000x256, .f32⟩
  | .hbm, ⟨24, _⟩ => ⟨S1x256, .f32⟩
  | .hbm, ⟨25, _⟩ => ⟨S200000x256, .f32⟩
  | .hbm, ⟨26, _⟩ => ⟨S200000x256, .f32⟩
  | .hbm, ⟨27, _⟩ => ⟨S200000x256, .f32⟩
  | .hbm, ⟨28, _⟩ => ⟨S200000x256, .f32⟩
  | .hbm, ⟨29, _⟩ => ⟨S1x256, .f32⟩
  | .hbm, ⟨30, _⟩ => ⟨S200000x256, .f32⟩
  | .hbm, ⟨31, _⟩ => ⟨S200000x256, .f32⟩
  | .hbm, ⟨32, _⟩ => ⟨S200000x256, .f32⟩
  | .hbm, ⟨33, _⟩ => ⟨S200000x256, .f32⟩
  | .hbm, ⟨34, _⟩ => ⟨S_, .f32⟩
  | .hbm, ⟨35, _⟩ => ⟨S200000x256, .f32⟩
  | .hbm, ⟨36, _⟩ => ⟨S200000x256, .f32⟩
  | .hbm, ⟨37, _⟩ => ⟨S_, .f32⟩
  | .hbm, ⟨38, _⟩ => ⟨S200000x256, .f32⟩
  | .hbm, ⟨39, _⟩ => ⟨S200000x256, .f32⟩
  | .hbm, ⟨40, _⟩ => ⟨S200000x256, .f32⟩
  | .hbm, ⟨41, _⟩ => ⟨S200000x1, .f32⟩
  | .hbm, ⟨42, _⟩ => ⟨S1x1, .f32⟩
  | .hbm, ⟨43, _⟩ => ⟨S200000x1, .f32⟩
  | .hbm, ⟨44, _⟩ => ⟨S200000x1, .f32⟩
  | .hbm, ⟨45, _⟩ => ⟨S1x200000, .f32⟩
  | .hbm, ⟨46, _⟩ => ⟨S_, .f32⟩
  | .hbm, ⟨47, _⟩ => ⟨S1, .f32⟩
  | .hbm, ⟨48, _⟩ => ⟨S_, .f32⟩
  | .hbm, ⟨49, _⟩ => ⟨S1, .f32⟩
  | .hbm, ⟨50, _⟩ => ⟨S1, .f32⟩
  | .hbm, ⟨51, _⟩ => ⟨S1x1, .f32⟩
  | .hbm, ⟨52, _⟩ => ⟨S1x200000, .f32⟩
  | .hbm, ⟨53, _⟩ => ⟨S1x200000, .f32⟩
  | .hbm, ⟨54, _⟩ => ⟨S1x200000, .f32⟩
  | .hbm, ⟨55, _⟩ => ⟨S_, .f32⟩
  | .hbm, ⟨56, _⟩ => ⟨S1, .f32⟩
  | .hbm, ⟨57, _⟩ => ⟨S1x1, .f32⟩
  | .hbm, ⟨58, _⟩ => ⟨S1x200000, .f32⟩
  | .hbm, ⟨59, _⟩ => ⟨S1x200000, .f32⟩
  | .hbm, ⟨60, _⟩ => ⟨S1x256, .f32⟩
  | .hbm, ⟨61, _⟩ => ⟨S1x256, .f32⟩
  | .hbm, ⟨62, _⟩ => ⟨S1x256, .f32⟩
  | .hbm, ⟨63, _⟩ => ⟨S1x256, .f32⟩
  | .hbm, ⟨64, _⟩ => ⟨S_, .f32⟩
  | .hbm, ⟨65, _⟩ => ⟨S1x256, .f32⟩
  | .hbm, ⟨66, _⟩ => ⟨S1x256, .f32⟩
  | .hbm, ⟨67, _⟩ => ⟨S1x33, .f32⟩
  | .hbm, ⟨68, _⟩ => ⟨S1x33, .f32⟩
  | .hbm, ⟨69, _⟩ => ⟨S1x33, .f32⟩
  | .hbm, ⟨70, _⟩ => ⟨S1x55, .f32⟩
  | .hbm, ⟨71, _⟩ => ⟨S1x55, .f32⟩
  | .hbm, ⟨72, _⟩ => ⟨S1x55, .f32⟩
  | .hbm, ⟨73, _⟩ => ⟨S55, .f32⟩
  | _, _ => ⟨S1x200000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_1 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_3 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call1_cst : Ref sig .tc := ⟨.hbm, 64, rfl⟩
abbrev main_call1_v0 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]

class Facts₀ : Prop where
  shapeCasts_S1x200000x512_S200000x512 : S1x200000x512.ShapeCasts S200000x512
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  transposes_S200000x1_S1x200000_1_0 : S200000x1.Transposes [1, 0] S1x200000
  reducesTo_S1x200000_S1_d1 : S1x200000.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x200000_0_1 : S1x1.BroadcastsInDim S1x200000 (![0, 1] : Fin 2 → Fin S1x200000.rank)
  bcast_S_S1x256 : S_.BroadcastsInDim S1x256 (![] : Fin 0 → Fin S1x256.rank)
  bcast_S33_S1x33_1 : S33.BroadcastsInDim S1x33 (![1] : Fin 1 → Fin S1x33.rank)
  bcast_S55_S1x55_1 : S55.BroadcastsInDim S1x55 (![1] : Fin 1 → Fin S1x55.rank)
  shapeCasts_S1x55_S55 : S1x55.ShapeCasts S55
  dot_S200000x512_S512x256_S200000x256_1_0_0_1_n_n_wf : DotDims.WF S200000x512 S512x256 S200000x256 [1] [0] [0] [1] [] []
  dot_S200000x256_S256x256_S200000x256_1_0_0_1_n_n_wf : DotDims.WF S200000x256 S256x256 S200000x256 [1] [0] [0] [1] [] []
  dot_S200000x256_S256x1_S200000x1_1_0_0_1_n_n_wf : DotDims.WF S200000x256 S256x1 S200000x1 [1] [0] [0] [1] [] []
  dot_S1x200000_S200000x256_S1x256_1_0_0_1_n_n_wf : DotDims.WF S1x200000 S200000x256 S1x256 [1] [0] [0] [1] [] []
  dot_S1x256_S256x256_S1x256_1_0_0_1_n_n_wf : DotDims.WF S1x256 S256x256 S1x256 [1] [0] [0] [1] [] []
  dot_S1x256_S256x33_S1x33_1_0_0_1_n_n_wf : DotDims.WF S1x256 S256x33 S1x33 [1] [0] [0] [1] [] []
  dot_S1x256_S256x55_S1x55_1_0_0_1_n_n_wf : DotDims.WF S1x256 S256x55 S1x55 [1] [0] [0] [1] [] []

variable [Facts₀]

def dot_S200000x512_S512x256_S200000x256_1_0_0_1_n_n : DotDims S200000x512 S512x256 S200000x256 where
  lhsContracting := [1]
  rhsContracting := [0]
  lhsNonContracting := [0]
  rhsNonContracting := [1]
  lhsBatch := []
  rhsBatch := []
  wf := dot_S200000x512_S512x256_S200000x256_1_0_0_1_n_n_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def dot_S200000x256_S256x1_S200000x1_1_0_0_1_n_n : DotDims S200000x256 S256x1 S200000x1 where
  lhsContracting := [1]
  rhsContracting := [0]
  lhsNonContracting := [0]
  rhsNonContracting := [1]
  lhsBatch := []
  rhsBatch := []
  wf := dot_S200000x256_S256x1_S200000x1_1_0_0_1_n_n_wf
def dot_S1x200000_S200000x256_S1x256_1_0_0_1_n_n : DotDims S1x200000 S200000x256 S1x256 where
  lhsContracting := [1]
  rhsContracting := [0]
  lhsNonContracting := [0]
  rhsNonContracting := [1]
  lhsBatch := []
  rhsBatch := []
  wf := dot_S1x200000_S200000x256_S1x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S1x256_S256x33_S1x33_1_0_0_1_n_n : DotDims S1x256 S256x33 S1x33 where
  lhsContracting := [1]
  rhsContracting := [0]
  lhsNonContracting := [0]
  rhsNonContracting := [1]
  lhsBatch := []
  rhsBatch := []
  wf := dot_S1x256_S256x33_S1x33_1_0_0_1_n_n_wf
def dot_S1x256_S256x55_S1x55_1_0_0_1_n_n : DotDims S1x256 S256x55 S1x55 where
  lhsContracting := [1]
  rhsContracting := [0]
  lhsNonContracting := [0]
  rhsNonContracting := [1]
  lhsBatch := []
  rhsBatch := []
  wf := dot_S1x256_S256x55_S1x55_1_0_0_1_n_n_wf

class Facts : Prop extends Facts₀ where

variable [Facts]
-- ==== Proof.Arrays.lean ====
/-
  What the pallas_call's four result arrays hold after the run, given what every grid step leaves.

  The score column `[200000, 1]` is written block by block, 2000 rows per step, every step writing its own block: the 100
  blocks tile it. Each of the three small results has one block per half of the grid, written back once, after the half's
  last step: the two blocks tile it.
-/
import proofs.«105278_j19679540150395_2_alg».proof.Proof.KernelIdealFrame
import Idealize.ShloMosaic.PureOps.Ideal
import Idealize.ShloMosaic.Lib.Pipeline.Value
import Idealize.ShloMosaic.Lib.ValueIdx

set_option maxRecDepth 16384

noncomputable section

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (m : (ℓ : Loc nD τ sig) → Buf (Elt Ideal) ℓ) (c : Dev nD)

/-- The score column's block at step `t` is block `t`. -/
theorem idx9 : ∀ t : Fin cfg0.N, win0_9.index t 0 = t.val ∧ win0_9.index t 1 = 0 :=
  (by decide +kernel : ∀ t : Fin grid0.N, _)

/-- The small results' block at step `t` is the block of `t`'s half. -/
theorem idx_small : ∀ t : Fin cfg0.N,
    (win0_10.index t 0 = t.val / 50 ∧ win0_10.index t 1 = 0 ∧ win0_10.index t 2 = 0)
    ∧ (win0_11.index t 0 = t.val / 50 ∧ win0_11.index t 1 = 0 ∧ win0_11.index t 2 = 0)
    ∧ (win0_12.index t 0 = t.val / 50 ∧ win0_12.index t 1 = 0 ∧ win0_12.index t 2 = 0) :=
  (by decide +kernel : ∀ t : Fin grid0.N, _)

section Out9

variable (G9 : S200000x1.Idx → EReal)
  (h9 : ∀ (t : Fin cfg0.N) (r : Fin 2000) (P : Fin 200000), P.val = t.val * 2000 + r.val →
    (outsAt0 m c t.val t.isLt).1 (ix2 r (0 : Fin 1)) = G9 (ix2 P (0 : Fin 1)))

include h9 in
/-- What step `t` writes back is block `t` of the column. -/
theorem flushed9 (t : Fin cfg0.N) :
    (dats m 0 c).flushed 9 t = ((cfg0.win 9).blk t).view.read (Elt Ideal) G9 := by
  have hN : cfg0.N = 100 := N_0
  have ht : t.val < 100 := lt_of_lt_of_eq t.isLt hN
  show (cfg0.win 9).cut (grid0.coords t) ((dats m 0 c).after 9 t) = _
  rw [after0_9]
  funext y
  obtain ⟨r, u, rfl⟩ : ∃ (r : Fin 2000) (u : Fin 1), y = ix2 r u := ⟨y 0, y 1, eq_ix2 y⟩
  obtain rfl : u = 0 := Subsingleton.elim _ _
  rw [View.read_apply]
  refine (h9 t r ⟨t.val * 2000 + r.val, by have := r.isLt; omega⟩ rfl).trans (congrArg G9 ?_)
  funext a; apply Fin.ext
  match a with
  | ⟨0, _⟩ => show t.val * 2000 + r.val = win0_9.index t 0 * 2000 + 1 * r.val; rw [(idx9 t).1]; omega
  | ⟨1, _⟩ => show 0 = win0_9.index t 1 * 1 + 1 * 0; rw [(idx9 t).2]

theorem mem_blk9 (t : Fin cfg0.N) (i : S200000x1.Idx) :
    i ∈ ((cfg0.win 9).blk t).view.set ↔ ∀ a : Fin 2, win0_9.index t a * S2000x1.size a ≤ (i a).val
      ∧ (i a).val < win0_9.index t a * S2000x1.size a + S2000x1.size a := by
  show i ∈ ((View.whole main_v5_0).slice (win0_9.rect t)).set ↔ _
  rw [View.set_slice_whole, Rect.mem_set_unit]
  exact Iff.rfl

/-- Row `p` of the column is in the block of step `p / 2000`. -/
theorem cover9 (i : S200000x1.Idx) :
    ∃ t : Fin cfg0.N, (cfg0.win 9).flush t = true ∧ i ∈ ((cfg0.win 9).blk t).view.set := by
  have hN : cfg0.N = 100 := N_0
  have hi0 : (i 0).val < 200000 := (i 0).isLt
  have hi1 : (i 1).val < 1 := (i 1).isLt
  have hlt : (i 0).val / 2000 < cfg0.N := by omega
  refine ⟨⟨(i 0).val / 2000, hlt⟩, flush0_9 _, ?_⟩
  rw [mem_blk9]
  obtain ⟨e0, e1⟩ := idx9 ⟨(i 0).val / 2000, hlt⟩
  have e0' : win0_9.index ⟨(i 0).val / 2000, hlt⟩ 0 = (i 0).val / 2000 := e0
  intro a
  match a with
  | ⟨0, _⟩ => show win0_9.index _ 0 * 2000 ≤ (i 0).val ∧ (i 0).val < win0_9.index _ 0 * 2000 + 2000; rw [e0']; omega
  | ⟨1, _⟩ => show win0_9.index _ 1 * 1 ≤ (i 1).val ∧ (i 1).val < win0_9.index _ 1 * 1 + 1; rw [e1]; omega

include h9 in
theorem final9 : (dats m 0 c).arrAt 9 cfg0.N = G9 :=
  (dats m 0 c).arrAt_eq_of_cover 9 G9 (fun t _ => flushed9 m c G9 h9 t) cover9

end Out9

section Out10

variable (G10 : S2x1x1.Idx → EReal)
  (h10 : ∀ (t : Fin cfg0.N), t.val % 50 = 49 → ∀ (j : Fin 1) (Q : Fin 2), Q.val = t.val / 50 →
    (outsAt0 m c t.val t.isLt).2.1 (ix3 (0 : Fin 1) (0 : Fin 1) j) = G10 (ix3 Q (0 : Fin 1) j))

include h10 in
/-- What a half's last step writes back is the half's block of the final maxima. -/
theorem flushed10 (t : Fin cfg0.N) (hf : (cfg0.win 10).flush t = true) :
    (dats m 0 c).flushed 10 t = ((cfg0.win 10).blk t).view.read (Elt Ideal) G10 := by
  have h49 : t.val % 50 = 49 := (flush0_10 t).mp hf
  have hN : cfg0.N = 100 := N_0
  have ht : t.val < 100 := lt_of_lt_of_eq t.isLt hN
  show (cfg0.win 10).cut (grid0.coords t) ((dats m 0 c).after 10 t) = _
  rw [after0_10]
  funext y
  obtain ⟨u, v, j, rfl⟩ : ∃ (u : Fin 1) (v : Fin 1) (j : Fin 1), y = ix3 u v j := ⟨y 0, y 1, y 2, eq_ix3 y⟩
  obtain rfl : u = 0 := Subsingleton.elim _ _
  obtain rfl : v = 0 := Subsingleton.elim _ _
  rw [View.read_apply]
  refine (h10 t h49 j ⟨t.val / 50, by omega⟩ rfl).trans (congrArg G10 ?_)
  funext a; apply Fin.ext
  match a with
  | ⟨0, _⟩ => show t.val / 50 = win0_10.index t 0 * 1 + 1 * 0; rw [(idx_small t).1.1]; omega
  | ⟨1, _⟩ => show 0 = win0_10.index t 1 * 1 + 1 * 0; rw [(idx_small t).1.2.1]
  | ⟨2, _⟩ => show j.val = win0_10.index t 2 * 1 + 1 * j.val; rw [(idx_small t).1.2.2]; omega

theorem mem_blk10 (t : Fin cfg0.N) (i : S2x1x1.Idx) :
    i ∈ ((cfg0.win 10).blk t).view.set ↔ ∀ a : Fin 3, win0_10.index t a * S1x1x1.size a ≤ (i a).val
      ∧ (i a).val < win0_10.index t a * S1x1x1.size a + S1x1x1.size a := by
  show i ∈ ((View.whole main_v5_1).slice (win0_10.rect t)).set ↔ _
  rw [View.set_slice_whole, Rect.mem_set_unit]
  exact Iff.rfl

/-- The last steps of the two halves cover the array. -/
theorem cover10 (i : S2x1x1.Idx) :
    ∃ t : Fin cfg0.N, (cfg0.win 10).flush t = true ∧ i ∈ ((cfg0.win 10).blk t).view.set := by
  have hN : cfg0.N = 100 := N_0
  have hi0 : (i 0).val < 2 := (i 0).isLt
  have hi1 : (i 1).val < 1 := (i 1).isLt
  have hi2 : (i 2).val < 1 := (i 2).isLt
  have hlt : (i 0).val * 50 + 49 < cfg0.N := by omega
  refine ⟨⟨(i 0).val * 50 + 49, hlt⟩, (flush0_10 _).mpr (by show ((i 0).val * 50 + 49) % 50 = 49; omega), ?_⟩
  rw [mem_blk10]
  obtain ⟨e0, e1, e2⟩ := (idx_small ⟨(i 0).val * 50 + 49, hlt⟩).1
  have e0' : win0_10.index ⟨(i 0).val * 50 + 49, hlt⟩ 0 = (i 0).val := by rw [e0]; show ((i 0).val * 50 + 49) / 50 = (i 0).val; omega
  intro a
  match a with
  | ⟨0, _⟩ => show win0_10.index _ 0 * 1 ≤ (i 0).val ∧ (i 0).val < win0_10.index _ 0 * 1 + 1; rw [e0']; omega
  | ⟨1, _⟩ => show win0_10.index _ 1 * 1 ≤ (i 1).val ∧ (i 1).val < win0_10.index _ 1 * 1 + 1; rw [e1]; omega
  | ⟨2, _⟩ => show win0_10.index _ 2 * 1 ≤ (i 2).val ∧ (i 2).val < win0_10.index _ 2 * 1 + 1; rw [e2]; omega

include h10 in
theorem final10 : (dats m 0 c).arrAt 10 cfg0.N = G10 :=
  (dats m 0 c).arrAt_eq_of_cover 10 G10 (flushed10 m c G10 h10) (cover10)

end Out10

section Out11

variable (G11 : S2x1x1.Idx → EReal)
  (h11 : ∀ (t : Fin cfg0.N), t.val % 50 = 49 → ∀ (j : Fin 1) (Q : Fin 2), Q.val = t.val / 50 →
    (outsAt0 m c t.val t.isLt).2.2.1 (ix3 (0 : Fin 1) (0 : Fin 1) j) = G11 (ix3 Q (0 : Fin 1) j))

include h11 in
/-- What a half's last step writes back is the half's block of the final denominators. -/
theorem flushed11 (t : Fin cfg0.N) (hf : (cfg0.win 11).flush t = true) :
    (dats m 0 c).flushed 11 t = ((cfg0.win 11).blk t).view.read (Elt Ideal) G11 := by
  have h49 : t.val % 50 = 49 := (flush0_11 t).mp hf
  have hN : cfg0.N = 100 := N_0
  have ht : t.val < 100 := lt_of_lt_of_eq t.isLt hN
  show (cfg0.win 11).cut (grid0.coords t) ((dats m 0 c).after 11 t) = _
  rw [after0_11]
  funext y
  obtain ⟨u, v, j, rfl⟩ : ∃ (u : Fin 1) (v : Fin 1) (j : Fin 1), y = ix3 u v j := ⟨y 0, y 1, y 2, eq_ix3 y⟩
  obtain rfl : u = 0 := Subsingleton.elim _ _
  obtain rfl : v = 0 := Subsingleton.elim _ _
  rw [View.read_apply]
  refine (h11 t h49 j ⟨t.val / 50, by omega⟩ rfl).trans (congrArg G11 ?_)
  funext a; apply Fin.ext
  match a with
  | ⟨0, _⟩ => show t.val / 50 = win0_11.index t 0 * 1 + 1 * 0; rw [(idx_small t).2.1.1]; omega
  | ⟨1, _⟩ => show 0 = win0_11.index t 1 * 1 + 1 * 0; rw [(idx_small t).2.1.2.1]
  | ⟨2, _⟩ => show j.val = win0_11.index t 2 * 1 + 1 * j.val; rw [(idx_small t).2.1.2.2]; omega

theorem mem_blk11 (t : Fin cfg0.N) (i : S2x1x1.Idx) :
    i ∈ ((cfg0.win 11).blk t).view.set ↔ ∀ a : Fin 3, win0_11.index t a * S1x1x1.size a ≤ (i a).val
      ∧ (i a).val < win0_11.index t a * S1x1x1.size a + S1x1x1.size a := by
  show i ∈ ((View.whole main_v5_2).slice (win0_11.rect t)).set ↔ _
  rw [View.set_slice_whole, Rect.mem_set_unit]
  exact Iff.rfl

/-- The last steps of the two halves cover the array. -/
theorem cover11 (i : S2x1x1.Idx) :
    ∃ t : Fin cfg0.N, (cfg0.win 11).flush t = true ∧ i ∈ ((cfg0.win 11).blk t).view.set := by
  have hN : cfg0.N = 100 := N_0
  have hi0 : (i 0).val < 2 := (i 0).isLt
  have hi1 : (i 1).val < 1 := (i 1).isLt
  have hi2 : (i 2).val < 1 := (i 2).isLt
  have hlt : (i 0).val * 50 + 49 < cfg0.N := by omega
  refine ⟨⟨(i 0).val * 50 + 49, hlt⟩, (flush0_11 _).mpr (by show ((i 0).val * 50 + 49) % 50 = 49; omega), ?_⟩
  rw [mem_blk11]
  obtain ⟨e0, e1, e2⟩ := (idx_small ⟨(i 0).val * 50 + 49, hlt⟩).2.1
  have e0' : win0_11.index ⟨(i 0).val * 50 + 49, hlt⟩ 0 = (i 0).val := by rw [e0]; show ((i 0).val * 50 + 49) / 50 = (i 0).val; omega
  intro a
  match a with
  | ⟨0, _⟩ => show win0_11.index _ 0 * 1 ≤ (i 0).val ∧ (i 0).val < win0_11.index _ 0 * 1 + 1; rw [e0']; omega
  | ⟨1, _⟩ => show win0_11.index _ 1 * 1 ≤ (i 1).val ∧ (i 1).val < win0_11.index _ 1 * 1 + 1; rw [e1]; omega
  | ⟨2, _⟩ => show win0_11.index _ 2 * 1 ≤ (i 2).val ∧ (i 2).val < win0_11.index _ 2 * 1 + 1; rw [e2]; omega

include h11 in
theorem final11 : (dats m 0 c).arrAt 11 cfg0.N = G11 :=
  (dats m 0 c).arrAt_eq_of_cover 11 G11 (flushed11 m c G11 h11) (cover11)

end Out11

section Out12

variable (G12 : S2x1x256.Idx → EReal)
  (h12 : ∀ (t : Fin cfg0.N), t.val % 50 = 49 → ∀ (j : Fin 256) (Q : Fin 2), Q.val = t.val / 50 →
    (outsAt0 m c t.val t.isLt).2.2.2.1 (ix3 (0 : Fin 1) (0 : Fin 1) j) = G12 (ix3 Q (0 : Fin 1) j))

include h12 in
/-- What a half's last step writes back is the half's block of the final numerators. -/
theorem flushed12 (t : Fin cfg0.N) (hf : (cfg0.win 12).flush t = true) :
    (dats m 0 c).flushed 12 t = ((cfg0.win 12).blk t).view.read (Elt Ideal) G12 := by
  have h49 : t.val % 50 = 49 := (flush0_12 t).mp hf
  have hN : cfg0.N = 100 := N_0
  have ht : t.val < 100 := lt_of_lt_of_eq t.isLt hN
  show (cfg0.win 12).cut (grid0.coords t) ((dats m 0 c).after 12 t) = _
  rw [after0_12]
  funext y
  obtain ⟨u, v, j, rfl⟩ : ∃ (u : Fin 1) (v : Fin 1) (j : Fin 256), y = ix3 u v j := ⟨y 0, y 1, y 2, eq_ix3 y⟩
  obtain rfl : u = 0 := Subsingleton.elim _ _
  obtain rfl : v = 0 := Subsingleton.elim _ _
  rw [View.read_apply]
  refine (h12 t h49 j ⟨t.val / 50, by omega⟩ rfl).trans (congrArg G12 ?_)
  funext a; apply Fin.ext
  match a with
  | ⟨0, _⟩ => show t.val / 50 = win0_12.index t 0 * 1 + 1 * 0; rw [(idx_small t).2.2.1]; omega
  | ⟨1, _⟩ => show 0 = win0_12.index t 1 * 1 + 1 * 0; rw [(idx_small t).2.2.2.1]
  | ⟨2, _⟩ => show j.val = win0_12.index t 2 * 256 + 1 * j.val; rw [(idx_small t).2.2.2.2]; omega

theorem mem_blk12 (t : Fin cfg0.N) (i : S2x1x256.Idx) :
    i ∈ ((cfg0.win 12).blk t).view.set ↔ ∀ a : Fin 3, win0_12.index t a * S1x1x256.size a ≤ (i a).val
      ∧ (i a).val < win0_12.index t a * S1x1x256.size a + S1x1x256.size a := by
  show i ∈ ((View.whole main_v5_3).slice (win0_12.rect t)).set ↔ _
  rw [View.set_slice_whole, Rect.mem_set_unit]
  exact Iff.rfl

/-- The last steps of the two halves cover the array. -/
theorem cover12 (i : S2x1x256.Idx) :
    ∃ t : Fin cfg0.N, (cfg0.win 12).flush t = true ∧ i ∈ ((cfg0.win 12).blk t).view.set := by
  have hN : cfg0.N = 100 := N_0
  have hi0 : (i 0).val < 2 := (i 0).isLt
  have hi1 : (i 1).val < 1 := (i 1).isLt
  have hi2 : (i 2).val < 256 := (i 2).isLt
  have hlt : (i 0).val * 50 + 49 < cfg0.N := by omega
  refine ⟨⟨(i 0).val * 50 + 49, hlt⟩, (flush0_12 _).mpr (by show ((i 0).val * 50 + 49) % 50 = 49; omega), ?_⟩
  rw [mem_blk12]
  obtain ⟨e0, e1, e2⟩ := (idx_small ⟨(i 0).val * 50 + 49, hlt⟩).2.2
  have e0' : win0_12.index ⟨(i 0).val * 50 + 49, hlt⟩ 0 = (i 0).val := by rw [e0]; show ((i 0).val * 50 + 49) / 50 = (i 0).val; omega
  intro a
  match a with
  | ⟨0, _⟩ => show win0_12.index _ 0 * 1 ≤ (i 0).val ∧ (i 0).val < win0_12.index _ 0 * 1 + 1; rw [e0']; omega
  | ⟨1, _⟩ => show win0_12.index _ 1 * 1 ≤ (i 1).val ∧ (i 1).val < win0_12.index _ 1 * 1 + 1; rw [e1]; omega
  | ⟨2, _⟩ => show win0_12.index _ 2 * 256 ≤ (i 2).val ∧ (i 2).val < win0_12.index _ 2 * 256 + 256; rw [e2]; omega

include h12 in
theorem final12 : (dats m 0 c).arrAt 12 cfg0.N = G12 :=
  (dats m 0 c).arrAt_eq_of_cover 12 G12 (flushed12 m c G12 h12) (cover12)

end Out12

end Cert.KernelIdeal.Arrays

end
-- ==== Proof.Pieces.lean ====
/-
  What one grid step leaves in the kernel's output buffers and in its three carried scratch buffers, as values.

  Every step leaves the block's score column in the first output. A step that is not the first of its half of the grid
  reads the carried maximum `xs0`, denominator `xs1` and numerator `xs2` and leaves them moved by one step of the online
  softmax; the first step of a half first resets them to `-∞`, `0` and the zero row, so it leaves the step taken from
  those; the last step of a half also copies the three to the remaining outputs, each with one more leading axis.
-/
import proofs.«105278_j19679540150395_2_alg».proof.Proof.KernelIdealFrame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Idealize.ShloMosaic.Pipeline (Dat)
open Cert.KernelIdeal Cert.KernelIdeal.Gen Cert.KernelIdeal.GenP

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Case B: the block's score column. -/
theorem out_B_9 (c : Dev nD) (i : grid0.Coords) (arg2 : Memref sig .tc .vmem S2000x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x1 .f32) (harg9 : arg9.IsWhole) (arg10 : Memref sig .tc .vmem S1x1 .f32) (harg10 : arg10.IsWhole) (arg11 : Memref sig .tc .vmem S2000x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x256 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x256 .f32) (harg17 : arg17.IsWhole) (hc0 : ¬cond0_0 i) (hc1 : ¬cond0_1 i)
    (x0 : Vec F S2000x512 .f32) (x1 : Vec F S512x256 .f32) (x2 : Vec F S1x256 .f32) (x3 : Vec F S256x256 .f32) (x4 : Vec F S1x256 .f32) (x5 : Vec F S256x256 .f32) (x6 : Vec F S1x256 .f32) (x7 : Vec F S256x1 .f32) (x8 : Vec F S1x1 .f32) (xs0 : Vec F S1x1 .f32) (xs1 : Vec F S1x1 .f32) (xs2 : Vec F S1x256 .f32) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 xs1 xs2 = k0_pay9 (k0_pay8 x0 x1 x2 x3 x5 x4 x6) x7 x8 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 xs1 xs2)]
  unfold kernelRun0_B
  dsimp only
  sl_unfold_words
  first
    | rw [View.canon_unit_zero hz2]
    | rw [View.canon_cons_unit_zero hz2, View.readCov_unit_zero _ hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread,
    harg17.read_unread, View.ld_unit_zero (S := S2000x512) hz2, View.ld_unit_zero (S := S512x256) hz2,
    View.ld_unit_zero (S := S1x256) hz2, View.ld_unit_zero (S := S256x256) hz2, View.ld_unit_zero (S := S256x1) hz2,
    View.ld_unit_zero (S := S1x1) hz2, View.ld_unit_zero (S := S2000x1) hz2, View.ld_unit_zero (S := S1x1x1) hz3,
    View.ld_unit_zero (S := S1x1x256) hz3, View.readCov_unit_zero (S := S1x1) _ hz2,
    View.readCov_unit_zero (S := S1x256) _ hz2]
/-- Case B: the running maximum after the step. -/
theorem sout_B_0 (c : Dev nD) (i : grid0.Coords) (arg2 : Memref sig .tc .vmem S2000x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x1 .f32) (harg9 : arg9.IsWhole) (arg10 : Memref sig .tc .vmem S1x1 .f32) (harg10 : arg10.IsWhole) (arg11 : Memref sig .tc .vmem S2000x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x256 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x256 .f32) (harg17 : arg17.IsWhole) (hc0 : ¬cond0_0 i) (hc1 : ¬cond0_1 i)
    (x0 : Vec F S2000x512 .f32) (x1 : Vec F S512x256 .f32) (x2 : Vec F S1x256 .f32) (x3 : Vec F S256x256 .f32) (x4 : Vec F S1x256 .f32) (x5 : Vec F S256x256 .f32) (x6 : Vec F S1x256 .f32) (x7 : Vec F S256x1 .f32) (x8 : Vec F S1x1 .f32) (xs0 : Vec F S1x1 .f32) (xs1 : Vec F S1x1 .f32) (xs2 : Vec F S1x256 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 xs1 xs2 = k0_pay16 (k0_pay8 x0 x1 x2 x3 x5 x4 x6) x7 x8 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 xs1 xs2)]
  unfold kernelRun0_B
  dsimp only
  sl_unfold_words
  first
    | rw [View.canon_unit_zero hz2]
    | rw [View.canon_cons_unit_zero hz2, View.readCov_unit_zero _ hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread,
    harg17.read_unread, View.ld_unit_zero (S := S2000x512) hz2, View.ld_unit_zero (S := S512x256) hz2,
    View.ld_unit_zero (S := S1x256) hz2, View.ld_unit_zero (S := S256x256) hz2, View.ld_unit_zero (S := S256x1) hz2,
    View.ld_unit_zero (S := S1x1) hz2, View.ld_unit_zero (S := S2000x1) hz2, View.ld_unit_zero (S := S1x1x1) hz3,
    View.ld_unit_zero (S := S1x1x256) hz3, View.readCov_unit_zero (S := S1x1) _ hz2,
    View.readCov_unit_zero (S := S1x256) _ hz2]
/-- Case B: the running denominator after the step. -/
theorem sout_B_1 (c : Dev nD) (i : grid0.Coords) (arg2 : Memref sig .tc .vmem S2000x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x1 .f32) (harg9 : arg9.IsWhole) (arg10 : Memref sig .tc .vmem S1x1 .f32) (harg10 : arg10.IsWhole) (arg11 : Memref sig .tc .vmem S2000x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x256 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x256 .f32) (harg17 : arg17.IsWhole) (hc0 : ¬cond0_0 i) (hc1 : ¬cond0_1 i)
    (x0 : Vec F S2000x512 .f32) (x1 : Vec F S512x256 .f32) (x2 : Vec F S1x256 .f32) (x3 : Vec F S256x256 .f32) (x4 : Vec F S1x256 .f32) (x5 : Vec F S256x256 .f32) (x6 : Vec F S1x256 .f32) (x7 : Vec F S256x1 .f32) (x8 : Vec F S1x1 .f32) (xs0 : Vec F S1x1 .f32) (xs1 : Vec F S1x1 .f32) (xs2 : Vec F S1x256 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 xs1 xs2 = k0_pay14 (k0_pay8 x0 x1 x2 x3 x5 x4 x6) x7 x8 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 xs1 xs2)]
  unfold kernelRun0_B
  dsimp only
  sl_unfold_words
  first
    | rw [View.canon_unit_zero hz2]
    | rw [View.canon_cons_unit_zero hz2, View.readCov_unit_zero _ hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread,
    harg17.read_unread, View.ld_unit_zero (S := S2000x512) hz2, View.ld_unit_zero (S := S512x256) hz2,
    View.ld_unit_zero (S := S1x256) hz2, View.ld_unit_zero (S := S256x256) hz2, View.ld_unit_zero (S := S256x1) hz2,
    View.ld_unit_zero (S := S1x1) hz2, View.ld_unit_zero (S := S2000x1) hz2, View.ld_unit_zero (S := S1x1x1) hz3,
    View.ld_unit_zero (S := S1x1x256) hz3, View.readCov_unit_zero (S := S1x1) _ hz2,
    View.readCov_unit_zero (S := S1x256) _ hz2]
/-- Case B: the running numerator after the step. -/
theorem sout_B_2 (c : Dev nD) (i : grid0.Coords) (arg2 : Memref sig .tc .vmem S2000x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x1 .f32) (harg9 : arg9.IsWhole) (arg10 : Memref sig .tc .vmem S1x1 .f32) (harg10 : arg10.IsWhole) (arg11 : Memref sig .tc .vmem S2000x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x256 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x256 .f32) (harg17 : arg17.IsWhole) (hc0 : ¬cond0_0 i) (hc1 : ¬cond0_1 i)
    (x0 : Vec F S2000x512 .f32) (x1 : Vec F S512x256 .f32) (x2 : Vec F S1x256 .f32) (x3 : Vec F S256x256 .f32) (x4 : Vec F S1x256 .f32) (x5 : Vec F S256x256 .f32) (x6 : Vec F S1x256 .f32) (x7 : Vec F S256x1 .f32) (x8 : Vec F S1x1 .f32) (xs0 : Vec F S1x1 .f32) (xs1 : Vec F S1x1 .f32) (xs2 : Vec F S1x256 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 xs1 xs2 = k0_pay15 (k0_pay7 x0 x1 x2) (k0_pay8 x0 x1 x2 x3 x5 x4 x6) x7 x8 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 xs1 xs2)]
  unfold kernelRun0_B
  dsimp only
  sl_unfold_words
  first
    | rw [View.canon_unit_zero hz2]
    | rw [View.canon_cons_unit_zero hz2, View.readCov_unit_zero _ hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread,
    harg17.read_unread, View.ld_unit_zero (S := S2000x512) hz2, View.ld_unit_zero (S := S512x256) hz2,
    View.ld_unit_zero (S := S1x256) hz2, View.ld_unit_zero (S := S256x256) hz2, View.ld_unit_zero (S := S256x1) hz2,
    View.ld_unit_zero (S := S1x1) hz2, View.ld_unit_zero (S := S2000x1) hz2, View.ld_unit_zero (S := S1x1x1) hz3,
    View.ld_unit_zero (S := S1x1x256) hz3, View.readCov_unit_zero (S := S1x1) _ hz2,
    View.readCov_unit_zero (S := S1x256) _ hz2]
/-- Case C: the block's score column. -/
theorem out_C_9 (c : Dev nD) (i : grid0.Coords) (arg2 : Memref sig .tc .vmem S2000x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x1 .f32) (harg9 : arg9.IsWhole) (arg10 : Memref sig .tc .vmem S1x1 .f32) (harg10 : arg10.IsWhole) (arg11 : Memref sig .tc .vmem S2000x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x256 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x256 .f32) (harg17 : arg17.IsWhole) (hc0 : ¬cond0_0 i) (hc1 : cond0_1 i)
    (x0 : Vec F S2000x512 .f32) (x1 : Vec F S512x256 .f32) (x2 : Vec F S1x256 .f32) (x3 : Vec F S256x256 .f32) (x4 : Vec F S1x256 .f32) (x5 : Vec F S256x256 .f32) (x6 : Vec F S1x256 .f32) (x7 : Vec F S256x1 .f32) (x8 : Vec F S1x1 .f32) (xs0 : Vec F S1x1 .f32) (xs1 : Vec F S1x1 .f32) (xs2 : Vec F S1x256 .f32) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 xs1 xs2 = k0_pay9 (k0_pay8 x0 x1 x2 x3 x5 x4 x6) x7 x8 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 xs1 xs2)]
  unfold kernelRun0_C
  dsimp only
  sl_unfold_words
  first
    | rw [View.canon_unit_zero hz2]
    | rw [View.canon_cons_unit_zero hz2, View.readCov_unit_zero _ hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread,
    harg17.read_unread, View.ld_unit_zero (S := S2000x512) hz2, View.ld_unit_zero (S := S512x256) hz2,
    View.ld_unit_zero (S := S1x256) hz2, View.ld_unit_zero (S := S256x256) hz2, View.ld_unit_zero (S := S256x1) hz2,
    View.ld_unit_zero (S := S1x1) hz2, View.ld_unit_zero (S := S2000x1) hz2, View.ld_unit_zero (S := S1x1x1) hz3,
    View.ld_unit_zero (S := S1x1x256) hz3, View.readCov_unit_zero (S := S1x1) _ hz2,
    View.readCov_unit_zero (S := S1x256) _ hz2]
/-- Case C: the running maximum after the step. -/
theorem sout_C_0 (c : Dev nD) (i : grid0.Coords) (arg2 : Memref sig .tc .vmem S2000x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x1 .f32) (harg9 : arg9.IsWhole) (arg10 : Memref sig .tc .vmem S1x1 .f32) (harg10 : arg10.IsWhole) (arg11 : Memref sig .tc .vmem S2000x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x256 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x256 .f32) (harg17 : arg17.IsWhole) (hc0 : ¬cond0_0 i) (hc1 : cond0_1 i)
    (x0 : Vec F S2000x512 .f32) (x1 : Vec F S512x256 .f32) (x2 : Vec F S1x256 .f32) (x3 : Vec F S256x256 .f32) (x4 : Vec F S1x256 .f32) (x5 : Vec F S256x256 .f32) (x6 : Vec F S1x256 .f32) (x7 : Vec F S256x1 .f32) (x8 : Vec F S1x1 .f32) (xs0 : Vec F S1x1 .f32) (xs1 : Vec F S1x1 .f32) (xs2 : Vec F S1x256 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 xs1 xs2 = k0_pay16 (k0_pay8 x0 x1 x2 x3 x5 x4 x6) x7 x8 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 xs1 xs2)]
  unfold kernelRun0_C
  dsimp only
  sl_unfold_words
  first
    | rw [View.canon_unit_zero hz2]
    | rw [View.canon_cons_unit_zero hz2, View.readCov_unit_zero _ hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread,
    harg17.read_unread, View.ld_unit_zero (S := S2000x512) hz2, View.ld_unit_zero (S := S512x256) hz2,
    View.ld_unit_zero (S := S1x256) hz2, View.ld_unit_zero (S := S256x256) hz2, View.ld_unit_zero (S := S256x1) hz2,
    View.ld_unit_zero (S := S1x1) hz2, View.ld_unit_zero (S := S2000x1) hz2, View.ld_unit_zero (S := S1x1x1) hz3,
    View.ld_unit_zero (S := S1x1x256) hz3, View.readCov_unit_zero (S := S1x1) _ hz2,
    View.readCov_unit_zero (S := S1x256) _ hz2]
/-- Case C: the running denominator after the step. -/
theorem sout_C_1 (c : Dev nD) (i : grid0.Coords) (arg2 : Memref sig .tc .vmem S2000x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x1 .f32) (harg9 : arg9.IsWhole) (arg10 : Memref sig .tc .vmem S1x1 .f32) (harg10 : arg10.IsWhole) (arg11 : Memref sig .tc .vmem S2000x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x256 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x256 .f32) (harg17 : arg17.IsWhole) (hc0 : ¬cond0_0 i) (hc1 : cond0_1 i)
    (x0 : Vec F S2000x512 .f32) (x1 : Vec F S512x256 .f32) (x2 : Vec F S1x256 .f32) (x3 : Vec F S256x256 .f32) (x4 : Vec F S1x256 .f32) (x5 : Vec F S256x256 .f32) (x6 : Vec F S1x256 .f32) (x7 : Vec F S256x1 .f32) (x8 : Vec F S1x1 .f32) (xs0 : Vec F S1x1 .f32) (xs1 : Vec F S1x1 .f32) (xs2 : Vec F S1x256 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 xs1 xs2 = k0_pay14 (k0_pay8 x0 x1 x2 x3 x5 x4 x6) x7 x8 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 xs1 xs2)]
  unfold kernelRun0_C
  dsimp only
  sl_unfold_words
  first
    | rw [View.canon_unit_zero hz2]
    | rw [View.canon_cons_unit_zero hz2, View.readCov_unit_zero _ hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread,
    harg17.read_unread, View.ld_unit_zero (S := S2000x512) hz2, View.ld_unit_zero (S := S512x256) hz2,
    View.ld_unit_zero (S := S1x256) hz2, View.ld_unit_zero (S := S256x256) hz2, View.ld_unit_zero (S := S256x1) hz2,
    View.ld_unit_zero (S := S1x1) hz2, View.ld_unit_zero (S := S2000x1) hz2, View.ld_unit_zero (S := S1x1x1) hz3,
    View.ld_unit_zero (S := S1x1x256) hz3, View.readCov_unit_zero (S := S1x1) _ hz2,
    View.readCov_unit_zero (S := S1x256) _ hz2]
/-- Case C: the running numerator after the step. -/
theorem sout_C_2 (c : Dev nD) (i : grid0.Coords) (arg2 : Memref sig .tc .vmem S2000x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x1 .f32) (harg9 : arg9.IsWhole) (arg10 : Memref sig .tc .vmem S1x1 .f32) (harg10 : arg10.IsWhole) (arg11 : Memref sig .tc .vmem S2000x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x256 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x256 .f32) (harg17 : arg17.IsWhole) (hc0 : ¬cond0_0 i) (hc1 : cond0_1 i)
    (x0 : Vec F S2000x512 .f32) (x1 : Vec F S512x256 .f32) (x2 : Vec F S1x256 .f32) (x3 : Vec F S256x256 .f32) (x4 : Vec F S1x256 .f32) (x5 : Vec F S256x256 .f32) (x6 : Vec F S1x256 .f32) (x7 : Vec F S256x1 .f32) (x8 : Vec F S1x1 .f32) (xs0 : Vec F S1x1 .f32) (xs1 : Vec F S1x1 .f32) (xs2 : Vec F S1x256 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 xs1 xs2 = k0_pay15 (k0_pay7 x0 x1 x2) (k0_pay8 x0 x1 x2 x3 x5 x4 x6) x7 x8 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 xs1 xs2)]
  unfold kernelRun0_C
  dsimp only
  sl_unfold_words
  first
    | rw [View.canon_unit_zero hz2]
    | rw [View.canon_cons_unit_zero hz2, View.readCov_unit_zero _ hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread,
    harg17.read_unread, View.ld_unit_zero (S := S2000x512) hz2, View.ld_unit_zero (S := S512x256) hz2,
    View.ld_unit_zero (S := S1x256) hz2, View.ld_unit_zero (S := S256x256) hz2, View.ld_unit_zero (S := S256x1) hz2,
    View.ld_unit_zero (S := S1x1) hz2, View.ld_unit_zero (S := S2000x1) hz2, View.ld_unit_zero (S := S1x1x1) hz3,
    View.ld_unit_zero (S := S1x1x256) hz3, View.readCov_unit_zero (S := S1x1) _ hz2,
    View.readCov_unit_zero (S := S1x256) _ hz2]
/-- Case C: the half's final maximum, handed out. -/
theorem out_C_10 (c : Dev nD) (i : grid0.Coords) (arg2 : Memref sig .tc .vmem S2000x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x1 .f32) (harg9 : arg9.IsWhole) (arg10 : Memref sig .tc .vmem S1x1 .f32) (harg10 : arg10.IsWhole) (arg11 : Memref sig .tc .vmem S2000x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x256 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x256 .f32) (harg17 : arg17.IsWhole) (hc0 : ¬cond0_0 i) (hc1 : cond0_1 i)
    (x0 : Vec F S2000x512 .f32) (x1 : Vec F S512x256 .f32) (x2 : Vec F S1x256 .f32) (x3 : Vec F S256x256 .f32) (x4 : Vec F S1x256 .f32) (x5 : Vec F S256x256 .f32) (x6 : Vec F S1x256 .f32) (x7 : Vec F S256x1 .f32) (x8 : Vec F S1x1 .f32) (xs0 : Vec F S1x1 .f32) (xs1 : Vec F S1x1 .f32) (xs2 : Vec F S1x256 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 xs1 xs2 = k0_pay1 (k0_pay16 (k0_pay8 x0 x1 x2 x3 x5 x4 x6) x7 x8 xs0) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 xs1 xs2)]
  unfold kernelRun0_C
  dsimp only
  sl_unfold_words
  first
    | rw [View.canon_unit_zero hz3]
    | rw [View.canon_cons_unit_zero hz3, View.readCov_unit_zero _ hz3]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread,
    harg17.read_unread, View.ld_unit_zero (S := S2000x512) hz2, View.ld_unit_zero (S := S512x256) hz2,
    View.ld_unit_zero (S := S1x256) hz2, View.ld_unit_zero (S := S256x256) hz2, View.ld_unit_zero (S := S256x1) hz2,
    View.ld_unit_zero (S := S1x1) hz2, View.ld_unit_zero (S := S2000x1) hz2, View.ld_unit_zero (S := S1x1x1) hz3,
    View.ld_unit_zero (S := S1x1x256) hz3, View.readCov_unit_zero (S := S1x1) _ hz2,
    View.readCov_unit_zero (S := S1x256) _ hz2]
/-- Case C: the half's final denominator, handed out. -/
theorem out_C_11 (c : Dev nD) (i : grid0.Coords) (arg2 : Memref sig .tc .vmem S2000x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x1 .f32) (harg9 : arg9.IsWhole) (arg10 : Memref sig .tc .vmem S1x1 .f32) (harg10 : arg10.IsWhole) (arg11 : Memref sig .tc .vmem S2000x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x256 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x256 .f32) (harg17 : arg17.IsWhole) (hc0 : ¬cond0_0 i) (hc1 : cond0_1 i)
    (x0 : Vec F S2000x512 .f32) (x1 : Vec F S512x256 .f32) (x2 : Vec F S1x256 .f32) (x3 : Vec F S256x256 .f32) (x4 : Vec F S1x256 .f32) (x5 : Vec F S256x256 .f32) (x6 : Vec F S1x256 .f32) (x7 : Vec F S256x1 .f32) (x8 : Vec F S1x1 .f32) (xs0 : Vec F S1x1 .f32) (xs1 : Vec F S1x1 .f32) (xs2 : Vec F S1x256 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 xs1 xs2 = k0_pay2 (k0_pay14 (k0_pay8 x0 x1 x2 x3 x5 x4 x6) x7 x8 xs0 xs1) := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 xs1 xs2)]
  unfold kernelRun0_C
  dsimp only
  sl_unfold_words
  first
    | rw [View.canon_unit_zero hz3]
    | rw [View.canon_cons_unit_zero hz3, View.readCov_unit_zero _ hz3]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread,
    harg17.read_unread, View.ld_unit_zero (S := S2000x512) hz2, View.ld_unit_zero (S := S512x256) hz2,
    View.ld_unit_zero (S := S1x256) hz2, View.ld_unit_zero (S := S256x256) hz2, View.ld_unit_zero (S := S256x1) hz2,
    View.ld_unit_zero (S := S1x1) hz2, View.ld_unit_zero (S := S2000x1) hz2, View.ld_unit_zero (S := S1x1x1) hz3,
    View.ld_unit_zero (S := S1x1x256) hz3, View.readCov_unit_zero (S := S1x1) _ hz2,
    View.readCov_unit_zero (S := S1x256) _ hz2]
/-- Case C: the half's final numerator, handed out. -/
theorem out_C_12 (c : Dev nD) (i : grid0.Coords) (arg2 : Memref sig .tc .vmem S2000x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x1 .f32) (harg9 : arg9.IsWhole) (arg10 : Memref sig .tc .vmem S1x1 .f32) (harg10 : arg10.IsWhole) (arg11 : Memref sig .tc .vmem S2000x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x256 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x256 .f32) (harg17 : arg17.IsWhole) (hc0 : ¬cond0_0 i) (hc1 : cond0_1 i)
    (x0 : Vec F S2000x512 .f32) (x1 : Vec F S512x256 .f32) (x2 : Vec F S1x256 .f32) (x3 : Vec F S256x256 .f32) (x4 : Vec F S1x256 .f32) (x5 : Vec F S256x256 .f32) (x6 : Vec F S1x256 .f32) (x7 : Vec F S256x1 .f32) (x8 : Vec F S1x1 .f32) (xs0 : Vec F S1x1 .f32) (xs1 : Vec F S1x1 .f32) (xs2 : Vec F S1x256 .f32) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 xs1 xs2 = k0_pay3 (k0_pay15 (k0_pay7 x0 x1 x2) (k0_pay8 x0 x1 x2 x3 x5 x4 x6) x7 x8 xs0 xs2) := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 xs1 xs2)]
  unfold kernelRun0_C
  dsimp only
  sl_unfold_words
  first
    | rw [View.canon_unit_zero hz3]
    | rw [View.canon_cons_unit_zero hz3, View.readCov_unit_zero _ hz3]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread,
    harg17.read_unread, View.ld_unit_zero (S := S2000x512) hz2, View.ld_unit_zero (S := S512x256) hz2,
    View.ld_unit_zero (S := S1x256) hz2, View.ld_unit_zero (S := S256x256) hz2, View.ld_unit_zero (S := S256x1) hz2,
    View.ld_unit_zero (S := S1x1) hz2, View.ld_unit_zero (S := S2000x1) hz2, View.ld_unit_zero (S := S1x1x1) hz3,
    View.ld_unit_zero (S := S1x1x256) hz3, View.readCov_unit_zero (S := S1x1) _ hz2,
    View.readCov_unit_zero (S := S1x256) _ hz2]
/-- Case A: the block's score column. -/
theorem out_A_9 (c : Dev nD) (i : grid0.Coords) (arg2 : Memref sig .tc .vmem S2000x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x1 .f32) (harg9 : arg9.IsWhole) (arg10 : Memref sig .tc .vmem S1x1 .f32) (harg10 : arg10.IsWhole) (arg11 : Memref sig .tc .vmem S2000x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x256 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x256 .f32) (harg17 : arg17.IsWhole) (hc0 : cond0_0 i) (hc1 : ¬cond0_1 i)
    (x0 : Vec F S2000x512 .f32) (x1 : Vec F S512x256 .f32) (x2 : Vec F S1x256 .f32) (x3 : Vec F S256x256 .f32) (x4 : Vec F S1x256 .f32) (x5 : Vec F S256x256 .f32) (x6 : Vec F S1x256 .f32) (x7 : Vec F S256x1 .f32) (x8 : Vec F S1x1 .f32) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = k0_pay9 (k0_pay8 x0 x1 x2 x3 x5 x4 x6) x7 x8 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8)]
  unfold kernelRun0_A
  dsimp only
  sl_unfold_words
  first
    | rw [View.canon_unit_zero hz2]
    | rw [View.canon_cons_unit_zero hz2, View.readCov_unit_zero _ hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread,
    harg17.read_unread, View.ld_unit_zero (S := S2000x512) hz2, View.ld_unit_zero (S := S512x256) hz2,
    View.ld_unit_zero (S := S1x256) hz2, View.ld_unit_zero (S := S256x256) hz2, View.ld_unit_zero (S := S256x1) hz2,
    View.ld_unit_zero (S := S1x1) hz2, View.ld_unit_zero (S := S2000x1) hz2, View.ld_unit_zero (S := S1x1x1) hz3,
    View.ld_unit_zero (S := S1x1x256) hz3, View.readCov_unit_zero (S := S1x1) _ hz2,
    View.readCov_unit_zero (S := S1x256) _ hz2]
/-- Case A: the running maximum after the step. -/
theorem sout_A_0 (c : Dev nD) (i : grid0.Coords) (arg2 : Memref sig .tc .vmem S2000x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x1 .f32) (harg9 : arg9.IsWhole) (arg10 : Memref sig .tc .vmem S1x1 .f32) (harg10 : arg10.IsWhole) (arg11 : Memref sig .tc .vmem S2000x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x256 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x256 .f32) (harg17 : arg17.IsWhole) (hc0 : cond0_0 i) (hc1 : ¬cond0_1 i)
    (x0 : Vec F S2000x512 .f32) (x1 : Vec F S512x256 .f32) (x2 : Vec F S1x256 .f32) (x3 : Vec F S256x256 .f32) (x4 : Vec F S1x256 .f32) (x5 : Vec F S256x256 .f32) (x6 : Vec F S1x256 .f32) (x7 : Vec F S256x1 .f32) (x8 : Vec F S1x1 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = k0_pay16 (k0_pay8 x0 x1 x2 x3 x5 x4 x6) x7 x8 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8)]
  unfold kernelRun0_A
  dsimp only
  sl_unfold_words
  first
    | rw [View.canon_unit_zero hz2]
    | rw [View.canon_cons_unit_zero hz2, View.readCov_unit_zero _ hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread,
    harg17.read_unread, View.ld_unit_zero (S := S2000x512) hz2, View.ld_unit_zero (S := S512x256) hz2,
    View.ld_unit_zero (S := S1x256) hz2, View.ld_unit_zero (S := S256x256) hz2, View.ld_unit_zero (S := S256x1) hz2,
    View.ld_unit_zero (S := S1x1) hz2, View.ld_unit_zero (S := S2000x1) hz2, View.ld_unit_zero (S := S1x1x1) hz3,
    View.ld_unit_zero (S := S1x1x256) hz3, View.readCov_unit_zero (S := S1x1) _ hz2,
    View.readCov_unit_zero (S := S1x256) _ hz2]
/-- Case A: the running denominator after the step. -/
theorem sout_A_1 (c : Dev nD) (i : grid0.Coords) (arg2 : Memref sig .tc .vmem S2000x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x1 .f32) (harg9 : arg9.IsWhole) (arg10 : Memref sig .tc .vmem S1x1 .f32) (harg10 : arg10.IsWhole) (arg11 : Memref sig .tc .vmem S2000x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x256 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x256 .f32) (harg17 : arg17.IsWhole) (hc0 : cond0_0 i) (hc1 : ¬cond0_1 i)
    (x0 : Vec F S2000x512 .f32) (x1 : Vec F S512x256 .f32) (x2 : Vec F S1x256 .f32) (x3 : Vec F S256x256 .f32) (x4 : Vec F S1x256 .f32) (x5 : Vec F S256x256 .f32) (x6 : Vec F S1x256 .f32) (x7 : Vec F S256x1 .f32) (x8 : Vec F S1x1 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = k0_pay14 (k0_pay8 x0 x1 x2 x3 x5 x4 x6) x7 x8 (k0_pay4 (F := F)) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8)]
  unfold kernelRun0_A
  dsimp only
  sl_unfold_words
  first
    | rw [View.canon_unit_zero hz2]
    | rw [View.canon_cons_unit_zero hz2, View.readCov_unit_zero _ hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread,
    harg17.read_unread, View.ld_unit_zero (S := S2000x512) hz2, View.ld_unit_zero (S := S512x256) hz2,
    View.ld_unit_zero (S := S1x256) hz2, View.ld_unit_zero (S := S256x256) hz2, View.ld_unit_zero (S := S256x1) hz2,
    View.ld_unit_zero (S := S1x1) hz2, View.ld_unit_zero (S := S2000x1) hz2, View.ld_unit_zero (S := S1x1x1) hz3,
    View.ld_unit_zero (S := S1x1x256) hz3, View.readCov_unit_zero (S := S1x1) _ hz2,
    View.readCov_unit_zero (S := S1x256) _ hz2]
/-- Case A: the running numerator after the step. -/
theorem sout_A_2 (c : Dev nD) (i : grid0.Coords) (arg2 : Memref sig .tc .vmem S2000x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x1 .f32) (harg9 : arg9.IsWhole) (arg10 : Memref sig .tc .vmem S1x1 .f32) (harg10 : arg10.IsWhole) (arg11 : Memref sig .tc .vmem S2000x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x256 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x256 .f32) (harg17 : arg17.IsWhole) (hc0 : cond0_0 i) (hc1 : ¬cond0_1 i)
    (x0 : Vec F S2000x512 .f32) (x1 : Vec F S512x256 .f32) (x2 : Vec F S1x256 .f32) (x3 : Vec F S256x256 .f32) (x4 : Vec F S1x256 .f32) (x5 : Vec F S256x256 .f32) (x6 : Vec F S1x256 .f32) (x7 : Vec F S256x1 .f32) (x8 : Vec F S1x1 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = k0_pay15 (k0_pay7 x0 x1 x2) (k0_pay8 x0 x1 x2 x3 x5 x4 x6) x7 x8 (k0_pay4 (F := F)) (k0_pay6 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8)]
  unfold kernelRun0_A
  dsimp only
  sl_unfold_words
  first
    | rw [View.canon_unit_zero hz2]
    | rw [View.canon_cons_unit_zero hz2, View.readCov_unit_zero _ hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread,
    harg17.read_unread, View.ld_unit_zero (S := S2000x512) hz2, View.ld_unit_zero (S := S512x256) hz2,
    View.ld_unit_zero (S := S1x256) hz2, View.ld_unit_zero (S := S256x256) hz2, View.ld_unit_zero (S := S256x1) hz2,
    View.ld_unit_zero (S := S1x1) hz2, View.ld_unit_zero (S := S2000x1) hz2, View.ld_unit_zero (S := S1x1x1) hz3,
    View.ld_unit_zero (S := S1x1x256) hz3, View.readCov_unit_zero (S := S1x1) _ hz2,
    View.readCov_unit_zero (S := S1x256) _ hz2]
end Cert.KernelIdeal.Pieces

end
-- ==== Proof.Steps.lean ====
/-
  What the kernel's buffers hold after grid step `t`, over what step `t - 1` left.

  The 100 steps are the two halves' 50 blocks in order. After every step the first output holds the block's score column.
  After the first step of a half (`t % 50 = 0`) the carried maximum, denominator and numerator are one step of the online
  softmax taken from `-∞`, `0` and the zero row; after any other step they are one step taken from what the step before left;
  after the last step of a half (`t % 50 = 49`) the three further outputs hold copies of them.
-/
import proofs.«105278_j19679540150395_2_alg».proof.Proof.KernelIdealFrame
import proofs.«105278_j19679540150395_2_alg».proof.Proof.Pieces
import Idealize.ShloMosaic.PureOps.Ideal

set_option maxRecDepth 16384

noncomputable section

namespace Cert.KernelIdeal.Steps

open Idealize.ShloMosaic Idealize.ShloMosaic.TcCoe Idealize.SL.Sem
open Cert.KernelIdeal Cert.KernelIdeal.Gen Cert.KernelIdeal.GenP Cert.KernelIdeal.Pieces

variable (m : (ℓ : Loc nD τ sig) → Buf (Elt Ideal) ℓ)

/-- Case A: the score column. -/
theorem col_A (c : Dev nD) (t : Fin cfg0.N) (h0 : t.val % 50 = 0) (h1 : ¬t.val % 50 = 49) :
    (outsAt0 m c t.val t.isLt).1 = k0_pay9 (F := Ideal) (k0_pay8 (F := Ideal) (iblk m c 0 t) (iblk m c 1 t) (iblk m c 2 t) (iblk m c 3 t) (iblk m c 5 t) (iblk m c 4 t) (iblk m c 6 t)) (iblk m c 7 t) (iblk m c 8 t) := by
  rw [outsAt0_A m c t h0 h1]
  dsimp only
  exact out_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)
/-- Case A: the carried maximum. -/
theorem max_A (c : Dev nD) (t : Fin cfg0.N) (h0 : t.val % 50 = 0) (h1 : ¬t.val % 50 = 49) :
    (outsAt0 m c t.val t.isLt).2.2.2.2.1 = k0_pay16 (F := Ideal) (k0_pay8 (F := Ideal) (iblk m c 0 t) (iblk m c 1 t) (iblk m c 2 t) (iblk m c 3 t) (iblk m c 5 t) (iblk m c 4 t) (iblk m c 6 t)) (iblk m c 7 t) (iblk m c 8 t) (k0_pay4 (F := Ideal)) := by
  rw [outsAt0_A m c t h0 h1]
  dsimp only
  exact sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)
/-- Case A: the carried denominator. -/
theorem den_A (c : Dev nD) (t : Fin cfg0.N) (h0 : t.val % 50 = 0) (h1 : ¬t.val % 50 = 49) :
    (outsAt0 m c t.val t.isLt).2.2.2.2.2.1 = k0_pay14 (F := Ideal) (k0_pay8 (F := Ideal) (iblk m c 0 t) (iblk m c 1 t) (iblk m c 2 t) (iblk m c 3 t) (iblk m c 5 t) (iblk m c 4 t) (iblk m c 6 t)) (iblk m c 7 t) (iblk m c 8 t) (k0_pay4 (F := Ideal)) (k0_pay5 (F := Ideal)) := by
  rw [outsAt0_A m c t h0 h1]
  dsimp only
  exact sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)
/-- Case A: the carried numerator. -/
theorem num_A (c : Dev nD) (t : Fin cfg0.N) (h0 : t.val % 50 = 0) (h1 : ¬t.val % 50 = 49) :
    (outsAt0 m c t.val t.isLt).2.2.2.2.2.2 = k0_pay15 (F := Ideal) (k0_pay7 (F := Ideal) (iblk m c 0 t) (iblk m c 1 t) (iblk m c 2 t)) (k0_pay8 (F := Ideal) (iblk m c 0 t) (iblk m c 1 t) (iblk m c 2 t) (iblk m c 3 t) (iblk m c 5 t) (iblk m c 4 t) (iblk m c 6 t)) (iblk m c 7 t) (iblk m c 8 t) (k0_pay4 (F := Ideal)) (k0_pay6 (F := Ideal)) := by
  rw [outsAt0_A m c t h0 h1]
  dsimp only
  exact sout_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)
/-- Case B: the score column. -/
theorem col_B (c : Dev nD) (t : Fin cfg0.N) (h0 : ¬t.val % 50 = 0) (h1 : ¬t.val % 50 = 49) :
    (outsAt0 m c t.val t.isLt).1 = k0_pay9 (F := Ideal) (k0_pay8 (F := Ideal) (iblk m c 0 t) (iblk m c 1 t) (iblk m c 2 t) (iblk m c 3 t) (iblk m c 5 t) (iblk m c 4 t) (iblk m c 6 t)) (iblk m c 7 t) (iblk m c 8 t) := by
  rw [outsAt0_B m c t h0 h1]
  dsimp only
  exact out_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
/-- Case B: the carried maximum. -/
theorem max_B (c : Dev nD) (t : Fin cfg0.N) (h0 : ¬t.val % 50 = 0) (h1 : ¬t.val % 50 = 49) :
    (outsAt0 m c t.val t.isLt).2.2.2.2.1 = k0_pay16 (F := Ideal) (k0_pay8 (F := Ideal) (iblk m c 0 t) (iblk m c 1 t) (iblk m c 2 t) (iblk m c 3 t) (iblk m c 5 t) (iblk m c 4 t) (iblk m c 6 t)) (iblk m c 7 t) (iblk m c 8 t) (outsAt0 m c (t.val - 1) (Nat.lt_of_le_of_lt (Nat.sub_le _ _) t.isLt)).2.2.2.2.1 := by
  rw [outsAt0_B m c t h0 h1]
  dsimp only
  exact sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
/-- Case B: the carried denominator. -/
theorem den_B (c : Dev nD) (t : Fin cfg0.N) (h0 : ¬t.val % 50 = 0) (h1 : ¬t.val % 50 = 49) :
    (outsAt0 m c t.val t.isLt).2.2.2.2.2.1 = k0_pay14 (F := Ideal) (k0_pay8 (F := Ideal) (iblk m c 0 t) (iblk m c 1 t) (iblk m c 2 t) (iblk m c 3 t) (iblk m c 5 t) (iblk m c 4 t) (iblk m c 6 t)) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 := by
  rw [outsAt0_B m c t h0 h1]
  dsimp only
  exact sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
/-- Case B: the carried numerator. -/
theorem num_B (c : Dev nD) (t : Fin cfg0.N) (h0 : ¬t.val % 50 = 0) (h1 : ¬t.val % 50 = 49) :
    (outsAt0 m c t.val t.isLt).2.2.2.2.2.2 = k0_pay15 (F := Ideal) (k0_pay7 (F := Ideal) (iblk m c 0 t) (iblk m c 1 t) (iblk m c 2 t)) (k0_pay8 (F := Ideal) (iblk m c 0 t) (iblk m c 1 t) (iblk m c 2 t) (iblk m c 3 t) (iblk m c 5 t) (iblk m c 4 t) (iblk m c 6 t)) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2 := by
  rw [outsAt0_B m c t h0 h1]
  dsimp only
  exact sout_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
/-- Case C: the score column. -/
theorem col_C (c : Dev nD) (t : Fin cfg0.N) (h0 : ¬t.val % 50 = 0) (h1 : t.val % 50 = 49) :
    (outsAt0 m c t.val t.isLt).1 = k0_pay9 (F := Ideal) (k0_pay8 (F := Ideal) (iblk m c 0 t) (iblk m c 1 t) (iblk m c 2 t) (iblk m c 3 t) (iblk m c 5 t) (iblk m c 4 t) (iblk m c 6 t)) (iblk m c 7 t) (iblk m c 8 t) := by
  rw [outsAt0_C m c t h0 h1]
  dsimp only
  exact out_C_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
/-- Case C: the carried maximum. -/
theorem max_C (c : Dev nD) (t : Fin cfg0.N) (h0 : ¬t.val % 50 = 0) (h1 : t.val % 50 = 49) :
    (outsAt0 m c t.val t.isLt).2.2.2.2.1 = k0_pay16 (F := Ideal) (k0_pay8 (F := Ideal) (iblk m c 0 t) (iblk m c 1 t) (iblk m c 2 t) (iblk m c 3 t) (iblk m c 5 t) (iblk m c 4 t) (iblk m c 6 t)) (iblk m c 7 t) (iblk m c 8 t) (outsAt0 m c (t.val - 1) (Nat.lt_of_le_of_lt (Nat.sub_le _ _) t.isLt)).2.2.2.2.1 := by
  rw [outsAt0_C m c t h0 h1]
  dsimp only
  exact sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
/-- Case C: the carried denominator. -/
theorem den_C (c : Dev nD) (t : Fin cfg0.N) (h0 : ¬t.val % 50 = 0) (h1 : t.val % 50 = 49) :
    (outsAt0 m c t.val t.isLt).2.2.2.2.2.1 = k0_pay14 (F := Ideal) (k0_pay8 (F := Ideal) (iblk m c 0 t) (iblk m c 1 t) (iblk m c 2 t) (iblk m c 3 t) (iblk m c 5 t) (iblk m c 4 t) (iblk m c 6 t)) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 := by
  rw [outsAt0_C m c t h0 h1]
  dsimp only
  exact sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
/-- Case C: the carried numerator. -/
theorem num_C (c : Dev nD) (t : Fin cfg0.N) (h0 : ¬t.val % 50 = 0) (h1 : t.val % 50 = 49) :
    (outsAt0 m c t.val t.isLt).2.2.2.2.2.2 = k0_pay15 (F := Ideal) (k0_pay7 (F := Ideal) (iblk m c 0 t) (iblk m c 1 t) (iblk m c 2 t)) (k0_pay8 (F := Ideal) (iblk m c 0 t) (iblk m c 1 t) (iblk m c 2 t) (iblk m c 3 t) (iblk m c 5 t) (iblk m c 4 t) (iblk m c 6 t)) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2 := by
  rw [outsAt0_C m c t h0 h1]
  dsimp only
  exact sout_C_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
/-- Case C: the maximum handed out. -/
theorem omax_C (c : Dev nD) (t : Fin cfg0.N) (h0 : ¬t.val % 50 = 0) (h1 : t.val % 50 = 49) :
    (outsAt0 m c t.val t.isLt).2.1 = k0_pay1 (F := Ideal) (k0_pay16 (F := Ideal) (k0_pay8 (F := Ideal) (iblk m c 0 t) (iblk m c 1 t) (iblk m c 2 t) (iblk m c 3 t) (iblk m c 5 t) (iblk m c 4 t) (iblk m c 6 t)) (iblk m c 7 t) (iblk m c 8 t) (outsAt0 m c (t.val - 1) (Nat.lt_of_le_of_lt (Nat.sub_le _ _) t.isLt)).2.2.2.2.1) := by
  rw [outsAt0_C m c t h0 h1]
  dsimp only
  exact out_C_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
/-- Case C: the denominator handed out. -/
theorem oden_C (c : Dev nD) (t : Fin cfg0.N) (h0 : ¬t.val % 50 = 0) (h1 : t.val % 50 = 49) :
    (outsAt0 m c t.val t.isLt).2.2.1 = k0_pay2 (F := Ideal) (k0_pay14 (F := Ideal) (k0_pay8 (F := Ideal) (iblk m c 0 t) (iblk m c 1 t) (iblk m c 2 t) (iblk m c 3 t) (iblk m c 5 t) (iblk m c 4 t) (iblk m c 6 t)) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1) := by
  rw [outsAt0_C m c t h0 h1]
  dsimp only
  exact out_C_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
/-- Case C: the numerator handed out. -/
theorem onum_C (c : Dev nD) (t : Fin cfg0.N) (h0 : ¬t.val % 50 = 0) (h1 : t.val % 50 = 49) :
    (outsAt0 m c t.val t.isLt).2.2.2.1 = k0_pay3 (F := Ideal) (k0_pay15 (F := Ideal) (k0_pay7 (F := Ideal) (iblk m c 0 t) (iblk m c 1 t) (iblk m c 2 t)) (k0_pay8 (F := Ideal) (iblk m c 0 t) (iblk m c 1 t) (iblk m c 2 t) (iblk m c 3 t) (iblk m c 5 t) (iblk m c 4 t) (iblk m c 6 t)) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2) := by
  rw [outsAt0_C m c t h0 h1]
  dsimp only
  exact out_C_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
end Cert.KernelIdeal.Steps

end
-- ==== Proof.LibDenseLayer.lean ====
/-
  A dense layer on the extended reals. For `x : [M, K]`, `w : [K, N]` and a bias `b` per column, the entry `(p, q)`
  of `x · w + b` is `(∑ k, x (p, k) · w (k, q)) + b q`: row `p` of `x` against column `q` of `w`. `denseClamp` is the same
  layer applied to `max x z`, the entries of `x` clamped below at `z` (a rectifier when `z` is zero).

  An entry of the layer depends on ONE row of `x` only. So a block of consecutive rows of the layer's output is the layer
  applied to that block of rows of `x` (`denseAt_rows`): computing the layer block of rows by block of rows, in any
  order, gives the layer.
-/
import Idealize.ShloMosaic.Lib.ValueIdx

noncomputable section

open scoped BigOperators

namespace Cert.DenseLayer

open Idealize.ShloMosaic Idealize.ShloMosaic.ValueIdx

/-- Entry `(p, q)` of `x · w + b`. -/
def denseAt {M K N : ℕ} (x : (⟨2, ![M, K]⟩ : Shape).Idx → EReal) (w : (⟨2, ![K, N]⟩ : Shape).Idx → EReal) (b : Fin N → EReal)
    (p : Fin M) (q : Fin N) : EReal :=
  (∑ k : Fin K, x (ix2 p k) * w (ix2 k q)) + b q

/-- The array `x · w + b`. -/
def dense {M K N : ℕ} (x : (⟨2, ![M, K]⟩ : Shape).Idx → EReal) (w : (⟨2, ![K, N]⟩ : Shape).Idx → EReal) (b : Fin N → EReal) :
    (⟨2, ![M, N]⟩ : Shape).Idx → EReal :=
  fun i => denseAt x w b (i 0) (i 1)

theorem dense_ix2 {M K N : ℕ} (x : (⟨2, ![M, K]⟩ : Shape).Idx → EReal) (w : (⟨2, ![K, N]⟩ : Shape).Idx → EReal) (b : Fin N → EReal)
    (p : Fin M) (q : Fin N) : dense x w b (ix2 p q) = denseAt x w b p q := rfl

/-- The array `max x z · w + b`. -/
def denseClamp {M K N : ℕ} (z : EReal) (x : (⟨2, ![M, K]⟩ : Shape).Idx → EReal) (w : (⟨2, ![K, N]⟩ : Shape).Idx → EReal)
    (b : Fin N → EReal) : (⟨2, ![M, N]⟩ : Shape).Idx → EReal :=
  dense (fun i => max (x i) z) w b

/-- Row `p` of the layer on a block of rows is row `P` of the layer on the whole array, when row `p` of the block is
    row `P` of the array. -/
theorem denseAt_rows {M m K N : ℕ} (x : (⟨2, ![M, K]⟩ : Shape).Idx → EReal) (xb : (⟨2, ![m, K]⟩ : Shape).Idx → EReal)
    (w : (⟨2, ![K, N]⟩ : Shape).Idx → EReal) (b : Fin N → EReal) (p : Fin m) (P : Fin M) (q : Fin N)
    (h : ∀ k : Fin K, xb (ix2 p k) = x (ix2 P k)) : denseAt xb w b p q = denseAt x w b P q := by
  unfold denseAt
  exact congrArg (· + b q) (Finset.sum_congr rfl fun k _ => by rw [h k])

end Cert.DenseLayer

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibLayerForms.lean ====
/-
  One layer of a multilayer perceptron on the extended reals, as a vector unit spells it and as a host program spells it,
  and the rectifier between two layers.

  A layer takes a matrix `x : [M, K]`, a weight matrix `w : [K, N]` and a bias vector `b : [N]` to the matrix
  `x · w + b`, the bias added to every row: entry `(p, q)` is `(∑ k, x (p, k) · w (k, q)) + b q`. A vector unit forms the
  product by a matrix multiplication into a zero accumulator, lifts the bias to a `[1, N]` row by a shape cast and broadcasts
  that row over the `M` rows (`vec_layer`). A host program forms the product by a general dot product, lifts the bias
  to a `[1, N]` row by a broadcast along a new leading axis and broadcasts that row over the rows (`host_layer`). Both are
  the same array `dense x w b`. The rectifier `max v 0` is spelt with a scalar zero broadcast to the shape on the vector unit
  (`vec_relu`) and with a rank-0 zero constant broadcast to the shape on the host (`host_relu`).

  A layer's row `p` depends on row `p` of its operand only, and so does the rectifier's. `RowsAgree xb x off` says that
  `xb` is the block of rows `off, off + 1, …` of `x`; a layer and the rectifier send agreeing operands to agreeing results
  (`dense_rows`, `relu_rows`), so a perceptron evaluated on a block of rows is that block of rows of the perceptron
  evaluated on all rows.
-/
import proofs.«105278_j19679540150395_2_alg».proof.Proof.LibDenseLayer
import proofs.«105278_j19679540150395_2_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LayerForms

open Idealize.ShloMosaic Idealize.ShloMosaic.ValueIdx Cert.DenseLayer

/-- A bias vector as a function of the column. -/
def colBias {N : ℕ} (b : (⟨1, ![N]⟩ : Shape).Idx → EReal) : Fin N → EReal := fun q => b (ix1 q)

/-- The rectifier: every entry clamped below at zero. -/
def relu {S : Shape} (v : S.Idx → EReal) : S.Idx → EReal := fun i => max (v i) 0

/-- A plain `[M, K] · [K, N]` general dot product of a host program, at `(p, q)`, is `∑ k, l (p, k) · r (k, q)`. -/
theorem dotGeneral_plain_apply {M K N : ℕ} {φ₁ φ₂ : FTy}
    (D : DotDims ⟨2, ![M, K]⟩ ⟨2, ![K, N]⟩ ⟨2, ![M, N]⟩) (hD : D = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  subst hD
  rw [Ideal.dotGeneral_apply, ← Equiv.sum_comp (contrEquiv1 (DotDims.plain M K N) K rfl rfl).symm]
  refine Finset.sum_congr rfl fun k _ => ?_
  rw [Cert.LibPlainMatmul.plain_lhsIdx, Cert.LibPlainMatmul.plain_rhsIdx]

/-- The layer as a vector unit spells it: the product into a zero accumulator, plus the bias cast to a row and
    broadcast over the rows. -/
theorem vec_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = dense x w (colBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix1 q)
  rw [Cert.LibPlainMatmul.matmul_plain_zero_apply D hD, broadcastTo_1b_ab_apply, shapeCast_a_1a_apply]

/-- The layer as a host program spells it: the general dot product, plus the bias broadcast to a row along a new leading
    axis and that row broadcast over the rows. -/
theorem host_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D prec x w)
        (broadcastInDim ⟨2, ![M, N]⟩ ![0, 1] h2 (broadcastInDim ⟨2, ![1, N]⟩ ![1] h1 b))
      = dense x w (colBias b) := by
  funext i
  obtain ⟨p, q, rfl⟩ : ∃ (p : Fin M) (q : Fin N), i = ix2 p q := ⟨i 0, i 1, eq_ix2 i⟩
  show FloatOps.dotGeneral D prec .single x w (ix2 p q)
      + broadcastInDim ⟨2, ![M, N]⟩ ![0, 1] h2 (broadcastInDim ⟨2, ![1, N]⟩ ![1] h1 b) (ix2 p q)
    = (∑ k : Fin K, x (ix2 p k) * w (ix2 k q)) + b (ix1 q)
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun a => ?_
    match a with
    | ⟨0, _⟩ => rfl
    | ⟨1, _⟩ =>
      show q.val = if N = 1 then 0 else q.val
      split
      · have := q.isLt; omega
      · rfl
  have e1 : broadcastInDim ⟨2, ![1, N]⟩ ![1] h1 b (ix2 (0 : Fin 1) q) = b (ix1 q) := by
    refine broadcastInDim_apply ![1] h1 b (ix2 (0 : Fin 1) q) (ix1 q) fun a => ?_
    match a with
    | ⟨0, _⟩ =>
      show q.val = if N = 1 then 0 else q.val
      split
      · have := q.isLt; omega
      · rfl
  rw [dotGeneral_plain_apply D hD, e2, e1]

/-- The rectifier as a vector unit spells it: the maximum with a scalar zero broadcast to the shape. -/
theorem vec_relu {S : Shape} (v : FVec Ideal S .f32) :
    maximumf v (broadcast S (Scalar.ofBits (F := Ideal) .f32 0x00000000#32)) = relu v := by
  funext i
  show max (v i) (Ideal.ofBits .f32 0x00000000#32) = max (v i) 0
  rw [Ideal.ofBits_zero_f32]

/-- The rectifier as a host program spells it: the maximum with a rank-0 zero constant broadcast to the shape. -/
theorem host_relu {S : Shape} (v : FVec Ideal S .f32) (h : (⟨0, ![]⟩ : Shape).BroadcastsInDim S ![]) :
    maximumf v (broadcastInDim S ![] h (constant (F := Ideal) ⟨0, ![]⟩ .f32 0x00000000#32)) = relu v := by
  funext i
  show max (v i) (Ideal.ofBits .f32 0x00000000#32) = max (v i) 0
  rw [Ideal.ofBits_zero_f32]

/-! ## Blocks of rows -/

/-- `xb` is the block of rows `off, off + 1, …` of `x`. -/
def RowsAgree {m M K : ℕ} (xb : (⟨2, ![m, K]⟩ : Shape).Idx → EReal) (x : (⟨2, ![M, K]⟩ : Shape).Idx → EReal) (off : ℕ) : Prop :=
  ∀ (p : Fin m) (P : Fin M), P.val = off + p.val → ∀ k : Fin K, xb (ix2 p k) = x (ix2 P k)

/-- A layer on a block of rows is that block of rows of the layer. -/
theorem dense_rows {m M K N : ℕ} {xb : (⟨2, ![m, K]⟩ : Shape).Idx → EReal} {x : (⟨2, ![M, K]⟩ : Shape).Idx → EReal} {off : ℕ}
    (h : RowsAgree xb x off) (w : (⟨2, ![K, N]⟩ : Shape).Idx → EReal) (b : Fin N → EReal) :
    RowsAgree (dense xb w b) (dense x w b) off :=
  fun p P hP q => by
    rw [dense_ix2, dense_ix2]
    exact denseAt_rows x xb w b p P q (h p P hP)

/-- The rectifier on a block of rows is that block of rows of the rectifier. -/
theorem relu_rows {m M K : ℕ} {xb : (⟨2, ![m, K]⟩ : Shape).Idx → EReal} {x : (⟨2, ![M, K]⟩ : Shape).Idx → EReal} {off : ℕ}
    (h : RowsAgree xb x off) : RowsAgree (relu xb) (relu x) off :=
  fun p P hP k => by
    show max (xb (ix2 p k)) 0 = max (x (ix2 P k)) 0
    rw [h p P hP k]

end Cert.LayerForms

end
-- ==== Proof.Spec.lean ====
/-
  What the attention-pooling network computes, on the extended reals, as functions of its fifteen argument arrays.

  A bag of N = 200000 instances, each a row of 512 features, is mapped row by row to 256 hidden features
  `h = max (x · W1 + b1) 0`; a gated attention score `s = (tanh (h · Wa + ba) * logistic (h · Wb + bb)) · Wc + bc`
  is one number per row; the attention weights are the softmax of the scores over the whole bag,
  `A k = exp (s k - M) / L` with `M` the largest score and `L = ∑ exp (s k - M)`; the pooled feature is the
  weighted mean `g j = ∑ k, A k * h (k, j)`; and three dense layers read the pooled feature:
  `r = max (g · Wr + br) 0`, the class logits `r · Wcls + bcls` and the regression values `r · Wreg + breg`.

  `hidden`, `gate` and `score` are stated for any number of rows, because a row of each depends on the same row of
  the features only (`hidden_rows`, `gate_rows`, `score_rows`): evaluated on a block of rows they give that block
  of rows of the whole.
-/
import proofs.«105278_j19679540150395_2_alg».proof.Proof.LibDenseLayer
import proofs.«105278_j19679540150395_2_alg».proof.Proof.LibLayerForms
import Idealize.ShloMosaic.PureOps.Ideal
import Idealize.ShloMosaic.Lib.ValueIdx

noncomputable section

open scoped BigOperators

namespace Cert.Spec

open Idealize.ShloMosaic Idealize.ShloMosaic.ValueIdx Cert.DenseLayer Cert.LayerForms

/-- A matrix of `M` rows and `K` columns over the extended reals. -/
abbrev Mat (M K : ℕ) : Type := (⟨2, ![M, K]⟩ : Shape).Idx → EReal

/-- The hidden features of `M` rows: `max (x · W1 + b1) 0`. -/
def hidden {M : ℕ} (xp : Mat M 512) (W1 : Mat 512 256) (b1 : Fin 256 → EReal) : Mat M 256 :=
  relu (dense xp W1 b1)

/-- The gated features: `tanh (h · Wa + ba) * logistic (h · Wb + bb)`, entry by entry. -/
def gate {M : ℕ} (h : Mat M 256) (Wa : Mat 256 256) (ba : Fin 256 → EReal) (Wb : Mat 256 256) (bb : Fin 256 → EReal) :
    Mat M 256 :=
  fun i => Ideal.tanh (dense h Wa ba i) * Ideal.logistic (dense h Wb bb i)

/-- The attention scores, one per row, as a column: `gate · Wc + bc`. -/
def score {M : ℕ} (h : Mat M 256) (Wa : Mat 256 256) (ba : Fin 256 → EReal) (Wb : Mat 256 256) (bb : Fin 256 → EReal)
    (Wc : Mat 256 1) (bc : Fin 1 → EReal) : Mat M 1 :=
  dense (gate h Wa ba Wb bb) Wc bc

theorem hidden_rows {m M : ℕ} {xb : Mat m 512} {x : Mat M 512} {off : ℕ} (h : RowsAgree xb x off)
    (W1 : Mat 512 256) (b1 : Fin 256 → EReal) : RowsAgree (hidden xb W1 b1) (hidden x W1 b1) off :=
  relu_rows (dense_rows h W1 b1)

theorem gate_rows {m M : ℕ} {hb : Mat m 256} {h : Mat M 256} {off : ℕ} (hh : RowsAgree hb h off)
    (Wa : Mat 256 256) (ba : Fin 256 → EReal) (Wb : Mat 256 256) (bb : Fin 256 → EReal) :
    RowsAgree (gate hb Wa ba Wb bb) (gate h Wa ba Wb bb) off := by
  intro p P hP k
  show Ideal.tanh (dense hb Wa ba (ix2 p k)) * Ideal.logistic (dense hb Wb bb (ix2 p k))
    = Ideal.tanh (dense h Wa ba (ix2 P k)) * Ideal.logistic (dense h Wb bb (ix2 P k))
  rw [dense_rows hh Wa ba p P hP k, dense_rows hh Wb bb p P hP k]

theorem score_rows {m M : ℕ} {hb : Mat m 256} {h : Mat M 256} {off : ℕ} (hh : RowsAgree hb h off)
    (Wa : Mat 256 256) (ba : Fin 256 → EReal) (Wb : Mat 256 256) (bb : Fin 256 → EReal) (Wc : Mat 256 1)
    (bc : Fin 1 → EReal) : RowsAgree (score hb Wa ba Wb bb Wc bc) (score h Wa ba Wb bb Wc bc) off :=
  dense_rows (gate_rows hh Wa ba Wb bb) Wc bc

/-! ## The whole network -/

section Net

variable (x : (⟨3, ![1, 200000, 512]⟩ : Shape).Idx → EReal) (W1 : Mat 512 256) (b1 : Fin 256 → EReal)
  (Wa : Mat 256 256) (ba : Fin 256 → EReal) (Wb : Mat 256 256) (bb : Fin 256 → EReal) (Wc : Mat 256 1) (bc : Fin 1 → EReal)

/-- The bag as a matrix: its one leading axis dropped. -/
def rows : Mat 200000 512 := fun i => x (ix3 (0 : Fin 1) (i 0) (i 1))

/-- The hidden features of the whole bag. -/
def H : Mat 200000 256 := hidden (rows x) W1 b1

/-- The attention score of instance `k`. -/
def srow (k : Fin 200000) : EReal := score (H x W1 b1) Wa ba Wb bb Wc bc (ix2 k (0 : Fin 1))

/-- The largest score, as a maximum folded from `⊥` (and once more compared with `⊥`). -/
def smax : EReal := max ⊥ ((Finset.univ : Finset (Fin 200000)).fold max ⊥ (srow x W1 b1 Wa ba Wb bb Wc bc))

/-- The softmax denominator. -/
def sden : EReal := 0 + ∑ k : Fin 200000, Ideal.exp (srow x W1 b1 Wa ba Wb bb Wc bc k - smax x W1 b1 Wa ba Wb bb Wc bc)

/-- The attention weight of instance `k`. -/
def weight (k : Fin 200000) : EReal :=
  Ideal.div (Ideal.exp (srow x W1 b1 Wa ba Wb bb Wc bc k - smax x W1 b1 Wa ba Wb bb Wc bc)) (sden x W1 b1 Wa ba Wb bb Wc bc)

/-- The attention weights as a one-row matrix. -/
def A : Mat 1 200000 := fun i => weight x W1 b1 Wa ba Wb bb Wc bc (i 1)

/-- The pooled feature: the attention-weighted mean of the hidden features. -/
def pooled : Mat 1 256 := fun i => ∑ k : Fin 200000, weight x W1 b1 Wa ba Wb bb Wc bc k * H x W1 b1 (ix2 k (i 1))

variable (Wr : Mat 256 256) (br : Fin 256 → EReal)

/-- The head's hidden layer on a pooled feature `g`. -/
def headHidden (g : Mat 1 256) : Mat 1 256 := relu (dense g Wr br)

/-- The class logits on a pooled feature. -/
def classLogits (g : Mat 1 256) (Wcls : Mat 256 33) (bcls : Fin 33 → EReal) : Mat 1 33 :=
  dense (headHidden Wr br g) Wcls bcls

/-- The regression values on a pooled feature, as a vector. -/
def regValues (g : Mat 1 256) (Wreg : Mat 256 55) (breg : Fin 55 → EReal) : (⟨1, ![55]⟩ : Shape).Idx → EReal :=
  fun i => dense (headHidden Wr br g) Wreg breg (ix2 (0 : Fin 1) (i 0))

end Net

end Cert.Spec

end
-- ==== Proof.LibOnlineSoftmax.lean ====
import Idealize.ShloMosaic.PureOps.Ideal
import Mathlib.Data.Finset.Lattice.Fold
import Mathlib.Data.Finset.Fold
import Mathlib.Algebra.Order.BigOperators.Group.Finset
import Mathlib.Data.EReal.Operations

/-!
# The online softmax recurrence over the extended reals

A softmax-weighted mean `(∑ k, exp (s k - M) * v k) / (∑ k, exp (s k - M))`, with `M` the maximum
of the scores `s`, can be accumulated block by block without knowing `M` in advance: one keeps a
running maximum `m`, a running denominator `l` and a running numerator `a`; when a new block of
keys arrives, the new maximum `m'` is the larger of `m` and the block's maximum, and the old
`l` and `a` are rescaled by `exp (m - m')` before the block's own terms are added. The start state
is `(⊥, 0, 0)`, read in the extended reals, where `exp ⊥ = 0`.

This file proves, for finite REAL data coerced into `EReal`:

* the coercion facts that turn one step of the recurrence, stated with the extended-real
  operations `Ideal.exp`, `Ideal.div`, `max`, `+`, `*`, `∑`, into the same step over `ℝ`
  (`coe_sum`, `fold_max_coe`, `exp_coe_sub`, `exp_bot_sub`, `max_bot_coe`, `max_coe_coe`,
  `div_coe_coe`, `first_den`, `first_num`, `next_den`, `next_num`);
* the real identities that say a rescaled prefix sum plus a block sum is the prefix sum over the
  union (`den_rescale`, `num_rescale`, `den_step`, `num_step`, `sup'_union`);
* the combinatorics of cutting `N * n` keys into `N` consecutive blocks of `n`
  (`blockSet`, `prefixSet` and their lemmas);
* the closing step: the reference row `∑ k, (exp (s k - M) / L) * v k` is the quotient of the
  final numerator by the final denominator (`den_pos`, `ref_row`).
-/

open Idealize.ShloMosaic
open scoped BigOperators

namespace Cert.Lib.OnlineSoftmax

/-! ## Coercion of finite sums and maxima -/

/-- The coercion `ℝ → EReal` commutes with a finite sum. -/
theorem coe_sum_finset {κ : Type*} (S : Finset κ) (f : κ → ℝ) :
    (∑ k ∈ S, ((f k : ℝ) : EReal)) = ((∑ k ∈ S, f k : ℝ) : EReal) := by
  classical
  induction S using Finset.induction_on with
  | empty => simp
  | insert a S ha ih => rw [Finset.sum_insert ha, Finset.sum_insert ha, ih, EReal.coe_add]

/-- The coercion `ℝ → EReal` commutes with a sum over a finite type. -/
theorem coe_sum {κ : Type*} [Fintype κ] (f : κ → ℝ) :
    (∑ k, ((f k : ℝ) : EReal)) = ((∑ k, f k : ℝ) : EReal) :=
  coe_sum_finset Finset.univ f

/-- A `max`-fold from `⊥` over a finset is the finset's supremum. -/
theorem fold_max_eq_sup {κ : Type*} (S : Finset κ) (f : κ → EReal) :
    S.fold max (⊥ : EReal) f = S.sup f := by
  classical
  induction S using Finset.induction_on with
  | empty => simp
  | insert a S ha ih => rw [Finset.fold_insert ha, Finset.sup_insert, ih]

/-- The `max`-fold from `⊥` of coerced reals over a nonempty finset is the coerced maximum. -/
theorem fold_max_coe_finset {κ : Type*} (S : Finset κ) (hS : S.Nonempty) (s : κ → ℝ) :
    S.fold max (⊥ : EReal) (fun k => ((s k : ℝ) : EReal)) = ((S.sup' hS s : ℝ) : EReal) := by
  rw [fold_max_eq_sup, ← Finset.sup'_eq_sup hS]
  exact (Finset.comp_sup'_eq_sup'_comp hS (fun x : ℝ => (x : EReal))
    (fun x y => EReal.coe_strictMono.monotone.map_max)).symm

/-- The `max`-fold from `⊥` of coerced reals over a nonempty finite type is the coerced maximum. -/
theorem fold_max_coe {κ : Type*} [Fintype κ] [Nonempty κ] (s : κ → ℝ) :
    (Finset.univ : Finset κ).fold max (⊥ : EReal) (fun k => ((s k : ℝ) : EReal))
      = ((Finset.univ.sup' Finset.univ_nonempty s : ℝ) : EReal) :=
  fold_max_coe_finset Finset.univ Finset.univ_nonempty s

/-! ## The scalar operations on coerced reals -/

theorem exp_coe_sub (a b : ℝ) :
    Ideal.exp ((a : EReal) - (b : EReal)) = ((Real.exp (a - b) : ℝ) : EReal) := by
  rw [← EReal.coe_sub, Ideal.exp_coe]

theorem exp_bot_sub (b : ℝ) : Ideal.exp ((⊥ : EReal) - (b : EReal)) = 0 := by
  rw [EReal.bot_sub, Ideal.exp_bot]

theorem max_bot_coe (b : ℝ) : max (⊥ : EReal) (b : EReal) = b := bot_sup_eq _

theorem max_coe_coe (a b : ℝ) : max (a : EReal) (b : EReal) = ((max a b : ℝ) : EReal) :=
  EReal.coe_strictMono.monotone.map_max.symm

theorem div_coe_coe (a l : ℝ) (hl : l ≠ 0) :
    Ideal.div (a : EReal) (l : EReal) = ((a / l : ℝ) : EReal) := by
  rw [Ideal.div_coe hl, ← EReal.coe_mul, mul_one_div]

/-! ## One step of the recurrence, read over the reals -/

section Step
variable {κ : Type*} [Fintype κ] (s v : κ → ℝ)

/-- The block's denominator terms. -/
theorem block_den (M : ℝ) :
    ∑ k, Ideal.exp ((s k : EReal) - (M : EReal)) = ((∑ k, Real.exp (s k - M) : ℝ) : EReal) := by
  rw [← coe_sum]; exact Finset.sum_congr rfl (fun k _ => exp_coe_sub _ _)

/-- The block's numerator terms. -/
theorem block_num (M : ℝ) :
    ∑ k, Ideal.exp ((s k : EReal) - (M : EReal)) * ((v k : ℝ) : EReal)
      = ((∑ k, Real.exp (s k - M) * v k : ℝ) : EReal) := by
  rw [← coe_sum]
  exact Finset.sum_congr rfl (fun k _ => by rw [exp_coe_sub, EReal.coe_mul])

/-- The first step's denominator: from the start state `(⊥, 0)` the rescaled old part vanishes. -/
theorem first_den (M : ℝ) :
    Ideal.exp ((⊥ : EReal) - (M : EReal)) * 0 + ∑ k, Ideal.exp ((s k : EReal) - (M : EReal))
      = ((∑ k, Real.exp (s k - M) : ℝ) : EReal) := by
  rw [mul_zero, zero_add, block_den]

/-- The first step's numerator. -/
theorem first_num (M : ℝ) :
    Ideal.exp ((⊥ : EReal) - (M : EReal)) * 0
        + ∑ k, Ideal.exp ((s k : EReal) - (M : EReal)) * ((v k : ℝ) : EReal)
      = ((∑ k, Real.exp (s k - M) * v k : ℝ) : EReal) := by
  rw [mul_zero, zero_add, block_num]

/-- A later step's denominator, from a real state. -/
theorem next_den (m M l : ℝ) :
    Ideal.exp ((m : EReal) - (M : EReal)) * (l : EReal)
        + ∑ k, Ideal.exp ((s k : EReal) - (M : EReal))
      = ((Real.exp (m - M) * l + ∑ k, Real.exp (s k - M) : ℝ) : EReal) := by
  rw [block_den, exp_coe_sub, EReal.coe_add, EReal.coe_mul]

/-- A later step's numerator, from a real state. -/
theorem next_num (m M a : ℝ) :
    Ideal.exp ((m : EReal) - (M : EReal)) * (a : EReal)
        + ∑ k, Ideal.exp ((s k : EReal) - (M : EReal)) * ((v k : ℝ) : EReal)
      = ((Real.exp (m - M) * a + ∑ k, Real.exp (s k - M) * v k : ℝ) : EReal) := by
  rw [block_num, exp_coe_sub, EReal.coe_add, EReal.coe_mul]

end Step

/-! ## The closing step -/

section Closing
variable {ι : Type*} [Fintype ι]

/-- The reference row for any real shift `M` and nonzero real denominator `L`. -/
theorem ref_row_of (s v : ι → ℝ) (M L : ℝ) (hL : L ≠ 0) :
    ∑ k, Ideal.div (Ideal.exp ((s k : EReal) - (M : EReal))) (L : EReal) * ((v k : ℝ) : EReal)
      = (((∑ k, Real.exp (s k - M) * v k) / L : ℝ) : EReal) := by
  rw [Finset.sum_div, ← coe_sum]
  refine Finset.sum_congr rfl (fun k _ => ?_)
  rw [exp_coe_sub, div_coe_coe _ _ hL, ← EReal.coe_mul, div_mul_eq_mul_div]

variable [Nonempty ι]

/-- The softmax denominator, shifted by the maximum score, is positive. -/
theorem den_pos (s : ι → ℝ) :
    0 < ∑ k, Real.exp (s k - Finset.univ.sup' Finset.univ_nonempty s) :=
  Finset.sum_pos (fun _ _ => Real.exp_pos _) Finset.univ_nonempty

/-- The reference row: the softmax weights `exp (s k - M) / L` times the values, summed, is the
    quotient of the numerator sum by the denominator sum. -/
theorem ref_row (s v : ι → ℝ) :
    ∑ k, Ideal.div
          (Ideal.exp ((s k : EReal) - ((Finset.univ.sup' Finset.univ_nonempty s : ℝ) : EReal)))
          ((∑ k', Real.exp (s k' - Finset.univ.sup' Finset.univ_nonempty s) : ℝ) : EReal)
        * ((v k : ℝ) : EReal)
      = (((∑ k, Real.exp (s k - Finset.univ.sup' Finset.univ_nonempty s) * v k)
            / (∑ k', Real.exp (s k' - Finset.univ.sup' Finset.univ_nonempty s)) : ℝ) : EReal) :=
  ref_row_of s v _ _ (den_pos s).ne'

end Closing

/-! ## The real identities: rescaling a prefix sum and adding a block -/

section RealIdentities
variable {ι : Type*} [DecidableEq ι] (s v : ι → ℝ)

/-- Changing the shift of a sum of exponentials from `M` to `M'` is a multiplication by
    `exp (M - M')`. -/
theorem den_rescale (S : Finset ι) (M M' : ℝ) :
    Real.exp (M - M') * ∑ k ∈ S, Real.exp (s k - M) = ∑ k ∈ S, Real.exp (s k - M') := by
  rw [Finset.mul_sum]
  refine Finset.sum_congr rfl (fun k _ => ?_)
  rw [← Real.exp_add]; congr 1; ring

/-- The same for the weighted sum. -/
theorem num_rescale (S : Finset ι) (M M' : ℝ) :
    Real.exp (M - M') * ∑ k ∈ S, Real.exp (s k - M) * v k
      = ∑ k ∈ S, Real.exp (s k - M') * v k := by
  rw [Finset.mul_sum]
  refine Finset.sum_congr rfl (fun k _ => ?_)
  rw [← mul_assoc, ← Real.exp_add]; congr 2; ring

/-- One step of the denominator: the rescaled sum over `S` plus the sum over a disjoint block
    `B` is the sum over `S ∪ B`, all at the new shift. -/
theorem den_step (S B : Finset ι) (hd : Disjoint S B) (M M' : ℝ) :
    Real.exp (M - M') * (∑ k ∈ S, Real.exp (s k - M)) + ∑ k ∈ B, Real.exp (s k - M')
      = ∑ k ∈ S ∪ B, Real.exp (s k - M') := by
  rw [den_rescale, Finset.sum_union hd]

/-- One step of the numerator. -/
theorem num_step (S B : Finset ι) (hd : Disjoint S B) (M M' : ℝ) :
    Real.exp (M - M') * (∑ k ∈ S, Real.exp (s k - M) * v k)
        + ∑ k ∈ B, Real.exp (s k - M') * v k
      = ∑ k ∈ S ∪ B, Real.exp (s k - M') * v k := by
  rw [num_rescale, Finset.sum_union hd]

/-- The maximum over a union is the larger of the two maxima. -/
theorem sup'_union {S B : Finset ι} (hS : S.Nonempty) (hB : B.Nonempty) :
    max (S.sup' hS s) (B.sup' hB s) = (S ∪ B).sup' (hS.mono Finset.subset_union_left) s :=
  (Finset.sup'_union hS hB s).symm

end RealIdentities

/-! ## Cutting `N * n` keys into `N` consecutive blocks of `n` -/

section Blocks
variable (N n : ℕ)

/-- The `j`-th block: the keys `k` with `j * n ≤ k < (j + 1) * n`. -/
def blockSet (j : ℕ) : Finset (Fin (N * n)) :=
  Finset.univ.filter (fun k => j * n ≤ k.val ∧ k.val < (j + 1) * n)

/-- The first `j + 1` blocks together: the keys `k < (j + 1) * n`. -/
def prefixSet (j : ℕ) : Finset (Fin (N * n)) :=
  Finset.univ.filter (fun k => k.val < (j + 1) * n)

variable {N n}

theorem mem_blockSet {j : ℕ} {k : Fin (N * n)} :
    k ∈ blockSet N n j ↔ j * n ≤ k.val ∧ k.val < (j + 1) * n := by
  simp [blockSet]

theorem mem_prefixSet {j : ℕ} {k : Fin (N * n)} :
    k ∈ prefixSet N n j ↔ k.val < (j + 1) * n := by
  simp [prefixSet]

/-- The bound that makes `j * n + r` a key of the `j`-th block. -/
theorem block_lt {j : ℕ} (hj : j < N) (r : Fin n) : j * n + r.val < N * n := by
  have h1 : (j + 1) * n ≤ N * n := Nat.mul_le_mul_right n hj
  have h2 : (j + 1) * n = j * n + n := Nat.succ_mul j n
  have := r.isLt
  omega

theorem prefixSet_zero : prefixSet N n 0 = blockSet N n 0 := by
  ext k; simp [mem_prefixSet, mem_blockSet]

theorem prefixSet_succ (j : ℕ) :
    prefixSet N n (j + 1) = prefixSet N n j ∪ blockSet N n (j + 1) := by
  ext k
  have h : (j + 1) * n ≤ (j + 1 + 1) * n := Nat.mul_le_mul_right n (Nat.le_succ _)
  simp only [Finset.mem_union, mem_prefixSet, mem_blockSet]
  omega

theorem disjoint_prefixSet_blockSet (j : ℕ) :
    Disjoint (prefixSet N n j) (blockSet N n (j + 1)) := by
  rw [Finset.disjoint_left]
  intro k hk hk'
  have h1 := mem_prefixSet.1 hk
  have h2 := (mem_blockSet.1 hk').1
  omega

theorem prefixSet_last (hN : 0 < N) : prefixSet N n (N - 1) = Finset.univ := by
  ext k
  simp only [mem_prefixSet, Finset.mem_univ, iff_true, Nat.sub_add_cancel hN]
  exact k.isLt

theorem blockSet_nonempty (hn : 0 < n) {j : ℕ} (hj : j < N) : (blockSet N n j).Nonempty := by
  refine ⟨⟨j * n + 0, block_lt hj ⟨0, hn⟩⟩, mem_blockSet.2 ⟨?_, ?_⟩⟩
  · simp
  · have h2 : (j + 1) * n = j * n + n := Nat.succ_mul j n
    simp only [add_zero]; omega

theorem prefixSet_nonempty (hn : 0 < n) {j : ℕ} (hj : j < N) : (prefixSet N n j).Nonempty := by
  obtain ⟨k, hk⟩ := blockSet_nonempty hn hj
  exact ⟨k, mem_prefixSet.2 (mem_blockSet.1 hk).2⟩

/-- A sum over the positions `r` of a block is the sum over the block's keys. -/
theorem sum_block {α : Type*} [AddCommMonoid α] (j : ℕ)
    (h : ∀ r : Fin n, j * n + r.val < N * n) (f : Fin (N * n) → α) :
    ∑ r : Fin n, f ⟨j * n + r.val, h r⟩ = ∑ k ∈ blockSet N n j, f k := by
  have h2 : (j + 1) * n = j * n + n := Nat.succ_mul j n
  refine Finset.sum_bij (fun r _ => ⟨j * n + r.val, h r⟩) ?_ ?_ ?_ (fun _ _ => rfl)
  · intro r _
    have := r.isLt
    exact mem_blockSet.2 ⟨Nat.le_add_right _ _, by simp only; omega⟩
  · intro a _ b _ hab
    have := congrArg Fin.val hab
    simp only at this
    exact Fin.ext (by omega)
  · intro k hk
    have hk' := mem_blockSet.1 hk
    refine ⟨⟨k.val - j * n, by omega⟩, Finset.mem_univ _, Fin.ext ?_⟩
    simp only; omega

/-- A maximum over the positions `r` of a block is the maximum over the block's keys. -/
theorem sup'_block {α : Type*} [SemilatticeSup α] (j : ℕ)
    (h : ∀ r : Fin n, j * n + r.val < N * n) (s : Fin (N * n) → α)
    (h0 : (Finset.univ : Finset (Fin n)).Nonempty) (hB : (blockSet N n j).Nonempty) :
    (Finset.univ : Finset (Fin n)).sup' h0 (fun r => s ⟨j * n + r.val, h r⟩)
      = (blockSet N n j).sup' hB s := by
  have h2 : (j + 1) * n = j * n + n := Nat.succ_mul j n
  apply le_antisymm
  · refine Finset.sup'_le _ _ (fun r _ => ?_)
    have := r.isLt
    exact Finset.le_sup' s (mem_blockSet.2 ⟨Nat.le_add_right _ _, by simp only; omega⟩)
  · refine Finset.sup'_le _ _ (fun k hk => ?_)
    have hk' := mem_blockSet.1 hk
    have hr : k.val - j * n < n := by omega
    have e : k = ⟨j * n + (⟨k.val - j * n, hr⟩ : Fin n).val, h ⟨k.val - j * n, hr⟩⟩ :=
      Fin.ext (by simp only; omega)
    have e' : s k = (fun r : Fin n => s ⟨j * n + r.val, h r⟩) ⟨k.val - j * n, hr⟩ :=
      congrArg s e
    rw [e']
    exact Finset.le_sup' (fun r : Fin n => s ⟨j * n + r.val, h r⟩) (Finset.mem_univ _)

end Blocks

end Cert.Lib.OnlineSoftmax
-- ==== Proof.LibPrefixSoftmax.lean ====
import proofs.«105278_j19679540150395_2_alg».proof.Proof.LibOnlineSoftmax

/-!
# The online softmax recurrence: the invariant along consecutive blocks

The keys `Fin (N * n)` are cut into `N` consecutive blocks of `n`. After the blocks `0, …, j` have
been absorbed, the state of the online softmax recurrence is, over the reals,

* `pmax N n s j`   — the maximum of the scores `s` over the first `j + 1` blocks,
* `pden N n s j`   — `∑ exp (s k - pmax)` over those keys,
* `pnum N n s v j` — `∑ exp (s k - pmax) * v k` over those keys.

This file proves that the recurrence computes exactly these numbers: the first block gives the
state at `0` (`prefix_zero_*`); rescaling the state at `j` by `exp (pmax j - M')`, with `M'` the
larger of `pmax j` and the next block's maximum, and adding the block's terms gives the state at
`j + 1` (`prefix_succ_*`); and the state at `N - 1` is the full-row maximum, denominator and
numerator of the softmax-weighted mean (`prefix_last_*`). A block is given by its own functions
`sb vb : Fin n → ℝ` together with the statement that they are the rows' entries at the block's keys.
-/

open Idealize.ShloMosaic
open scoped BigOperators

namespace Cert.Lib.OnlineSoftmax

noncomputable section

variable (N n : ℕ)

/-- The maximum of the scores over the first `j + 1` blocks (`0` if there is no such key). -/
def pmax (s : Fin (N * n) → ℝ) (j : ℕ) : ℝ :=
  if h : (prefixSet N n j).Nonempty then (prefixSet N n j).sup' h s else 0

/-- The denominator over the first `j + 1` blocks, shifted by their maximum. -/
def pden (s : Fin (N * n) → ℝ) (j : ℕ) : ℝ :=
  ∑ k ∈ prefixSet N n j, Real.exp (s k - pmax N n s j)

/-- The numerator over the first `j + 1` blocks, shifted by their maximum. -/
def pnum (s v : Fin (N * n) → ℝ) (j : ℕ) : ℝ :=
  ∑ k ∈ prefixSet N n j, Real.exp (s k - pmax N n s j) * v k

variable {N n}
variable (s v : Fin (N * n) → ℝ)

/-! ## The three quantities over a named key set -/

theorem pmax_eq {j : ℕ} (hP : (prefixSet N n j).Nonempty) :
    pmax N n s j = (prefixSet N n j).sup' hP s := dif_pos hP

theorem pmax_of_eq {j : ℕ} {S : Finset (Fin (N * n))} (e : prefixSet N n j = S) (hS : S.Nonempty) :
    pmax N n s j = S.sup' hS s := by
  subst e; exact pmax_eq s hS

theorem pden_of_eq {j : ℕ} {S : Finset (Fin (N * n))} (e : prefixSet N n j = S) (hS : S.Nonempty) :
    pden N n s j = ∑ k ∈ S, Real.exp (s k - S.sup' hS s) := by
  rw [pden, pmax_of_eq s e hS, e]

theorem pnum_of_eq {j : ℕ} {S : Finset (Fin (N * n))} (e : prefixSet N n j = S) (hS : S.Nonempty) :
    pnum N n s v j = ∑ k ∈ S, Real.exp (s k - S.sup' hS s) * v k := by
  rw [pnum, pmax_of_eq s e hS, e]

/-- The prefix denominator is positive. -/
theorem pden_pos (hn : 0 < n) {j : ℕ} (hj : j < N) : 0 < pden N n s j :=
  Finset.sum_pos (fun _ _ => Real.exp_pos _) (prefixSet_nonempty hn hj)

/-! ## A block's own sums, as sums over the block's keys -/

section Block
variable {s v}
variable {sb vb : Fin n → ℝ} {j : ℕ} {h : ∀ r : Fin n, j * n + r.val < N * n}

theorem block_max_eq (hsb : ∀ r, sb r = s ⟨j * n + r.val, h r⟩)
    (h0 : (Finset.univ : Finset (Fin n)).Nonempty) (hB : (blockSet N n j).Nonempty) :
    Finset.univ.sup' h0 sb = (blockSet N n j).sup' hB s := by
  obtain rfl : sb = fun r => s ⟨j * n + r.val, h r⟩ := funext hsb
  exact sup'_block j h s h0 hB

theorem block_den_eq (hsb : ∀ r, sb r = s ⟨j * n + r.val, h r⟩) (M : ℝ) :
    ∑ r, Real.exp (sb r - M) = ∑ k ∈ blockSet N n j, Real.exp (s k - M) := by
  refine Eq.trans ?_ (sum_block j h (fun k => Real.exp (s k - M)))
  exact Finset.sum_congr rfl (fun r _ => by rw [hsb r])

theorem block_num_eq (hsb : ∀ r, sb r = s ⟨j * n + r.val, h r⟩)
    (hvb : ∀ r, vb r = v ⟨j * n + r.val, h r⟩) (M : ℝ) :
    ∑ r, Real.exp (sb r - M) * vb r = ∑ k ∈ blockSet N n j, Real.exp (s k - M) * v k := by
  refine Eq.trans ?_ (sum_block j h (fun k => Real.exp (s k - M) * v k))
  exact Finset.sum_congr rfl (fun r _ => by rw [hsb r, hvb r])

end Block

/-! ## The first block -/

section Zero
variable {s v}
variable {sb vb : Fin n → ℝ} {h : ∀ r : Fin n, 0 * n + r.val < N * n}

theorem prefix_zero_max (hn : 0 < n) (hN : 0 < N) (hsb : ∀ r, sb r = s ⟨0 * n + r.val, h r⟩)
    (h0 : (Finset.univ : Finset (Fin n)).Nonempty) :
    Finset.univ.sup' h0 sb = pmax N n s 0 := by
  rw [pmax_of_eq s prefixSet_zero (blockSet_nonempty hn hN)]
  exact block_max_eq hsb h0 _

theorem prefix_zero_den (hn : 0 < n) (hN : 0 < N) (hsb : ∀ r, sb r = s ⟨0 * n + r.val, h r⟩)
    (h0 : (Finset.univ : Finset (Fin n)).Nonempty) :
    ∑ r, Real.exp (sb r - Finset.univ.sup' h0 sb) = pden N n s 0 := by
  rw [prefix_zero_max hn hN hsb h0, block_den_eq hsb, pden, prefixSet_zero]

theorem prefix_zero_num (hn : 0 < n) (hN : 0 < N) (hsb : ∀ r, sb r = s ⟨0 * n + r.val, h r⟩)
    (hvb : ∀ r, vb r = v ⟨0 * n + r.val, h r⟩)
    (h0 : (Finset.univ : Finset (Fin n)).Nonempty) :
    ∑ r, Real.exp (sb r - Finset.univ.sup' h0 sb) * vb r = pnum N n s v 0 := by
  rw [prefix_zero_max hn hN hsb h0, block_num_eq hsb hvb, pnum, prefixSet_zero]

end Zero

/-! ## A later block -/

section Succ
variable {s v}
variable {sb vb : Fin n → ℝ} {j : ℕ} {h : ∀ r : Fin n, (j + 1) * n + r.val < N * n}

theorem prefix_succ_max (hn : 0 < n) (hj : j + 1 < N)
    (hsb : ∀ r, sb r = s ⟨(j + 1) * n + r.val, h r⟩)
    (h0 : (Finset.univ : Finset (Fin n)).Nonempty) :
    max (pmax N n s j) (Finset.univ.sup' h0 sb) = pmax N n s (j + 1) := by
  have hP := prefixSet_nonempty (N := N) hn (Nat.lt_of_succ_lt hj)
  have hB := blockSet_nonempty (N := N) hn hj
  rw [pmax_eq s hP, block_max_eq hsb h0 hB, sup'_union s hP hB]
  exact (pmax_of_eq s (prefixSet_succ j) _).symm

theorem prefix_succ_den (hn : 0 < n) (hj : j + 1 < N)
    (hsb : ∀ r, sb r = s ⟨(j + 1) * n + r.val, h r⟩)
    (h0 : (Finset.univ : Finset (Fin n)).Nonempty) :
    Real.exp (pmax N n s j - max (pmax N n s j) (Finset.univ.sup' h0 sb)) * pden N n s j
        + ∑ r, Real.exp (sb r - max (pmax N n s j) (Finset.univ.sup' h0 sb))
      = pden N n s (j + 1) := by
  rw [prefix_succ_max hn hj hsb h0, block_den_eq hsb, pden, pden,
    den_step s _ _ (disjoint_prefixSet_blockSet j), ← prefixSet_succ]

theorem prefix_succ_num (hn : 0 < n) (hj : j + 1 < N)
    (hsb : ∀ r, sb r = s ⟨(j + 1) * n + r.val, h r⟩)
    (hvb : ∀ r, vb r = v ⟨(j + 1) * n + r.val, h r⟩)
    (h0 : (Finset.univ : Finset (Fin n)).Nonempty) :
    Real.exp (pmax N n s j - max (pmax N n s j) (Finset.univ.sup' h0 sb)) * pnum N n s v j
        + ∑ r, Real.exp (sb r - max (pmax N n s j) (Finset.univ.sup' h0 sb)) * vb r
      = pnum N n s v (j + 1) := by
  rw [prefix_succ_max hn hj hsb h0, block_num_eq hsb hvb, pnum, pnum,
    num_step s v _ _ (disjoint_prefixSet_blockSet j), ← prefixSet_succ]

end Succ

/-! ## The last block: the whole row -/

theorem prefix_last_max (hN : 0 < N) (hU : (Finset.univ : Finset (Fin (N * n))).Nonempty) :
    pmax N n s (N - 1) = Finset.univ.sup' hU s :=
  pmax_of_eq s (prefixSet_last hN) hU

theorem prefix_last_den (hN : 0 < N) (hU : (Finset.univ : Finset (Fin (N * n))).Nonempty) :
    pden N n s (N - 1) = ∑ k, Real.exp (s k - Finset.univ.sup' hU s) :=
  pden_of_eq s (prefixSet_last hN) hU

theorem prefix_last_num (hN : 0 < N) (hU : (Finset.univ : Finset (Fin (N * n))).Nonempty) :
    pnum N n s v (N - 1) = ∑ k, Real.exp (s k - Finset.univ.sup' hU s) * v k :=
  pnum_of_eq s v (prefixSet_last hN) hU

end

end Cert.Lib.OnlineSoftmax
-- ==== Proof.Online.lean ====
/-
  The online softmax recurrence on the extended reals, as one step on a block of keys and as the merge of two partial
  states.

  A state is a running maximum `m`, a running denominator `l` and a running numerator `a`. A block of keys with scores
  `sb` and values `vb` moves the maximum to `m' = max m (max of sb)`, rescales the old denominator and numerator by
  `exp (m - m')` and adds the block's own terms `exp (sb r - m')` and `exp (sb r - m') * vb r`. Two states over
  disjoint sets of keys are merged by rescaling each to the larger of the two maxima and adding.
-/
import proofs.«105278_j19679540150395_2_alg».proof.Proof.LibOnlineSoftmax
import proofs.«105278_j19679540150395_2_alg».proof.Proof.LibPrefixSoftmax
import Idealize.ShloMosaic.PureOps.Ideal

noncomputable section

open scoped BigOperators

namespace Cert.Online

open Idealize.ShloMosaic

/-- The running maximum after a block: the larger of the old maximum and the block's, folded from `⊥`. -/
def stepMax {n : ℕ} (m : EReal) (sb : Fin n → EReal) : EReal :=
  max m ((Finset.univ : Finset (Fin n)).fold max ⊥ sb)

/-- The running denominator after a block. -/
def stepDen {n : ℕ} (m l : EReal) (sb : Fin n → EReal) : EReal :=
  l * Ideal.exp (m - stepMax m sb) + ∑ r : Fin n, Ideal.exp (sb r - stepMax m sb)

/-- The running numerator after a block. -/
def stepNum {n : ℕ} (m a : EReal) (sb vb : Fin n → EReal) : EReal :=
  a * Ideal.exp (m - stepMax m sb) + ∑ r : Fin n, Ideal.exp (sb r - stepMax m sb) * vb r

/-- The denominator of two merged states. -/
def mergeDen (m0 l0 m1 l1 : EReal) : EReal :=
  l0 * Ideal.exp (m0 - max m0 m1) + l1 * Ideal.exp (m1 - max m0 m1)

/-- The numerator of two merged states. -/
def mergeNum (m0 a0 m1 a1 : EReal) : EReal :=
  a0 * Ideal.exp (m0 - max m0 m1) + a1 * Ideal.exp (m1 - max m0 m1)

/-! ## The states the recurrence passes through, for a bag of 200000 keys cut into two halves of 50 blocks of 2000

  The scores and values are real functions of the key's position (a natural number). Half `c` of the bag is the keys
  `c * 100000 + k`, `k < 100000`; it is absorbed block by block, block `i` being its keys `i * 2000 + r`, `r < 2000`. -/

open Cert.Lib.OnlineSoftmax

/-- Half `c` of a function of the key's position. -/
def half (c : ℕ) (f : ℕ → ℝ) : Fin (50 * 2000) → ℝ := fun k => f (c * 100000 + k.val)

/-- The running maximum of half `c` after its blocks `0, …, i`. -/
def runMax (c i : ℕ) (s : ℕ → ℝ) : EReal := ((pmax 50 2000 (half c s) i : ℝ) : EReal)

/-- The running denominator of half `c` after its blocks `0, …, i`. -/
def runDen (c i : ℕ) (s : ℕ → ℝ) : EReal := ((pden 50 2000 (half c s) i : ℝ) : EReal)

/-- The running numerator of half `c` after its blocks `0, …, i`. -/
def runNum (c i : ℕ) (s v : ℕ → ℝ) : EReal := ((pnum 50 2000 (half c s) (half c v) i : ℝ) : EReal)

end Cert.Online

end
-- ==== Proof.LibBiasRow.lean ====
/-
  A dense layer whose bias arrives as a `[1, N]` row.

  A vector unit that is handed the bias already laid out as one row of `N` entries forms `x · w + b` by a matrix
  multiplication into a zero accumulator plus that row — passed through a shape cast that changes nothing — broadcast over
  the `M` rows. Entry `(p, q)` of the result is `(∑ k, x (p, k) · w (k, q)) + b (0, q)`: the array `dense x w (rowBias b)`.
-/
import proofs.«105278_j19679540150395_2_alg».proof.Proof.LibDenseLayer
import proofs.«105278_j19679540150395_2_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LibBiasRow

open Idealize.ShloMosaic Idealize.ShloMosaic.ValueIdx Cert.DenseLayer

/-- A `[1, N]` bias row as a function of the column. -/
def rowBias {N : ℕ} (b : (⟨2, ![1, N]⟩ : Shape).Idx → EReal) : Fin N → EReal := fun q => b (ix2 (0 : Fin 1) q)

/-- The layer as a vector unit spells it when the bias is a `[1, N]` row: the product into a zero accumulator, plus the row
    broadcast over the rows. -/
theorem vec_layer_row {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = dense x w (rowBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix2 (0 : Fin 1) q)
  rw [Cert.LibPlainMatmul.matmul_plain_zero_apply D hD, broadcastTo_1b_ab_apply, shapeCast_self]

end Cert.LibBiasRow

end
-- ==== Proof.LibColumn.lean ====
/-
  Column vectors read at an index.

  A vector of length `a` re-laid as an `a × 1` column holds, at row `i`, the vector's entry `i`.
  An `a × 1` column broadcast to `a × b` holds, at `(p, c)`, the column's entry at row `p`.
  Summing an `a × 1` column over its rows, or an `a × b` array over its columns, inserts the summed
  coordinate at the place the reduced index leaves open: the inserted index is `(k, u)` resp. `(r, k)`.
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- A length-`a` vector cast to an `a × 1` column reads, at `(i, 0)`, the vector at `i`:
    both positions are number `i` in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `a × b` array along its columns: the index of row `r` with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Summing an `a × 1` column along its rows: the one reduced index with row `k` put back is `(k, 0)`. -/
theorem lift_rows {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

end Cert.LibColumn
-- ==== Proof.LibReshapeAt.lean ====
/-
  A row-major reshape read at coordinates. A reshape keeps an element's row-major position, so the entry `(p', q')` of
  the `P' × Q'` result is the operand's entry at the same position: the entry `(p, q)` of a `P × Q` operand when
  `p · Q + q = p' · Q' + q'`, the entry `(a, b, c)` of an `A × B × C` operand when `(a · B + b) · C + c = p' · Q' + q'`.
  The position equations are left to the caller: with literal extents they are linear arithmetic.
-/
import Idealize.ShloMosaic.Lib.Pipeline.Value
import Idealize.ShloMosaic.Lib.ValueIdx

noncomputable section

namespace Cert.LibReshapeAt

open Idealize.ShloMosaic Idealize.ShloMosaic.ValueIdx

/-- A rank-2 array reshaped to rank 2, at `(p', q')`. -/
theorem cast22 {α : Type} {P Q P' Q' : ℕ} (x : (⟨2, ![P, Q]⟩ : Shape).Idx → α)
    (h : (⟨2, ![P, Q]⟩ : Shape).ShapeCasts ⟨2, ![P', Q']⟩) (p' : Fin P') (q' : Fin Q') (p : Fin P) (q : Fin Q)
    (hk : p.val * Q + q.val = p'.val * Q' + q'.val) :
    shapeCast ⟨2, ![P', Q']⟩ x h (ix2 p' q') = x (ix2 p q) :=
  shapeCast_apply x h (ix2 p' q') (ix2 p q) (by rw [Shape.rowMajor_val_two, Shape.rowMajor_val_two]; exact hk)

/-- A rank-3 array reshaped to rank 2, at `(p', q')`. -/
theorem cast32 {α : Type} {A B C P' Q' : ℕ} (x : (⟨3, ![A, B, C]⟩ : Shape).Idx → α)
    (h : (⟨3, ![A, B, C]⟩ : Shape).ShapeCasts ⟨2, ![P', Q']⟩) (p' : Fin P') (q' : Fin Q') (a : Fin A) (b : Fin B) (c : Fin C)
    (hk : (a.val * B + b.val) * C + c.val = p'.val * Q' + q'.val) :
    shapeCast ⟨2, ![P', Q']⟩ x h (ix2 p' q') = x (ix3 a b c) :=
  shapeCast_apply x h (ix2 p' q') (ix3 a b c) (by rw [Shape.rowMajor_val_three, Shape.rowMajor_val_two]; exact hk)

/-- A vector reshaped to one row, at `(0, q)`. -/
theorem cast12 {α : Type} {N : ℕ} (x : (⟨1, ![N]⟩ : Shape).Idx → α)
    (h : (⟨1, ![N]⟩ : Shape).ShapeCasts ⟨2, ![1, N]⟩) (q : Fin N) :
    shapeCast ⟨2, ![1, N]⟩ x h (ix2 (0 : Fin 1) q) = x (ix1 q) :=
  shapeCast_apply x h (ix2 (0 : Fin 1) q) (ix1 q) (by
    rw [Shape.rowMajor_val_one, Shape.rowMajor_val_two]
    show q.val = 0 * N + q.val
    omega)

end Cert.LibReshapeAt

end
-- ==== Proof.Payload.lean ====
/-
  The arithmetic of one grid step of the pooling kernel, read on the extended reals.

  At a grid step the kernel holds a block of 2000 rows of the bag. From the block it forms the block's hidden features
  (`hidden`), its gated features (`gate`) and its column of attention scores (`score`); the scores, laid out as one row,
  then move the running maximum, denominator and numerator of the online softmax by one step (`stepMax`, `stepDen`,
  `stepNum`), the numerator column by column against the block's hidden features.
-/
import proofs.«105278_j19679540150395_2_alg».proof.Proof.Gen.KernelIdeal.Skeleton
import proofs.«105278_j19679540150395_2_alg».proof.Proof.Spec
import proofs.«105278_j19679540150395_2_alg».proof.Proof.Online
import proofs.«105278_j19679540150395_2_alg».proof.Proof.LibBiasRow
import proofs.«105278_j19679540150395_2_alg».proof.Proof.LibLayerForms
import proofs.«105278_j19679540150395_2_alg».proof.Proof.LibPlainMatmul
import proofs.«105278_j19679540150395_2_alg».proof.Proof.LibColumn
import proofs.«105278_j19679540150395_2_alg».proof.Proof.LibReshapeAt
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.Payload

open Idealize.ShloMosaic Idealize.ShloMosaic.ValueIdx Cert.KernelIdeal Cert.KernelIdeal.Gen
open Cert.Spec Cert.Online Cert.LibBiasRow Cert.LayerForms Cert.DenseLayer Cert.LibColumn Cert.LibReshapeAt Cert.LibPlainMatmul

/-- The block's hidden features. -/
theorem pay7_eq (x0 : Vec Ideal S2000x512 .f32) (x1 : Vec Ideal S512x256 .f32) (x2 : Vec Ideal S1x256 .f32) :
    k0_pay7 (F := Ideal) x0 x1 x2 = Spec.hidden x0 x1 (rowBias x2) := by
  unfold k0_pay7 Spec.hidden
  rw [shapeCast_self x0]
  exact (congrArg (fun v => maximumf v (broadcast S2000x256 (Scalar.ofBits (F := Ideal) .f32 0x00000000#32)))
    (vec_layer_row dot_S2000x512_S512x256_S2000x256_1_0_0_1_n_n rfl none x0 x1 x2 shapeCasts_S1x256_S1x256
      broadcasts_S1x256_S2000x256)).trans (vec_relu _)

/-- The block's gated features. -/
theorem pay8_eq (x0 : Vec Ideal S2000x512 .f32) (x1 : Vec Ideal S512x256 .f32) (x2 : Vec Ideal S1x256 .f32)
    (x3 x5 : Vec Ideal S256x256 .f32) (x4 x6 : Vec Ideal S1x256 .f32) :
    k0_pay8 (F := Ideal) x0 x1 x2 x3 x5 x4 x6
      = gate (Spec.hidden x0 x1 (rowBias x2)) x3 (rowBias x4) x5 (rowBias x6) := by
  unfold k0_pay8 gate
  rw [pay7_eq]
  exact congrArg₂ (fun a b : Mat 2000 256 => (fun i => Ideal.tanh (a i) * Ideal.logistic (b i) : Mat 2000 256))
    (vec_layer_row dot_S2000x256_S256x256_S2000x256_1_0_0_1_n_n rfl none (Spec.hidden x0 x1 (rowBias x2)) x3 x4
      shapeCasts_S1x256_S1x256 broadcasts_S1x256_S2000x256)
    (vec_layer_row dot_S2000x256_S256x256_S2000x256_1_0_0_1_n_n rfl none (Spec.hidden x0 x1 (rowBias x2)) x5 x6
      shapeCasts_S1x256_S1x256 broadcasts_S1x256_S2000x256)

/-- The block's column of attention scores, from its gated features `g`. -/
theorem pay9_eq (g : FVec Ideal S2000x256 .bf16) (x7 : Vec Ideal S256x1 .f32) (x8 : Vec Ideal S1x1 .f32) :
    k0_pay9 (F := Ideal) g x7 x8 = dense g x7 (rowBias x8) := by
  unfold k0_pay9
  exact vec_layer_row dot_S2000x256_S256x1_S2000x1_1_0_0_1_n_n rfl none g x7 x8 shapeCasts_S1x1_S1x1
    broadcasts_S1x1_S2000x1

/-- The block's scores as a function of the row's position in the block. -/
def blockScores (g : FVec Ideal S2000x256 .bf16) (x7 : Vec Ideal S256x1 .f32) (x8 : Vec Ideal S1x1 .f32) :
    Fin 2000 → EReal := fun r => dense g x7 (rowBias x8) (ix2 r (0 : Fin 1))

/-- The scores laid out as one row. -/
theorem pay10_apply (g : FVec Ideal S2000x256 .bf16) (x7 : Vec Ideal S256x1 .f32) (x8 : Vec Ideal S1x1 .f32)
    (r : Fin 2000) : k0_pay10 (F := Ideal) g x7 x8 (ix2 (0 : Fin 1) r) = blockScores g x7 x8 r := by
  unfold k0_pay10
  rw [transpose_ix2_apply, pay9_eq]
  rfl

/-- The single-precision word of `-∞` is `⊥`. -/
theorem ofBits_neg_inf : Ideal.ofBits .f32 0xFF800000#32 = ⊥ := by simp [Ideal.ofBits, Ideal.ieee]

/-- The running maximum after the block. -/
theorem pay11_apply (g : FVec Ideal S2000x256 .bf16) (x7 : Vec Ideal S256x1 .f32) (x8 : Vec Ideal S1x1 .f32)
    (xs0 : Vec Ideal S1x1 .f32) :
    k0_pay11 (F := Ideal) g x7 x8 xs0 (ix2 (0 : Fin 1) (0 : Fin 1))
      = stepMax (xs0 (ix2 (0 : Fin 1) (0 : Fin 1))) (blockScores g x7 x8) := by
  unfold k0_pay11 stepMax
  show max (xs0 (ix2 (0 : Fin 1) (0 : Fin 1))) (shapeCast S1x1 _ shapeCasts_S1_S1x1 (ix2 (0 : Fin 1) (0 : Fin 1))) = _
  rw [cast12]
  refine congrArg (max (xs0 (ix2 (0 : Fin 1) (0 : Fin 1))))
    ((Ideal.multiReduction_maximumf_single (k0_pay10 (F := Ideal) g x7 x8) 0xFF800000#32 reduces_S1x2000_S1 (.inl rfl) rfl
      (ix1 (0 : Fin 1))).trans ?_)
  show (Finset.univ : Finset (Fin 2000)).fold max (Ideal.ofBits .f32 0xFF800000#32)
    (fun k => k0_pay10 (F := Ideal) g x7 x8 (reduces_S1x2000_S1.lift (ix1 (0 : Fin 1)) k)) = _
  rw [ofBits_neg_inf]
  congr 1
  funext k
  rw [lift_cols]
  exact pay10_apply g x7 x8 k

/-- The rescaling factor of the old state. -/
theorem pay12_apply (g : FVec Ideal S2000x256 .bf16) (x7 : Vec Ideal S256x1 .f32) (x8 : Vec Ideal S1x1 .f32)
    (xs0 : Vec Ideal S1x1 .f32) :
    k0_pay12 (F := Ideal) g x7 x8 xs0 (ix2 (0 : Fin 1) (0 : Fin 1))
      = Ideal.exp (xs0 (ix2 (0 : Fin 1) (0 : Fin 1)) - stepMax (xs0 (ix2 (0 : Fin 1) (0 : Fin 1))) (blockScores g x7 x8)) := by
  unfold k0_pay12
  show Ideal.exp (xs0 (ix2 (0 : Fin 1) (0 : Fin 1)) - k0_pay11 (F := Ideal) g x7 x8 xs0 (ix2 (0 : Fin 1) (0 : Fin 1))) = _
  rw [pay11_apply]

/-- The block's softmax terms. -/
theorem pay13_apply (g : FVec Ideal S2000x256 .bf16) (x7 : Vec Ideal S256x1 .f32) (x8 : Vec Ideal S1x1 .f32)
    (xs0 : Vec Ideal S1x1 .f32) (r : Fin 2000) :
    k0_pay13 (F := Ideal) g x7 x8 xs0 (ix2 (0 : Fin 1) r)
      = Ideal.exp (blockScores g x7 x8 r - stepMax (xs0 (ix2 (0 : Fin 1) (0 : Fin 1))) (blockScores g x7 x8)) := by
  unfold k0_pay13
  show Ideal.exp (k0_pay10 (F := Ideal) g x7 x8 (ix2 (0 : Fin 1) r)
    - broadcastTo S1x2000 (k0_pay11 (F := Ideal) g x7 x8 xs0) broadcasts_S1x1_S1x2000 (ix2 (0 : Fin 1) r)) = _
  rw [broadcastTo_a1_ab_apply, pay10_apply, pay11_apply]

/-- The running denominator after the block. -/
theorem pay14_apply (g : FVec Ideal S2000x256 .bf16) (x7 : Vec Ideal S256x1 .f32) (x8 : Vec Ideal S1x1 .f32)
    (xs0 xs1 : Vec Ideal S1x1 .f32) :
    k0_pay14 (F := Ideal) g x7 x8 xs0 xs1 (ix2 (0 : Fin 1) (0 : Fin 1))
      = stepDen (xs0 (ix2 (0 : Fin 1) (0 : Fin 1))) (xs1 (ix2 (0 : Fin 1) (0 : Fin 1))) (blockScores g x7 x8) := by
  unfold k0_pay14 stepDen
  rw [shapeCast_self]
  show xs1 (ix2 (0 : Fin 1) (0 : Fin 1)) * k0_pay12 (F := Ideal) g x7 x8 xs0 (ix2 (0 : Fin 1) (0 : Fin 1))
    + shapeCast S1x1 _ shapeCasts_S1_S1x1 (ix2 (0 : Fin 1) (0 : Fin 1)) = _
  rw [cast12, pay12_apply]
  refine congrArg (fun z => xs1 (ix2 (0 : Fin 1) (0 : Fin 1))
      * Ideal.exp (xs0 (ix2 (0 : Fin 1) (0 : Fin 1)) - stepMax (xs0 (ix2 (0 : Fin 1) (0 : Fin 1))) (blockScores g x7 x8)) + z)
    ((Ideal.multiReduction_add_single (k0_pay13 (F := Ideal) g x7 x8 xs0) 0x00000000#32 reduces_S1x2000_S1 (.inl rfl) rfl
      (ix1 (0 : Fin 1))).trans ?_)
  show ∑ k : Fin 2000, k0_pay13 (F := Ideal) g x7 x8 xs0 (reduces_S1x2000_S1.lift (ix1 (0 : Fin 1)) k) = _
  refine Finset.sum_congr rfl fun k _ => ?_
  exact (congrArg (k0_pay13 (F := Ideal) g x7 x8 xs0) (lift_cols reduces_S1x2000_S1 (0 : Fin 1) k)).trans
    (pay13_apply g x7 x8 xs0 k)

/-- The running numerator after the block, column `j`, against the block's hidden features `hb`. -/
theorem pay15_apply (hb g : FVec Ideal S2000x256 .bf16) (x7 : Vec Ideal S256x1 .f32) (x8 : Vec Ideal S1x1 .f32)
    (xs0 : Vec Ideal S1x1 .f32) (xs2 : Vec Ideal S1x256 .f32) (j : Fin 256) :
    k0_pay15 (F := Ideal) hb g x7 x8 xs0 xs2 (ix2 (0 : Fin 1) j)
      = stepNum (xs0 (ix2 (0 : Fin 1) (0 : Fin 1))) (xs2 (ix2 (0 : Fin 1) j)) (blockScores g x7 x8) (fun r => hb (ix2 r j)) := by
  unfold k0_pay15 stepNum
  rw [shapeCast_self]
  show xs2 (ix2 (0 : Fin 1) j)
      * broadcastTo S1x256 (k0_pay12 (F := Ideal) g x7 x8 xs0) broadcasts_S1x1_S1x256 (ix2 (0 : Fin 1) j)
    + FloatOps.matmul dot_S1x2000_S2000x256_S1x256_1_0_0_1_n_n none (k0_pay13 (F := Ideal) g x7 x8 xs0) hb
        (constant S1x256 .f32 0x00000000#32) (ix2 (0 : Fin 1) j) = _
  rw [broadcastTo_a1_ab_apply, pay12_apply]
  refine congrArg (fun z => xs2 (ix2 (0 : Fin 1) j)
      * Ideal.exp (xs0 (ix2 (0 : Fin 1) (0 : Fin 1)) - stepMax (xs0 (ix2 (0 : Fin 1) (0 : Fin 1))) (blockScores g x7 x8)) + z)
    ((matmul_plain_zero_apply dot_S1x2000_S2000x256_S1x256_1_0_0_1_n_n rfl none (k0_pay13 (F := Ideal) g x7 x8 xs0) hb
      (0 : Fin 1) j).trans ?_)
  refine Finset.sum_congr rfl fun r _ => ?_
  rw [pay13_apply]

/-- The maximum the step hands on is the running maximum after the block. -/
theorem pay16_eq (g : FVec Ideal S2000x256 .bf16) (x7 : Vec Ideal S256x1 .f32) (x8 : Vec Ideal S1x1 .f32)
    (xs0 : Vec Ideal S1x1 .f32) : k0_pay16 (F := Ideal) g x7 x8 xs0 = k0_pay11 (F := Ideal) g x7 x8 xs0 := by
  unfold k0_pay16
  rw [shapeCast_self]

/-- The three start values: `⊥`, `0` and the zero row. -/
theorem pay4_apply (i : S1x1.Idx) : k0_pay4 (F := Ideal) i = ⊥ := by
  unfold k0_pay4
  rw [shapeCast_self]
  exact ofBits_neg_inf

theorem pay5_apply (i : S1x1.Idx) : k0_pay5 (F := Ideal) i = 0 := by
  unfold k0_pay5
  rw [shapeCast_self]
  exact Ideal.ofBits_zero_f32

theorem pay6_apply (i : S1x256.Idx) : k0_pay6 (F := Ideal) i = 0 := by
  unfold k0_pay6
  rw [shapeCast_self]
  exact Ideal.ofBits_zero_f32

/-- The three results a core hands out are its final state, each with one more leading axis. -/
theorem pay1_apply (v : Vec Ideal S1x1 .f32) :
    k0_pay1 (F := Ideal) v (ix3 (0 : Fin 1) (0 : Fin 1) (0 : Fin 1)) = v (ix2 (0 : Fin 1) (0 : Fin 1)) := by
  unfold k0_pay1
  exact shapeCast_ab_1ab_apply v _ _ _ _

theorem pay2_apply (v : Vec Ideal S1x1 .f32) :
    k0_pay2 (F := Ideal) v (ix3 (0 : Fin 1) (0 : Fin 1) (0 : Fin 1)) = v (ix2 (0 : Fin 1) (0 : Fin 1)) := by
  unfold k0_pay2
  exact shapeCast_ab_1ab_apply v _ _ _ _

theorem pay3_apply (v : Vec Ideal S1x256 .f32) (j : Fin 256) :
    k0_pay3 (F := Ideal) v (ix3 (0 : Fin 1) (0 : Fin 1) j) = v (ix2 (0 : Fin 1) j) := by
  unfold k0_pay3
  exact shapeCast_ab_1ab_apply v _ _ _ _

end Cert.KernelIdeal.Payload

end
-- ==== Proof.Blocks.lean ====
/-
  What the kernel's nine input windows hold at a grid step, in terms of the program's argument arrays.

  The bag `x : [1, 200000, 512]` reaches the kernel as the matrix `[200000, 512]` of its rows, cut into 100 blocks of
  2000 rows: step `t` of the 2 × 50 grid holds rows `2000 t, …, 2000 t + 1999`. The four weight matrices reach it whole at
  every step, and the four bias vectors as one-row matrices.
-/
import proofs.«105278_j19679540150395_2_alg».proof.Proof.Gen.KernelIdeal.Frame.Runs
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The bag's rows as the region finds them: the reshape of the first argument. -/
theorem V_v0 (c : Dev nD) : (V m c main_v0 : S200000x512.Idx → Elt F .f32)
    = shapeCast S200000x512 (m ((c : Thread nD τ).loc main_arg0)) shapeCasts_S1x200000x512_S200000x512 := by
  show StableHlo.after hostOps0 (fun b => m (c, b)) (Proc.devRef .tc main_v0) = _
  after_results
  rfl

theorem V_v1 (c : Dev nD) : (V m c main_v1 : S1x256.Idx → Elt F .f32)
    = shapeCast S1x256 (m ((c : Thread nD τ).loc main_arg2)) shapeCasts_S256_S1x256 := by
  show StableHlo.after hostOps0 (fun b => m (c, b)) (Proc.devRef .tc main_v1) = _
  after_results
  rfl

theorem V_v2 (c : Dev nD) : (V m c main_v2 : S1x256.Idx → Elt F .f32)
    = shapeCast S1x256 (m ((c : Thread nD τ).loc main_arg4)) shapeCasts_S256_S1x256 := by
  show StableHlo.after hostOps0 (fun b => m (c, b)) (Proc.devRef .tc main_v2) = _
  after_results
  rfl

theorem V_v3 (c : Dev nD) : (V m c main_v3 : S1x256.Idx → Elt F .f32)
    = shapeCast S1x256 (m ((c : Thread nD τ).loc main_arg6)) shapeCasts_S256_S1x256 := by
  show StableHlo.after hostOps0 (fun b => m (c, b)) (Proc.devRef .tc main_v3) = _
  after_results
  rfl

theorem V_v4 (c : Dev nD) : (V m c main_v4 : S1x1.Idx → Elt F .f32)
    = shapeCast S1x1 (m ((c : Thread nD τ).loc main_arg8)) shapeCasts_S1_S1x1 := by
  show StableHlo.after hostOps0 (fun b => m (c, b)) (Proc.devRef .tc main_v4) = _
  after_results
  rfl

/-- The index maps over the grid: window 0's block is block `t` of the rows; the other eight windows never move. -/
theorem index_facts : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) :=
  (by decide +kernel : ∀ t : Fin grid0.N, _)

/-- Step `t` holds rows `2000 t + r` of the bag. -/
theorem iblk0_apply (c : Dev nD) (t : Fin cfg0.N) (r : Fin 2000) (k : Fin 512) (P : Fin 200000)
    (hP : P.val = t.val * 2000 + r.val) :
    (iblk m c 0 t : S2000x512.Idx → Elt F .f32) (ix2 r k) = (V m c main_v0 : S200000x512.Idx → Elt F .f32) (ix2 P k) := by
  unfold iblk
  rw [View.read_apply]
  show (V m c main_v0 : S200000x512.Idx → Elt F .f32) _ = _
  refine congrArg _ (funext fun a => Fin.ext ?_)
  match a with
  | ⟨0, _⟩ => show win0_0.index t 0 * 2000 + 1 * r.val = P.val; rw [(index_facts t).1.1]; omega
  | ⟨1, _⟩ => show win0_0.index t 1 * 512 + 1 * k.val = k.val; rw [(index_facts t).1.2]; omega

/-- Window 1 holds its whole array at every step. -/
theorem iblk1_eq (c : Dev nD) (t : Fin cfg0.N) :
    (iblk m c 1 t : S512x256.Idx → Elt F .f32) = (V m c main_arg1 : S512x256.Idx → Elt F .f32) := by
  funext y
  unfold iblk
  rw [View.read_apply]
  show (V m c main_arg1 : S512x256.Idx → Elt F .f32) _ = _
  refine congrArg _ (funext fun a => Fin.ext ?_)
  match a with
  | ⟨0, _⟩ => show win0_1.index t 0 * 512 + 1 * (y 0).val = (y 0).val; rw [(index_facts t).2.1.1]; omega
  | ⟨1, _⟩ => show win0_1.index t 1 * 256 + 1 * (y 1).val = (y 1).val; rw [(index_facts t).2.1.2]; omega

/-- Window 3 holds its whole array at every step. -/
theorem iblk3_eq (c : Dev nD) (t : Fin cfg0.N) :
    (iblk m c 3 t : S256x256.Idx → Elt F .f32) = (V m c main_arg3 : S256x256.Idx → Elt F .f32) := by
  funext y
  unfold iblk
  rw [View.read_apply]
  show (V m c main_arg3 : S256x256.Idx → Elt F .f32) _ = _
  refine congrArg _ (funext fun a => Fin.ext ?_)
  match a with
  | ⟨0, _⟩ => show win0_3.index t 0 * 256 + 1 * (y 0).val = (y 0).val; rw [(index_facts t).2.2.2.1.1]; omega
  | ⟨1, _⟩ => show win0_3.index t 1 * 256 + 1 * (y 1).val = (y 1).val; rw [(index_facts t).2.2.2.1.2]; omega

/-- Window 5 holds its whole array at every step. -/
theorem iblk5_eq (c : Dev nD) (t : Fin cfg0.N) :
    (iblk m c 5 t : S256x256.Idx → Elt F .f32) = (V m c main_arg5 : S256x256.Idx → Elt F .f32) := by
  funext y
  unfold iblk
  rw [View.read_apply]
  show (V m c main_arg5 : S256x256.Idx → Elt F .f32) _ = _
  refine congrArg _ (funext fun a => Fin.ext ?_)
  match a with
  | ⟨0, _⟩ => show win0_5.index t 0 * 256 + 1 * (y 0).val = (y 0).val; rw [(index_facts t).2.2.2.2.2.1.1]; omega
  | ⟨1, _⟩ => show win0_5.index t 1 * 256 + 1 * (y 1).val = (y 1).val; rw [(index_facts t).2.2.2.2.2.1.2]; omega

/-- Window 7 holds its whole array at every step. -/
theorem iblk7_eq (c : Dev nD) (t : Fin cfg0.N) :
    (iblk m c 7 t : S256x1.Idx → Elt F .f32) = (V m c main_arg7 : S256x1.Idx → Elt F .f32) := by
  funext y
  unfold iblk
  rw [View.read_apply]
  show (V m c main_arg7 : S256x1.Idx → Elt F .f32) _ = _
  refine congrArg _ (funext fun a => Fin.ext ?_)
  match a with
  | ⟨0, _⟩ => show win0_7.index t 0 * 256 + 1 * (y 0).val = (y 0).val; rw [(index_facts t).2.2.2.2.2.2.2.1.1]; omega
  | ⟨1, _⟩ => show win0_7.index t 1 * 1 + 1 * (y 1).val = (y 1).val; rw [(index_facts t).2.2.2.2.2.2.2.1.2]; omega

/-- Window 2 holds its whole array at every step. -/
theorem iblk2_eq (c : Dev nD) (t : Fin cfg0.N) :
    (iblk m c 2 t : S1x256.Idx → Elt F .f32) = (V m c main_v1 : S1x256.Idx → Elt F .f32) := by
  funext y
  unfold iblk
  rw [View.read_apply]
  show (V m c main_v1 : S1x256.Idx → Elt F .f32) _ = _
  refine congrArg _ (funext fun a => Fin.ext ?_)
  match a with
  | ⟨0, _⟩ => show win0_2.index t 0 * 1 + 1 * (y 0).val = (y 0).val; rw [(index_facts t).2.2.1.1]; omega
  | ⟨1, _⟩ => show win0_2.index t 1 * 256 + 1 * (y 1).val = (y 1).val; rw [(index_facts t).2.2.1.2]; omega

/-- Window 4 holds its whole array at every step. -/
theorem iblk4_eq (c : Dev nD) (t : Fin cfg0.N) :
    (iblk m c 4 t : S1x256.Idx → Elt F .f32) = (V m c main_v2 : S1x256.Idx → Elt F .f32) := by
  funext y
  unfold iblk
  rw [View.read_apply]
  show (V m c main_v2 : S1x256.Idx → Elt F .f32) _ = _
  refine congrArg _ (funext fun a => Fin.ext ?_)
  match a with
  | ⟨0, _⟩ => show win0_4.index t 0 * 1 + 1 * (y 0).val = (y 0).val; rw [(index_facts t).2.2.2.2.1.1]; omega
  | ⟨1, _⟩ => show win0_4.index t 1 * 256 + 1 * (y 1).val = (y 1).val; rw [(index_facts t).2.2.2.2.1.2]; omega

/-- Window 6 holds its whole array at every step. -/
theorem iblk6_eq (c : Dev nD) (t : Fin cfg0.N) :
    (iblk m c 6 t : S1x256.Idx → Elt F .f32) = (V m c main_v3 : S1x256.Idx → Elt F .f32) := by
  funext y
  unfold iblk
  rw [View.read_apply]
  show (V m c main_v3 : S1x256.Idx → Elt F .f32) _ = _
  refine congrArg _ (funext fun a => Fin.ext ?_)
  match a with
  | ⟨0, _⟩ => show win0_6.index t 0 * 1 + 1 * (y 0).val = (y 0).val; rw [(index_facts t).2.2.2.2.2.2.1.1]; omega
  | ⟨1, _⟩ => show win0_6.index t 1 * 256 + 1 * (y 1).val = (y 1).val; rw [(index_facts t).2.2.2.2.2.2.1.2]; omega

/-- Window 8 holds its whole array at every step. -/
theorem iblk8_eq (c : Dev nD) (t : Fin cfg0.N) :
    (iblk m c 8 t : S1x1.Idx → Elt F .f32) = (V m c main_v4 : S1x1.Idx → Elt F .f32) := by
  funext y
  unfold iblk
  rw [View.read_apply]
  show (V m c main_v4 : S1x1.Idx → Elt F .f32) _ = _
  refine congrArg _ (funext fun a => Fin.ext ?_)
  match a with
  | ⟨0, _⟩ => show win0_8.index t 0 * 1 + 1 * (y 0).val = (y 0).val; rw [(index_facts t).2.2.2.2.2.2.2.2.1]; omega
  | ⟨1, _⟩ => show win0_8.index t 1 * 1 + 1 * (y 1).val = (y 1).val; rw [(index_facts t).2.2.2.2.2.2.2.2.2]; omega

end Cert.KernelIdeal.Blocks

end
-- ==== Proof.BlockFacts.lean ====
/-
  What the kernel's payloads compute at a grid step, in terms of the network's whole-bag quantities.

  At step `t` the first window holds rows `2000 t, …, 2000 t + 1999` of the bag, the weight windows hold the weight
  matrices and the bias windows hold the bias vectors laid out as one row. A dense layer's row depends on the same row
  of its operand only, so the block's hidden features are rows `2000 t + r` of the whole bag's hidden features, and the
  block's attention scores are the whole bag's scores at positions `2000 t + r`.
-/
import proofs.«105278_j19679540150395_2_alg».proof.Proof.Blocks
import proofs.«105278_j19679540150395_2_alg».proof.Proof.Payload
import proofs.«105278_j19679540150395_2_alg».proof.Proof.Spec
import proofs.«105278_j19679540150395_2_alg».proof.Proof.LibBiasRow
import proofs.«105278_j19679540150395_2_alg».proof.Proof.LibLayerForms
import proofs.«105278_j19679540150395_2_alg».proof.Proof.LibReshapeAt

set_option maxRecDepth 16384

noncomputable section

namespace Cert.KernelIdeal.BlockFacts

open Idealize.ShloMosaic Idealize.ShloMosaic.TcCoe Idealize.SL.Sem Idealize.ShloMosaic.ValueIdx
open Cert.KernelIdeal Cert.KernelIdeal.Gen Cert.KernelIdeal.Blocks Cert.KernelIdeal.Payload
open Cert.Spec Cert.LayerForms Cert.LibBiasRow Cert.DenseLayer Cert.LibReshapeAt

/-! ## Over any blocks that agree with the whole arrays -/

/-- The block's hidden features are the matching rows of the whole bag's. -/
theorem hidden_block (x0 : Vec Ideal S2000x512 .f32) (x1 : Vec Ideal S512x256 .f32) (x2 : Vec Ideal S1x256 .f32)
    (A0 : (⟨3, ![1, 200000, 512]⟩ : Shape).Idx → EReal) (A1 : Mat 512 256) (b2 : Fin 256 → EReal) (off : ℕ)
    (h0 : RowsAgree x0 (rows A0) off) (h1 : x1 = A1) (h2 : rowBias x2 = b2)
    (r : Fin 2000) (P : Fin 200000) (hP : P.val = off + r.val) (j : Fin 256) :
    k0_pay7 (F := Ideal) x0 x1 x2 (ix2 r j) = H A0 A1 b2 (ix2 P j) := by
  subst h1 h2
  rw [pay7_eq]
  exact hidden_rows h0 x1 (rowBias x2) r P hP j

/-- The block's attention scores are the whole bag's at the matching positions. -/
theorem scores_block (x0 : Vec Ideal S2000x512 .f32) (x1 : Vec Ideal S512x256 .f32) (x2 : Vec Ideal S1x256 .f32)
    (x3 x5 : Vec Ideal S256x256 .f32) (x4 x6 : Vec Ideal S1x256 .f32) (x7 : Vec Ideal S256x1 .f32)
    (x8 : Vec Ideal S1x1 .f32)
    (A0 : (⟨3, ![1, 200000, 512]⟩ : Shape).Idx → EReal) (A1 : Mat 512 256) (b2 : Fin 256 → EReal)
    (A3 : Mat 256 256) (b4 : Fin 256 → EReal) (A5 : Mat 256 256) (b6 : Fin 256 → EReal) (A7 : Mat 256 1)
    (b8 : Fin 1 → EReal) (off : ℕ)
    (h0 : RowsAgree x0 (rows A0) off) (h1 : x1 = A1) (h2 : rowBias x2 = b2) (h3 : x3 = A3) (h4 : rowBias x4 = b4)
    (h5 : x5 = A5) (h6 : rowBias x6 = b6) (h7 : x7 = A7) (h8 : rowBias x8 = b8)
    (r : Fin 2000) (P : Fin 200000) (hP : P.val = off + r.val) :
    blockScores (k0_pay8 (F := Ideal) x0 x1 x2 x3 x5 x4 x6) x7 x8 r = srow A0 A1 b2 A3 b4 A5 b6 A7 b8 P := by
  subst h1 h2 h3 h4 h5 h6 h7 h8
  rw [pay8_eq]
  exact score_rows (hidden_rows h0 x1 (rowBias x2)) x3 (rowBias x4) x5 (rowBias x6) x7 (rowBias x8) r P hP (0 : Fin 1)

/-- A bias vector reshaped to one row, read as a function of the column, is the vector read as a function of the column. -/
theorem rowBias_cast {N : ℕ} (b : (⟨1, ![N]⟩ : Shape).Idx → EReal)
    (h : (⟨1, ![N]⟩ : Shape).ShapeCasts ⟨2, ![1, N]⟩) : rowBias (shapeCast ⟨2, ![1, N]⟩ b h) = colBias b :=
  funext fun q => cast12 b h q

/-- The bag's rows, reshaped from the bag, are the bag with its leading axis dropped. -/
theorem rows_cast (A0 : (⟨3, ![1, 200000, 512]⟩ : Shape).Idx → EReal)
    (h : (⟨3, ![1, 200000, 512]⟩ : Shape).ShapeCasts ⟨2, ![200000, 512]⟩) (P : Fin 200000) (k : Fin 512) :
    shapeCast ⟨2, ![200000, 512]⟩ A0 h (ix2 P k) = rows A0 (ix2 P k) :=
  cast32 A0 h P k (0 : Fin 1) P k (by show (0 * 200000 + P.val) * 512 + k.val = P.val * 512 + k.val; omega)

/-! ## At a grid step -/

section

variable (m : (ℓ : Loc nD τ sig) → Buf (Elt Ideal) ℓ) (c : Dev nD)

set_option quotPrecheck false

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)

/-- Window 0's block at step `t` is rows `2000 t + r` of the bag. -/
theorem rows0 (t : Fin cfg0.N) :
    RowsAgree (iblk m c 0 t : S2000x512.Idx → Elt Ideal .f32) (rows a0) (t.val * 2000) := by
  intro p P hP k
  refine (iblk0_apply m c t p k P hP).trans ?_
  rw [V_v0]
  exact rows_cast a0 shapeCasts_S1x200000x512_S200000x512 P k

theorem win1 (t : Fin cfg0.N) : (iblk m c 1 t : S512x256.Idx → Elt Ideal .f32) = a1 :=
  (iblk1_eq m c t).trans (V_main_arg1 m c)
theorem win3 (t : Fin cfg0.N) : (iblk m c 3 t : S256x256.Idx → Elt Ideal .f32) = a3 :=
  (iblk3_eq m c t).trans (V_main_arg3 m c)
theorem win5 (t : Fin cfg0.N) : (iblk m c 5 t : S256x256.Idx → Elt Ideal .f32) = a5 :=
  (iblk5_eq m c t).trans (V_main_arg5 m c)
theorem win7 (t : Fin cfg0.N) : (iblk m c 7 t : S256x1.Idx → Elt Ideal .f32) = a7 :=
  (iblk7_eq m c t).trans (V_main_arg7 m c)

theorem win2 (t : Fin cfg0.N) : rowBias (iblk m c 2 t : S1x256.Idx → Elt Ideal .f32) = colBias a2 := by
  rw [iblk2_eq, V_v1]
  exact rowBias_cast a2 shapeCasts_S256_S1x256
theorem win4 (t : Fin cfg0.N) : rowBias (iblk m c 4 t : S1x256.Idx → Elt Ideal .f32) = colBias a4 := by
  rw [iblk4_eq, V_v2]
  exact rowBias_cast a4 shapeCasts_S256_S1x256
theorem win6 (t : Fin cfg0.N) : rowBias (iblk m c 6 t : S1x256.Idx → Elt Ideal .f32) = colBias a6 := by
  rw [iblk6_eq, V_v3]
  exact rowBias_cast a6 shapeCasts_S256_S1x256
theorem win8 (t : Fin cfg0.N) : rowBias (iblk m c 8 t : S1x1.Idx → Elt Ideal .f32) = colBias a8 := by
  rw [iblk8_eq, V_v4]
  exact rowBias_cast a8 shapeCasts_S1_S1x1

theorem hidden_at (t : Fin cfg0.N) (r : Fin 2000) (j : Fin 256) (P : Fin 200000)
    (hP : P.val = t.val * 2000 + r.val) :
    k0_pay7 (F := Ideal) (iblk m c 0 t) (iblk m c 1 t) (iblk m c 2 t) (ix2 r j)
      = Cert.Spec.H a0 a1 (colBias a2) (ix2 P j) :=
  hidden_block (iblk m c 0 t) (iblk m c 1 t) (iblk m c 2 t) a0 a1 (colBias a2) (t.val * 2000)
    (rows0 m c t) (win1 m c t) (win2 m c t) r P hP j

theorem scores_at (t : Fin cfg0.N) (r : Fin 2000) (P : Fin 200000) (hP : P.val = t.val * 2000 + r.val) :
    Cert.KernelIdeal.Payload.blockScores
        (k0_pay8 (F := Ideal) (iblk m c 0 t) (iblk m c 1 t) (iblk m c 2 t) (iblk m c 3 t) (iblk m c 5 t)
          (iblk m c 4 t) (iblk m c 6 t))
        (iblk m c 7 t) (iblk m c 8 t) r
      = Cert.Spec.srow a0 a1 (colBias a2) a3 (colBias a4) a5 (colBias a6) a7 (colBias a8) P :=
  scores_block (iblk m c 0 t) (iblk m c 1 t) (iblk m c 2 t) (iblk m c 3 t) (iblk m c 5 t) (iblk m c 4 t)
    (iblk m c 6 t) (iblk m c 7 t) (iblk m c 8 t) a0 a1 (colBias a2) a3 (colBias a4) a5 (colBias a6) a7
    (colBias a8) (t.val * 2000) (rows0 m c t) (win1 m c t) (win2 m c t) (win3 m c t) (win4 m c t) (win5 m c t)
    (win6 m c t) (win7 m c t) (win8 m c t) r P hP

end

end Cert.KernelIdeal.BlockFacts

end
-- ==== Proof.OnlineLaws.lean ====
/-
  The laws of the online softmax recurrence for a bag of 200000 keys cut into two halves of 50 blocks of 2000.

  Over the extended reals, with real scores and values coerced:

  * one step of the recurrence from the start state `(⊥, 0, 0)` on the first block of a half gives that half's
    state after block 0 (`run_first`);
  * one step from the half's state after blocks `0, …, j` on block `j + 1` gives its state after blocks
    `0, …, j + 1` (`run_succ`);
  * merging the two halves' final states and dividing the numerator by the denominator gives the softmax-weighted
    mean of the values over the whole bag, `∑ k, (exp (s k - M) / L) * v k` with `M` the maximum of all the scores
    and `L = ∑ k, exp (s k - M)` (`merged_eq`).

  The proofs read each extended-real step over the reals (every quantity is a coerced real: `exp ⊥ = 0` only
  appears multiplied by the zero start state), and then use the real identities: changing the shift of a sum of
  exponentials from `M` to `M'` multiplies it by `exp (M - M')`; the maximum over a union is the larger of the two
  maxima; a sum over the 200000 keys is the sum over the first 100000 plus the sum over the last 100000.
-/
import proofs.«105278_j19679540150395_2_alg».proof.Proof.Online

noncomputable section

open scoped BigOperators

namespace Cert.Online

open Idealize.ShloMosaic
open Cert.Lib.OnlineSoftmax

/-! ## One step on a block of coerced reals, read over the reals -/

/-- A step from the start state `(⊥, 0, 0)`: the state is the block's own maximum, denominator and numerator. -/
theorem step_first {n : ℕ} (h0 : (Finset.univ : Finset (Fin n)).Nonempty) (sbR vbR : Fin n → ℝ) :
    stepMax ⊥ (fun r => ((sbR r : ℝ) : EReal)) = ((Finset.univ.sup' h0 sbR : ℝ) : EReal)
    ∧ stepDen ⊥ 0 (fun r => ((sbR r : ℝ) : EReal))
        = ((∑ r, Real.exp (sbR r - Finset.univ.sup' h0 sbR) : ℝ) : EReal)
    ∧ stepNum ⊥ 0 (fun r => ((sbR r : ℝ) : EReal)) (fun r => ((vbR r : ℝ) : EReal))
        = ((∑ r, Real.exp (sbR r - Finset.univ.sup' h0 sbR) * vbR r : ℝ) : EReal) := by
  have hmax : stepMax ⊥ (fun r => ((sbR r : ℝ) : EReal)) = ((Finset.univ.sup' h0 sbR : ℝ) : EReal) := by
    rw [stepMax, fold_max_coe_finset Finset.univ h0 sbR, max_bot_coe]
  refine ⟨hmax, ?_, ?_⟩
  · rw [stepDen, hmax, zero_mul, zero_add]
    exact block_den sbR _
  · rw [stepNum, hmax, zero_mul, zero_add]
    exact block_num sbR vbR _

/-- A step from a real state `(m, l, a)`: the new maximum is `max m (block's maximum)`, and the old denominator and
    numerator are rescaled by `exp (m - new maximum)` before the block's terms are added. -/
theorem step_next {n : ℕ} (h0 : (Finset.univ : Finset (Fin n)).Nonempty) (sbR vbR : Fin n → ℝ) (m l a : ℝ) :
    stepMax (m : EReal) (fun r => ((sbR r : ℝ) : EReal)) = ((max m (Finset.univ.sup' h0 sbR) : ℝ) : EReal)
    ∧ stepDen (m : EReal) (l : EReal) (fun r => ((sbR r : ℝ) : EReal))
        = ((Real.exp (m - max m (Finset.univ.sup' h0 sbR)) * l
              + ∑ r, Real.exp (sbR r - max m (Finset.univ.sup' h0 sbR)) : ℝ) : EReal)
    ∧ stepNum (m : EReal) (a : EReal) (fun r => ((sbR r : ℝ) : EReal)) (fun r => ((vbR r : ℝ) : EReal))
        = ((Real.exp (m - max m (Finset.univ.sup' h0 sbR)) * a
              + ∑ r, Real.exp (sbR r - max m (Finset.univ.sup' h0 sbR)) * vbR r : ℝ) : EReal) := by
  have hmax : stepMax (m : EReal) (fun r => ((sbR r : ℝ) : EReal))
      = ((max m (Finset.univ.sup' h0 sbR) : ℝ) : EReal) := by
    rw [stepMax, fold_max_coe_finset Finset.univ h0 sbR, max_coe_coe]
  refine ⟨hmax, ?_, ?_⟩
  · rw [stepDen, hmax, mul_comm]
    exact next_den sbR _ _ _
  · rw [stepNum, hmax, mul_comm]
    exact next_num sbR vbR _ _ _

/-! ## The first block and a later block of a half -/

theorem univ_block_nonempty : (Finset.univ : Finset (Fin 2000)).Nonempty :=
  ⟨⟨0, by norm_num⟩, Finset.mem_univ _⟩

theorem run_first (c : ℕ) (s v : ℕ → ℝ) (sb vb : Fin 2000 → EReal)
    (hs : ∀ r : Fin 2000, sb r = ((s (c * 100000 + 0 * 2000 + r.val) : ℝ) : EReal))
    (hv : ∀ r : Fin 2000, vb r = ((v (c * 100000 + 0 * 2000 + r.val) : ℝ) : EReal)) :
    stepMax ⊥ sb = runMax c 0 s ∧ stepDen ⊥ 0 sb = runDen c 0 s
      ∧ stepNum ⊥ 0 sb vb = runNum c 0 s v := by
  obtain rfl : sb = fun r : Fin 2000 => ((s (c * 100000 + 0 * 2000 + r.val) : ℝ) : EReal) := funext hs
  obtain rfl : vb = fun r : Fin 2000 => ((v (c * 100000 + 0 * 2000 + r.val) : ℝ) : EReal) := funext hv
  have hb : ∀ r : Fin 2000, 0 * 2000 + r.val < 50 * 2000 := fun r => by have := r.isLt; omega
  have hsb : ∀ r : Fin 2000, (fun r : Fin 2000 => s (c * 100000 + 0 * 2000 + r.val)) r
      = half c s ⟨0 * 2000 + r.val, hb r⟩ := fun r => by
    show s (c * 100000 + 0 * 2000 + r.val) = s (c * 100000 + (0 * 2000 + r.val))
    rw [Nat.add_assoc]
  have hvb : ∀ r : Fin 2000, (fun r : Fin 2000 => v (c * 100000 + 0 * 2000 + r.val)) r
      = half c v ⟨0 * 2000 + r.val, hb r⟩ := fun r => by
    show v (c * 100000 + 0 * 2000 + r.val) = v (c * 100000 + (0 * 2000 + r.val))
    rw [Nat.add_assoc]
  obtain ⟨h1, h2, h3⟩ := step_first univ_block_nonempty
    (fun r : Fin 2000 => s (c * 100000 + 0 * 2000 + r.val))
    (fun r : Fin 2000 => v (c * 100000 + 0 * 2000 + r.val))
  refine ⟨h1.trans ?_, h2.trans ?_, h3.trans ?_⟩
  · exact congrArg _ (prefix_zero_max (by norm_num) (by norm_num) hsb univ_block_nonempty)
  · exact congrArg _ (prefix_zero_den (by norm_num) (by norm_num) hsb univ_block_nonempty)
  · exact congrArg _ (prefix_zero_num (by norm_num) (by norm_num) hsb hvb univ_block_nonempty)

theorem run_succ (c j : ℕ) (hj : j + 1 < 50) (s v : ℕ → ℝ) (sb vb : Fin 2000 → EReal)
    (hs : ∀ r : Fin 2000, sb r = ((s (c * 100000 + (j + 1) * 2000 + r.val) : ℝ) : EReal))
    (hv : ∀ r : Fin 2000, vb r = ((v (c * 100000 + (j + 1) * 2000 + r.val) : ℝ) : EReal)) :
    stepMax (runMax c j s) sb = runMax c (j + 1) s
      ∧ stepDen (runMax c j s) (runDen c j s) sb = runDen c (j + 1) s
      ∧ stepNum (runMax c j s) (runNum c j s v) sb vb = runNum c (j + 1) s v := by
  obtain rfl : sb = fun r : Fin 2000 => ((s (c * 100000 + (j + 1) * 2000 + r.val) : ℝ) : EReal) := funext hs
  obtain rfl : vb = fun r : Fin 2000 => ((v (c * 100000 + (j + 1) * 2000 + r.val) : ℝ) : EReal) := funext hv
  have hb : ∀ r : Fin 2000, (j + 1) * 2000 + r.val < 50 * 2000 := fun r => by have := r.isLt; omega
  have hsb : ∀ r : Fin 2000, (fun r : Fin 2000 => s (c * 100000 + (j + 1) * 2000 + r.val)) r
      = half c s ⟨(j + 1) * 2000 + r.val, hb r⟩ := fun r => by
    show s (c * 100000 + (j + 1) * 2000 + r.val) = s (c * 100000 + ((j + 1) * 2000 + r.val))
    rw [Nat.add_assoc]
  have hvb : ∀ r : Fin 2000, (fun r : Fin 2000 => v (c * 100000 + (j + 1) * 2000 + r.val)) r
      = half c v ⟨(j + 1) * 2000 + r.val, hb r⟩ := fun r => by
    show v (c * 100000 + (j + 1) * 2000 + r.val) = v (c * 100000 + ((j + 1) * 2000 + r.val))
    rw [Nat.add_assoc]
  obtain ⟨h1, h2, h3⟩ := step_next univ_block_nonempty
    (fun r : Fin 2000 => s (c * 100000 + (j + 1) * 2000 + r.val))
    (fun r : Fin 2000 => v (c * 100000 + (j + 1) * 2000 + r.val))
    (pmax 50 2000 (half c s) j) (pden 50 2000 (half c s) j) (pnum 50 2000 (half c s) (half c v) j)
  refine ⟨h1.trans ?_, h2.trans ?_, h3.trans ?_⟩
  · exact congrArg _ (prefix_succ_max (by norm_num) hj hsb univ_block_nonempty)
  · exact congrArg _ (prefix_succ_den (by norm_num) hj hsb univ_block_nonempty)
  · exact congrArg _ (prefix_succ_num (by norm_num) hj hsb hvb univ_block_nonempty)

/-! ## The two halves together: the whole bag -/

theorem univ_half_nonempty : (Finset.univ : Finset (Fin (50 * 2000))).Nonempty :=
  ⟨⟨0, by norm_num⟩, Finset.mem_univ _⟩

theorem univ_bag_nonempty : (Finset.univ : Finset (Fin 200000)).Nonempty :=
  ⟨⟨0, by norm_num⟩, Finset.mem_univ _⟩

/-- The maximum of all the scores, as a real. -/
def gsup (s : ℕ → ℝ) : ℝ := Finset.univ.sup' univ_bag_nonempty (fun k : Fin 200000 => s k.val)

/-- The maximum of all the scores: the fold from `⊥` over the whole bag. -/
def gmax (s : ℕ → ℝ) : EReal :=
  max ⊥ ((Finset.univ : Finset (Fin 200000)).fold max ⊥ (fun k => ((s k.val : ℝ) : EReal)))

/-- The softmax denominator of the whole bag, shifted by the maximum. -/
def gden (s : ℕ → ℝ) : EReal := 0 + ∑ k : Fin 200000, Ideal.exp (((s k.val : ℝ) : EReal) - gmax s)

theorem gmax_eq (s : ℕ → ℝ) : gmax s = ((gsup s : ℝ) : EReal) := by
  rw [gmax, fold_max_coe_finset Finset.univ univ_bag_nonempty (fun k : Fin 200000 => s k.val), max_bot_coe]
  rfl

theorem gden_eq (s : ℕ → ℝ) :
    gden s = ((∑ k : Fin 200000, Real.exp (s k.val - gsup s) : ℝ) : EReal) := by
  rw [gden, gmax_eq, zero_add]
  exact block_den (fun k : Fin 200000 => s k.val) (gsup s)

/-- A sum over the whole bag is the sum over the first half plus the sum over the second half. -/
theorem sum_halves (f : ℕ → ℝ) :
    ∑ k : Fin 200000, f k.val
      = ∑ k : Fin (50 * 2000), f (0 * 100000 + k.val) + ∑ k : Fin (50 * 2000), f (1 * 100000 + k.val) := by
  have h := Fin.sum_univ_add (fun k : Fin (100000 + 100000) => f k.val)
  simp only [Fin.coe_castAdd, Fin.coe_natAdd] at h
  simp only [Nat.zero_mul, Nat.zero_add, Nat.one_mul]
  exact h

/-- The maximum over the whole bag is the larger of the two halves' maxima. -/
theorem sup_halves (f : ℕ → ℝ) :
    max (Finset.univ.sup' univ_half_nonempty (half 0 f)) (Finset.univ.sup' univ_half_nonempty (half 1 f))
      = gsup f := by
  apply le_antisymm
  · apply max_le
    · refine Finset.sup'_le _ _ (fun k _ => ?_)
      have hk : 0 * 100000 + k.val < 200000 := by have := k.isLt; omega
      exact Finset.le_sup' (fun k : Fin 200000 => f k.val)
        (Finset.mem_univ (⟨0 * 100000 + k.val, hk⟩ : Fin 200000))
    · refine Finset.sup'_le _ _ (fun k _ => ?_)
      have hk : 1 * 100000 + k.val < 200000 := by have := k.isLt; omega
      exact Finset.le_sup' (fun k : Fin 200000 => f k.val)
        (Finset.mem_univ (⟨1 * 100000 + k.val, hk⟩ : Fin 200000))
  · refine Finset.sup'_le _ _ (fun k _ => ?_)
    by_cases hk : k.val < 100000
    · refine le_trans ?_ (le_max_left _ _)
      have e : f k.val = half 0 f ⟨k.val, by omega⟩ := by
        show f k.val = f (0 * 100000 + k.val)
        rw [Nat.zero_mul, Nat.zero_add]
      rw [e]
      exact Finset.le_sup' (half 0 f) (Finset.mem_univ _)
    · refine le_trans ?_ (le_max_right _ _)
      have hk2 : k.val - 100000 < 50 * 2000 := by have := k.isLt; omega
      have e : f k.val = half 1 f ⟨k.val - 100000, hk2⟩ := by
        show f k.val = f (1 * 100000 + (k.val - 100000))
        rw [show 1 * 100000 + (k.val - 100000) = k.val by omega]
      rw [e]
      exact Finset.le_sup' (half 1 f) (Finset.mem_univ _)

/-- The final state of half `c`: its maximum, denominator and numerator over all its keys. -/
theorem runMax_last (c : ℕ) (s : ℕ → ℝ) :
    runMax c 49 s = ((Finset.univ.sup' univ_half_nonempty (half c s) : ℝ) : EReal) :=
by
  have h : pmax 50 2000 (half c s) 49 = _ :=
    prefix_last_max (N := 50) (n := 2000) (half c s) (by norm_num) univ_half_nonempty
  rw [runMax, h]

theorem runDen_last (c : ℕ) (s : ℕ → ℝ) :
    runDen c 49 s
      = ((∑ k, Real.exp (half c s k - Finset.univ.sup' univ_half_nonempty (half c s)) : ℝ) : EReal) :=
by
  have h : pden 50 2000 (half c s) 49 = _ :=
    prefix_last_den (N := 50) (n := 2000) (half c s) (by norm_num) univ_half_nonempty
  rw [runDen, h]

theorem runNum_last (c : ℕ) (s v : ℕ → ℝ) :
    runNum c 49 s v
      = ((∑ k, Real.exp (half c s k - Finset.univ.sup' univ_half_nonempty (half c s)) * half c v k : ℝ)
          : EReal) :=
by
  have h : pnum 50 2000 (half c s) (half c v) 49 = _ :=
    prefix_last_num (N := 50) (n := 2000) (half c s) (half c v) (by norm_num) univ_half_nonempty
  rw [runNum, h]

/-- The merged denominator is the whole bag's denominator. -/
theorem mergeDen_last (s : ℕ → ℝ) :
    mergeDen (runMax 0 49 s) (runDen 0 49 s) (runMax 1 49 s) (runDen 1 49 s)
      = ((∑ k : Fin 200000, Real.exp (s k.val - gsup s) : ℝ) : EReal) := by
  rw [runMax_last, runMax_last, runDen_last, runDen_last, mergeDen, max_coe_coe, exp_coe_sub, exp_coe_sub,
    ← EReal.coe_mul, ← EReal.coe_mul, ← EReal.coe_add, sup_halves,
    mul_comm _ (Real.exp _), mul_comm (∑ k, Real.exp _) (Real.exp _),
    den_rescale (half 0 s) Finset.univ, den_rescale (half 1 s) Finset.univ,
    sum_halves (fun i => Real.exp (s i - gsup s))]
  rfl

/-- The merged numerator is the whole bag's numerator. -/
theorem mergeNum_last (s v : ℕ → ℝ) :
    mergeNum (runMax 0 49 s) (runNum 0 49 s v) (runMax 1 49 s) (runNum 1 49 s v)
      = ((∑ k : Fin 200000, Real.exp (s k.val - gsup s) * v k.val : ℝ) : EReal) := by
  rw [runMax_last, runMax_last, runNum_last, runNum_last, mergeNum, max_coe_coe, exp_coe_sub, exp_coe_sub,
    ← EReal.coe_mul, ← EReal.coe_mul, ← EReal.coe_add, sup_halves,
    mul_comm _ (Real.exp _), mul_comm (∑ k, Real.exp _ * _) (Real.exp _),
    num_rescale (half 0 s) (half 0 v) Finset.univ, num_rescale (half 1 s) (half 1 v) Finset.univ,
    sum_halves (fun i => Real.exp (s i - gsup s) * v i)]
  rfl

/-- The whole bag's denominator is positive. -/
theorem gden_pos (s : ℕ → ℝ) : 0 < ∑ k : Fin 200000, Real.exp (s k.val - gsup s) :=
  Finset.sum_pos (fun _ _ => Real.exp_pos _) univ_bag_nonempty

theorem merged_eq (s v : ℕ → ℝ) :
    Ideal.div (mergeNum (runMax 0 49 s) (runNum 0 49 s v) (runMax 1 49 s) (runNum 1 49 s v))
        (mergeDen (runMax 0 49 s) (runDen 0 49 s) (runMax 1 49 s) (runDen 1 49 s))
      = ∑ k : Fin 200000,
          Ideal.div (Ideal.exp (((s k.val : ℝ) : EReal) - gmax s)) (gden s) * ((v k.val : ℝ) : EReal) := by
  rw [mergeNum_last, mergeDen_last, gmax_eq, gden_eq, div_coe_coe _ _ (gden_pos s).ne']
  exact (ref_row_of (fun k : Fin 200000 => s k.val) (fun k : Fin 200000 => v k.val) (gsup s) _
    (gden_pos s).ne').symm

end Cert.Online

end
-- ==== Proof.Invariant.lean ====
/-
  The invariant of the pooling kernel's grid: after grid step `n` the carried maximum, denominator and numerator are
  the state of the online softmax recurrence of half `n / 50` of the bag after its blocks `0, …, n % 50`.

  The scores and the hidden features of the whole bag are assumed to be coerced reals, `sR k` and `hR j k`. The first
  step of a half starts from `-∞`, `0` and the zero row, and is the recurrence's first step; every other step starts
  from what the step before left, and is one later step of the recurrence. The proof is an induction on the step. At
  the last step of a half the three results handed out are copies of the carried state.
-/
import proofs.«105278_j19679540150395_2_alg».proof.Proof.Steps
import proofs.«105278_j19679540150395_2_alg».proof.Proof.BlockFacts
import proofs.«105278_j19679540150395_2_alg».proof.Proof.OnlineLaws

set_option maxRecDepth 16384

noncomputable section

namespace Cert.KernelIdeal.Invariant

open Idealize.ShloMosaic Idealize.ShloMosaic.TcCoe Idealize.SL.Sem Idealize.ShloMosaic.ValueIdx
open Cert.KernelIdeal Cert.KernelIdeal.Gen Cert.KernelIdeal.GenP Cert.KernelIdeal.Payload Cert.KernelIdeal.Steps
open Cert.KernelIdeal.BlockFacts Cert.LayerForms
open Cert.Spec Cert.Online

/-! ## One step of the body, over any block whose scores and hidden features are the real ones -/

/-- The first step of a half: from the start values the body leaves the half's state after block 0. -/
theorem first_step (sR : ℕ → ℝ) (hR : ℕ → ℕ → ℝ) (cc : ℕ) (hb g : FVec Ideal S2000x256 .bf16)
    (x7 : Vec Ideal S256x1 .f32) (x8 : Vec Ideal S1x1 .f32)
    (hsc : ∀ r : Fin 2000, blockScores g x7 x8 r = ((sR (cc * 100000 + 0 * 2000 + r.val) : ℝ) : EReal))
    (hhb : ∀ (r : Fin 2000) (j : Fin 256), hb (ix2 r j) = ((hR j.val (cc * 100000 + 0 * 2000 + r.val) : ℝ) : EReal)) :
    k0_pay16 (F := Ideal) g x7 x8 (k0_pay4 (F := Ideal)) (ix2 (0 : Fin 1) (0 : Fin 1)) = runMax cc 0 sR
    ∧ k0_pay14 (F := Ideal) g x7 x8 (k0_pay4 (F := Ideal)) (k0_pay5 (F := Ideal)) (ix2 (0 : Fin 1) (0 : Fin 1))
        = runDen cc 0 sR
    ∧ ∀ j : Fin 256, k0_pay15 (F := Ideal) hb g x7 x8 (k0_pay4 (F := Ideal)) (k0_pay6 (F := Ideal)) (ix2 (0 : Fin 1) j)
        = runNum cc 0 sR (hR j.val) := by
  refine ⟨?_, ?_, fun j => ?_⟩
  · rw [pay16_eq, pay11_apply, pay4_apply]
    exact (run_first cc sR (hR 0) (blockScores g x7 x8) (fun r => hb (ix2 r (0 : Fin 256))) hsc
      (fun r => hhb r (0 : Fin 256))).1
  · rw [pay14_apply, pay4_apply, pay5_apply]
    exact (run_first cc sR (hR 0) (blockScores g x7 x8) (fun r => hb (ix2 r (0 : Fin 256))) hsc
      (fun r => hhb r (0 : Fin 256))).2.1
  · rw [pay15_apply, pay4_apply, pay6_apply]
    exact (run_first cc sR (hR j.val) (blockScores g x7 x8) (fun r => hb (ix2 r j)) hsc (fun r => hhb r j)).2.2

/-- A later step of a half: from the half's state after blocks `0, …, jj` the body leaves its state after blocks
    `0, …, jj + 1`. -/
theorem next_step (sR : ℕ → ℝ) (hR : ℕ → ℕ → ℝ) (cc jj : ℕ) (hjj : jj + 1 < 50) (hb g : FVec Ideal S2000x256 .bf16)
    (x7 : Vec Ideal S256x1 .f32) (x8 : Vec Ideal S1x1 .f32) (xs0 xs1 : Vec Ideal S1x1 .f32)
    (xs2 : Vec Ideal S1x256 .f32)
    (hsc : ∀ r : Fin 2000, blockScores g x7 x8 r = ((sR (cc * 100000 + (jj + 1) * 2000 + r.val) : ℝ) : EReal))
    (hhb : ∀ (r : Fin 2000) (j : Fin 256),
      hb (ix2 r j) = ((hR j.val (cc * 100000 + (jj + 1) * 2000 + r.val) : ℝ) : EReal))
    (h0 : xs0 (ix2 (0 : Fin 1) (0 : Fin 1)) = runMax cc jj sR)
    (h1 : xs1 (ix2 (0 : Fin 1) (0 : Fin 1)) = runDen cc jj sR)
    (h2 : ∀ j : Fin 256, xs2 (ix2 (0 : Fin 1) j) = runNum cc jj sR (hR j.val)) :
    k0_pay16 (F := Ideal) g x7 x8 xs0 (ix2 (0 : Fin 1) (0 : Fin 1)) = runMax cc (jj + 1) sR
    ∧ k0_pay14 (F := Ideal) g x7 x8 xs0 xs1 (ix2 (0 : Fin 1) (0 : Fin 1)) = runDen cc (jj + 1) sR
    ∧ ∀ j : Fin 256, k0_pay15 (F := Ideal) hb g x7 x8 xs0 xs2 (ix2 (0 : Fin 1) j)
        = runNum cc (jj + 1) sR (hR j.val) := by
  refine ⟨?_, ?_, fun j => ?_⟩
  · rw [pay16_eq, pay11_apply, h0]
    exact (run_succ cc jj hjj sR (hR 0) (blockScores g x7 x8) (fun r => hb (ix2 r (0 : Fin 256))) hsc
      (fun r => hhb r (0 : Fin 256))).1
  · rw [pay14_apply, h0, h1]
    exact (run_succ cc jj hjj sR (hR 0) (blockScores g x7 x8) (fun r => hb (ix2 r (0 : Fin 256))) hsc
      (fun r => hhb r (0 : Fin 256))).2.1
  · rw [pay15_apply, h0, h2 j]
    exact (run_succ cc jj hjj sR (hR j.val) (blockScores g x7 x8) (fun r => hb (ix2 r j)) hsc (fun r => hhb r j)).2.2

/-! ## At a grid step -/

section

variable (m : (ℓ : Loc nD τ sig) → Buf (Elt Ideal) ℓ) (c : Dev nD)

set_option quotPrecheck false

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)

/-- The block's scores at step `t = cc * 50 + q` are the real scores at positions `cc * 100000 + q * 2000 + r`. -/
theorem scores_real (sR : ℕ → ℝ)
    (hs : ∀ k : Fin 200000,
      Spec.srow a0 a1 (colBias a2) a3 (colBias a4) a5 (colBias a6) a7 (colBias a8) k = ((sR k.val : ℝ) : EReal))
    (t : Fin cfg0.N) (cc q : ℕ) (ht : t.val = cc * 50 + q) (r : Fin 2000) :
    blockScores (k0_pay8 (F := Ideal) (iblk m c 0 t) (iblk m c 1 t) (iblk m c 2 t) (iblk m c 3 t) (iblk m c 5 t) (iblk m c 4 t) (iblk m c 6 t)) (iblk m c 7 t) (iblk m c 8 t) r
      = ((sR (cc * 100000 + q * 2000 + r.val) : ℝ) : EReal) := by
  have hN : cfg0.N = 100 := N_0
  have hlt : t.val * 2000 + r.val < 200000 := by have := t.isLt; have := r.isLt; omega
  refine (scores_at m c t r ⟨t.val * 2000 + r.val, hlt⟩ rfl).trans ((hs _).trans ?_)
  show ((sR (t.val * 2000 + r.val) : ℝ) : EReal) = _
  rw [show t.val * 2000 + r.val = cc * 100000 + q * 2000 + r.val by omega]

/-- The block's hidden features at step `t = cc * 50 + q` are the real ones at positions `cc * 100000 + q * 2000 + r`. -/
theorem hidden_real (hR : ℕ → ℕ → ℝ)
    (hh : ∀ (k : Fin 200000) (j : Fin 256), Spec.H a0 a1 (colBias a2) (ix2 k j) = ((hR j.val k.val : ℝ) : EReal))
    (t : Fin cfg0.N) (cc q : ℕ) (ht : t.val = cc * 50 + q) (r : Fin 2000) (j : Fin 256) :
    (k0_pay7 (F := Ideal) (iblk m c 0 t) (iblk m c 1 t) (iblk m c 2 t)) (ix2 r j) = ((hR j.val (cc * 100000 + q * 2000 + r.val) : ℝ) : EReal) := by
  have hN : cfg0.N = 100 := N_0
  have hlt : t.val * 2000 + r.val < 200000 := by have := t.isLt; have := r.isLt; omega
  refine (hidden_at m c t r j ⟨t.val * 2000 + r.val, hlt⟩ rfl).trans ((hh _ j).trans ?_)
  show ((hR j.val (t.val * 2000 + r.val) : ℝ) : EReal) = _
  rw [show t.val * 2000 + r.val = cc * 100000 + q * 2000 + r.val by omega]

/-- A step that is not the first of its half, over what the step before left. -/
theorem later (sR : ℕ → ℝ) (hR : ℕ → ℕ → ℝ)
    (hs : ∀ k : Fin 200000,
      Spec.srow a0 a1 (colBias a2) a3 (colBias a4) a5 (colBias a6) a7 (colBias a8) k = ((sR k.val : ℝ) : EReal))
    (hh : ∀ (k : Fin 200000) (j : Fin 256), Spec.H a0 a1 (colBias a2) (ix2 k j) = ((hR j.val k.val : ℝ) : EReal))
    (t : Fin cfg0.N) (h0 : ¬t.val % 50 = 0)
    (p0 : (outsAt0 m c (t.val - 1) (Nat.lt_of_le_of_lt (Nat.sub_le _ _) t.isLt)).2.2.2.2.1 (ix2 (0 : Fin 1) (0 : Fin 1)) = runMax ((t.val - 1) / 50) ((t.val - 1) % 50) sR)
    (p1 : (outsAt0 m c (t.val - 1) (Nat.lt_of_le_of_lt (Nat.sub_le _ _) t.isLt)).2.2.2.2.2.1 (ix2 (0 : Fin 1) (0 : Fin 1)) = runDen ((t.val - 1) / 50) ((t.val - 1) % 50) sR)
    (p2 : ∀ j : Fin 256, (outsAt0 m c (t.val - 1) (Nat.lt_of_le_of_lt (Nat.sub_le _ _) t.isLt)).2.2.2.2.2.2 (ix2 (0 : Fin 1) j)
      = runNum ((t.val - 1) / 50) ((t.val - 1) % 50) sR (hR j.val)) :
    k0_pay16 (F := Ideal) (k0_pay8 (F := Ideal) (iblk m c 0 t) (iblk m c 1 t) (iblk m c 2 t) (iblk m c 3 t) (iblk m c 5 t) (iblk m c 4 t) (iblk m c 6 t)) (iblk m c 7 t) (iblk m c 8 t) (outsAt0 m c (t.val - 1) (Nat.lt_of_le_of_lt (Nat.sub_le _ _) t.isLt)).2.2.2.2.1 (ix2 (0 : Fin 1) (0 : Fin 1))
        = runMax (t.val / 50) (t.val % 50) sR
    ∧ k0_pay14 (F := Ideal) (k0_pay8 (F := Ideal) (iblk m c 0 t) (iblk m c 1 t) (iblk m c 2 t) (iblk m c 3 t) (iblk m c 5 t) (iblk m c 4 t) (iblk m c 6 t)) (iblk m c 7 t) (iblk m c 8 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1
          (ix2 (0 : Fin 1) (0 : Fin 1))
        = runDen (t.val / 50) (t.val % 50) sR
    ∧ ∀ j : Fin 256, k0_pay15 (F := Ideal) (k0_pay7 (F := Ideal) (iblk m c 0 t) (iblk m c 1 t) (iblk m c 2 t)) (k0_pay8 (F := Ideal) (iblk m c 0 t) (iblk m c 1 t) (iblk m c 2 t) (iblk m c 3 t) (iblk m c 5 t) (iblk m c 4 t) (iblk m c 6 t)) (iblk m c 7 t) (iblk m c 8 t) (outsAt0 m c (t.val - 1) (Nat.lt_of_le_of_lt (Nat.sub_le _ _) t.isLt)).2.2.2.2.1
          (outsAt0 m c (t.val - 1) (Nat.lt_of_le_of_lt (Nat.sub_le _ _) t.isLt)).2.2.2.2.2.2 (ix2 (0 : Fin 1) j)
        = runNum (t.val / 50) (t.val % 50) sR (hR j.val) := by
  have e1 : (t.val - 1) / 50 = t.val / 50 := by omega
  have e2 : (t.val - 1) % 50 + 1 = t.val % 50 := by omega
  have hjj : (t.val - 1) % 50 + 1 < 50 := by omega
  have ht : t.val = t.val / 50 * 50 + ((t.val - 1) % 50 + 1) := by omega
  rw [e1] at p0 p1 p2
  rw [← e2]
  exact next_step sR hR (t.val / 50) ((t.val - 1) % 50) hjj (k0_pay7 (F := Ideal) (iblk m c 0 t) (iblk m c 1 t) (iblk m c 2 t)) (k0_pay8 (F := Ideal) (iblk m c 0 t) (iblk m c 1 t) (iblk m c 2 t) (iblk m c 3 t) (iblk m c 5 t) (iblk m c 4 t) (iblk m c 6 t)) (iblk m c 7 t) (iblk m c 8 t)
    (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
    (fun r => scores_real m c sR hs t (t.val / 50) ((t.val - 1) % 50 + 1) ht r)
    (fun r j => hidden_real m c hR hh t (t.val / 50) ((t.val - 1) % 50 + 1) ht r j) p0 p1 p2

/-- THE INVARIANT: after step `n` the carried state is the state of half `n / 50` after its blocks `0, …, n % 50`. -/
theorem state (sR : ℕ → ℝ) (hR : ℕ → ℕ → ℝ)
    (hs : ∀ k : Fin 200000,
      Spec.srow a0 a1 (colBias a2) a3 (colBias a4) a5 (colBias a6) a7 (colBias a8) k = ((sR k.val : ℝ) : EReal))
    (hh : ∀ (k : Fin 200000) (j : Fin 256), Spec.H a0 a1 (colBias a2) (ix2 k j) = ((hR j.val k.val : ℝ) : EReal))
    (n : ℕ) (hn : n < cfg0.N) :
    (GenP.outsAt0 m c n hn).2.2.2.2.1 (ix2 (0 : Fin 1) (0 : Fin 1)) = Cert.Online.runMax (n / 50) (n % 50) sR
    ∧ (GenP.outsAt0 m c n hn).2.2.2.2.2.1 (ix2 (0 : Fin 1) (0 : Fin 1)) = Cert.Online.runDen (n / 50) (n % 50) sR
    ∧ ∀ j : Fin 256, (GenP.outsAt0 m c n hn).2.2.2.2.2.2 (ix2 (0 : Fin 1) j)
        = Cert.Online.runNum (n / 50) (n % 50) sR (hR j.val) := by
  induction n using Nat.strong_induction_on with
  | _ n ih =>
    have hN : cfg0.N = 100 := N_0
    by_cases h0 : n % 50 = 0
    · have h1 : ¬n % 50 = 49 := by omega
      have ht : n = n / 50 * 50 + 0 := by omega
      have fs := (fun (t : Fin cfg0.N) (ht : t.val = t.val / 50 * 50 + 0) =>
        first_step sR hR (t.val / 50) (k0_pay7 (F := Ideal) (iblk m c 0 t) (iblk m c 1 t) (iblk m c 2 t)) (k0_pay8 (F := Ideal) (iblk m c 0 t) (iblk m c 1 t) (iblk m c 2 t) (iblk m c 3 t) (iblk m c 5 t) (iblk m c 4 t) (iblk m c 6 t)) (iblk m c 7 t) (iblk m c 8 t)
          (fun r => scores_real m c sR hs t (t.val / 50) 0 ht r)
          (fun r j => hidden_real m c hR hh t (t.val / 50) 0 ht r j)) ⟨n, hn⟩ ht
      rw [h0]
      exact ⟨(congrFun (max_A m c ⟨n, hn⟩ h0 h1) _).trans fs.1, (congrFun (den_A m c ⟨n, hn⟩ h0 h1) _).trans fs.2.1,
        fun j => (congrFun (num_A m c ⟨n, hn⟩ h0 h1) _).trans (fs.2.2 j)⟩
    · have hp : n - 1 < cfg0.N := Nat.lt_of_le_of_lt (Nat.sub_le _ _) hn
      obtain ⟨p0, p1, p2⟩ := ih (n - 1) (by omega) hp
      have L := later m c sR hR hs hh ⟨n, hn⟩ h0 p0 p1 p2
      by_cases h1 : n % 50 = 49
      · exact ⟨(congrFun (max_C m c ⟨n, hn⟩ h0 h1) _).trans L.1, (congrFun (den_C m c ⟨n, hn⟩ h0 h1) _).trans L.2.1,
          fun j => (congrFun (num_C m c ⟨n, hn⟩ h0 h1) _).trans (L.2.2 j)⟩
      · exact ⟨(congrFun (max_B m c ⟨n, hn⟩ h0 h1) _).trans L.1, (congrFun (den_B m c ⟨n, hn⟩ h0 h1) _).trans L.2.1,
          fun j => (congrFun (num_B m c ⟨n, hn⟩ h0 h1) _).trans (L.2.2 j)⟩

/-- At the last step of a half the three results handed out are the half's final state. -/
theorem handed (sR : ℕ → ℝ) (hR : ℕ → ℕ → ℝ)
    (hs : ∀ k : Fin 200000,
      Spec.srow a0 a1 (colBias a2) a3 (colBias a4) a5 (colBias a6) a7 (colBias a8) k = ((sR k.val : ℝ) : EReal))
    (hh : ∀ (k : Fin 200000) (j : Fin 256), Spec.H a0 a1 (colBias a2) (ix2 k j) = ((hR j.val k.val : ℝ) : EReal))
    (t : Fin cfg0.N) (h1 : t.val % 50 = 49) :
    (GenP.outsAt0 m c t.val t.isLt).2.1 (ix3 (0 : Fin 1) (0 : Fin 1) (0 : Fin 1)) = Cert.Online.runMax (t.val / 50) 49 sR
    ∧ (GenP.outsAt0 m c t.val t.isLt).2.2.1 (ix3 (0 : Fin 1) (0 : Fin 1) (0 : Fin 1))
        = Cert.Online.runDen (t.val / 50) 49 sR
    ∧ ∀ j : Fin 256, (GenP.outsAt0 m c t.val t.isLt).2.2.2.1 (ix3 (0 : Fin 1) (0 : Fin 1) j)
        = Cert.Online.runNum (t.val / 50) 49 sR (hR j.val) := by
  have h0 : ¬t.val % 50 = 0 := by omega
  obtain ⟨p0, p1, p2⟩ := state m c sR hR hs hh (t.val - 1) (Nat.lt_of_le_of_lt (Nat.sub_le _ _) t.isLt)
  have L := later m c sR hR hs hh t h0 p0 p1 p2
  rw [h1] at L
  exact ⟨(congrFun (omax_C m c t h0 h1) _).trans ((pay1_apply _).trans L.1),
    (congrFun (oden_C m c t h0 h1) _).trans ((pay2_apply _).trans L.2.1),
    fun j => (congrFun (onum_C m c t h0 h1) _).trans ((pay3_apply _ j).trans (L.2.2 j))⟩

end

end Cert.KernelIdeal.Invariant

end
-- ==== Proof.Finals.lean ====
/-
  The pallas_call's four result arrays after the run, as functions of the program's arguments.

  The score column ends holding the attention scores of the whole bag, row `p` the score of instance `p`. When the
  scores and the hidden features are real numbers, the three small results end holding, for each half of the bag, the
  half's largest score and its softmax denominator and numerators shifted by that maximum.
-/
import proofs.«105278_j19679540150395_2_alg».proof.Proof.Arrays
import proofs.«105278_j19679540150395_2_alg».proof.Proof.Steps
import proofs.«105278_j19679540150395_2_alg».proof.Proof.Payload
import proofs.«105278_j19679540150395_2_alg».proof.Proof.BlockFacts
import proofs.«105278_j19679540150395_2_alg».proof.Proof.Invariant

set_option maxRecDepth 16384

noncomputable section

namespace Cert.KernelIdeal.Finals

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.KernelIdeal.Payload
open Cert.Spec Cert.LayerForms Cert.Online

variable (m : (ℓ : Loc nD τ sig) → Buf (Elt Ideal) ℓ) (c : Dev nD)

set_option quotPrecheck false

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)

/-- The attention scores as a column. -/
def scoreCol : S200000x1.Idx → EReal :=
  fun i => Spec.srow a0 a1 (colBias a2) a3 (colBias a4) a5 (colBias a6) a7 (colBias a8) (i 0)

/-- Every step leaves its block of the score column. -/
theorem col_at (t : Fin cfg0.N) (r : Fin 2000) (P : Fin 200000) (hP : P.val = t.val * 2000 + r.val) :
    (outsAt0 m c t.val t.isLt).1 (ix2 r (0 : Fin 1)) = scoreCol m c (ix2 P (0 : Fin 1)) := by
  have key : k0_pay9 (F := Ideal)
      (k0_pay8 (F := Ideal) (iblk m c 0 t) (iblk m c 1 t) (iblk m c 2 t) (iblk m c 3 t) (iblk m c 5 t) (iblk m c 4 t)
        (iblk m c 6 t)) (iblk m c 7 t) (iblk m c 8 t) (ix2 r (0 : Fin 1)) = scoreCol m c (ix2 P (0 : Fin 1)) := by
    rw [pay9_eq]
    exact BlockFacts.scores_at m c t r P hP
  by_cases h0 : t.val % 50 = 0
  · have h1 : ¬t.val % 50 = 49 := by omega
    rw [Steps.col_A m c t h0 h1]; exact key
  · by_cases h1 : t.val % 50 = 49
    · rw [Steps.col_C m c t h0 h1]; exact key
    · rw [Steps.col_B m c t h0 h1]; exact key

/-- The score column after the run. -/
theorem final_col : (dats m 0 c).arrAt 9 cfg0.N = scoreCol m c :=
  Arrays.final9 m c (scoreCol m c) (col_at m c)

section Real

variable (sR : ℕ → ℝ) (hR : ℕ → ℕ → ℝ)

/-- The two halves' final maxima. -/
theorem final_max (hs : ∀ k : Fin 200000, Spec.srow a0 a1 (colBias a2) a3 (colBias a4) a5 (colBias a6) a7 (colBias a8) k = ((sR k.val : ℝ) : EReal))
    (hh : ∀ (k : Fin 200000) (j : Fin 256), Spec.H a0 a1 (colBias a2) (ix2 k j) = ((hR j.val k.val : ℝ) : EReal)) : (dats m 0 c).arrAt 10 cfg0.N = fun i : S2x1x1.Idx => runMax (i 0).val 49 sR :=
  Arrays.final10 m c (fun i : S2x1x1.Idx => runMax (i 0).val 49 sR) fun t h49 j Q hQ => by
    obtain rfl : j = 0 := Subsingleton.elim _ _
    rw [(Invariant.handed m c sR hR hs hh t h49).1]
    show runMax (t.val / 50) 49 sR = runMax Q.val 49 sR
    rw [hQ]

/-- The two halves' final denominators. -/
theorem final_den (hs : ∀ k : Fin 200000, Spec.srow a0 a1 (colBias a2) a3 (colBias a4) a5 (colBias a6) a7 (colBias a8) k = ((sR k.val : ℝ) : EReal))
    (hh : ∀ (k : Fin 200000) (j : Fin 256), Spec.H a0 a1 (colBias a2) (ix2 k j) = ((hR j.val k.val : ℝ) : EReal)) : (dats m 0 c).arrAt 11 cfg0.N = fun i : S2x1x1.Idx => runDen (i 0).val 49 sR :=
  Arrays.final11 m c (fun i : S2x1x1.Idx => runDen (i 0).val 49 sR) fun t h49 j Q hQ => by
    obtain rfl : j = 0 := Subsingleton.elim _ _
    rw [(Invariant.handed m c sR hR hs hh t h49).2.1]
    show runDen (t.val / 50) 49 sR = runDen Q.val 49 sR
    rw [hQ]

/-- The two halves' final numerators, column by column. -/
theorem final_num (hs : ∀ k : Fin 200000, Spec.srow a0 a1 (colBias a2) a3 (colBias a4) a5 (colBias a6) a7 (colBias a8) k = ((sR k.val : ℝ) : EReal))
    (hh : ∀ (k : Fin 200000) (j : Fin 256), Spec.H a0 a1 (colBias a2) (ix2 k j) = ((hR j.val k.val : ℝ) : EReal)) : (dats m 0 c).arrAt 12 cfg0.N = fun i : S2x1x256.Idx => runNum (i 0).val 49 sR (hR (i 2).val) :=
  Arrays.final12 m c (fun i : S2x1x256.Idx => runNum (i 0).val 49 sR (hR (i 2).val)) fun t h49 j Q hQ => by
    rw [(Invariant.handed m c sR hR hs hh t h49).2.2 j]
    show runNum (t.val / 50) 49 sR (hR j.val) = runNum Q.val 49 sR (hR j.val)
    rw [hQ]

end Real

end Cert.KernelIdeal.Finals

end
-- ==== Proof.Tail.lean ====
/-
  The host operations that follow the kernel's launch, as functions of the launch's four results and of the last six
  arguments, and what they compute.

  The launch leaves the column of raw attention scores `araw : [200000, 1]` and, for each of the two cores, the final state
  of its online softmax over its half of the bag: a maximum `mo c`, a denominator `lo c` and a numerator row `ao c`. The
  operations after it are:

  * the softmax of the raw scores (`outA`): the column cast to a row, the row's maximum folded from minus infinity and
    compared once more with minus infinity, the exponentials of the differences, their sum from a zero initial value,
    the quotients. On the scores of the specification this is its attention weights `A` (`outA_eq`);
  * the merge of the two partial states (`outG`): with `M = max (mo 0) (mo 1)` and `e c = exp (mo c - M)`, the numerator
    `ao 0 * e 0 + ao 1 * e 1` over the denominator `lo 0 * e 0 + lo 1 * e 1`, entry by entry (`outG_apply`);
  * the three layers on the pooled feature (`outCls`, `outReg`): each a product with a one-row matrix plus a bias
    broadcast to that one row, the first followed by the maximum with zero; they are the specification's
    `classLogits` and `regValues` (`outCls_eq`, `outReg_eq`).

  The four definitions are compositions of the same operations, in the same order and with the same side conditions,
  as the program's text.
-/
import proofs.«105278_j19679540150395_2_alg».proof.KernelIdeal
import proofs.«105278_j19679540150395_2_alg».proof.Proof.Spec
import proofs.«105278_j19679540150395_2_alg».proof.Proof.Online
import proofs.«105278_j19679540150395_2_alg».proof.Proof.LibLayerForms
import Idealize.ShloMosaic.PureOps.Reduce
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.Tail

open Cert.KernelIdeal Idealize.ShloMosaic Idealize.ShloMosaic.ValueIdx Cert.DenseLayer Cert.LayerForms

variable [Cert.KernelIdeal.Facts]

open Cert.KernelIdeal.Facts₀ Cert.KernelIdeal.Facts

/-! ## The softmax of the raw scores -/

/-- The column of raw scores cast to a row. -/
def scoreRow (araw : S200000x1.Idx → EReal) : FVec Ideal S1x200000 .f32 :=
  shapeCast S1x200000 (araw : FVec Ideal S200000x1 .f32) shapeCasts_S200000x1_S1x200000

/-- The stabilising maximum of a row: its maximum folded from minus infinity, compared once more with minus infinity. -/
def rowMax (row : FVec Ideal S1x200000 .f32) : FVec Ideal S1 .f32 :=
  maximumf (broadcastInDim S1 ![] bcast_S_S1 (constant (F := Ideal) S_ .f32 0xFF800000#32))
    (Host.reduce FloatOps.maximumf row (constant (F := Ideal) S_ .f32 0xFF800000#32) reducesTo_S1x200000_S1_d1 h_S_)

/-- The numerators: the exponentials of the row less its maximum. -/
def rowNum (row : FVec Ideal S1x200000 .f32) : FVec Ideal S1x200000 .f32 :=
  Host.exp (subf row (broadcastInDim S1x200000 ![0, 1] bcast_S1x1_S1x200000_0_1 (broadcastInDim S1x1 ![0] bcast_S1_S1x1_0 (rowMax row))))

/-- The denominator: the sum of the numerators from a zero initial value. -/
def rowDen (row : FVec Ideal S1x200000 .f32) : FVec Ideal S1 .f32 :=
  Host.reduceAdd (rowNum row) (constant (F := Ideal) S_ .f32 0x00000000#32) reducesTo_S1x200000_S1_d1 h_S_

/-- The attention weights the tail computes from the raw scores. -/
def outA (araw : S200000x1.Idx → EReal) : S1x200000.Idx → EReal :=
  Host.divf (rowNum (scoreRow araw))
    (broadcastInDim S1x200000 ![0, 1] bcast_S1x1_S1x200000_0_1 (broadcastInDim S1x1 ![0] bcast_S1_S1x1_0 (rowDen (scoreRow araw))))

/-- The single-precision word of minus infinity is the least extended real. -/
theorem bot_word : Ideal.ofBits .f32 0xFF800000#32 = (⊥ : EReal) := by
  simp [Ideal.ofBits, Ideal.ieee]

/-- Entry `(0, k)` of the row is entry `(k, 0)` of the column. -/
theorem scoreRow_apply (araw : S200000x1.Idx → EReal) (i : S1x200000.Idx) :
    scoreRow araw i = araw (ix2 (i 1) (0 : Fin 1)) := by
  unfold scoreRow
  refine shapeCast_apply _ shapeCasts_S200000x1_S1x200000 i (ix2 (i 1) (0 : Fin 1)) ?_
  have h0 : (i 0).val < 1 := (i 0).isLt
  rw [Shape.rowMajor_val_two, Shape.rowMajor_val_two]
  show (i 1).val * 1 + 0 = (i 0).val * 200000 + (i 1).val
  omega

section Row

variable (row : FVec Ideal S1x200000 .f32) (s : Fin 200000 → EReal) (hrow : ∀ i, row i = s (i 1))
include hrow

/-- The stabilising maximum of a row of scores `s`. -/
theorem rowMax_apply (j : S1.Idx) :
    rowMax row j = max ⊥ ((Finset.univ : Finset (Fin 200000)).fold max ⊥ s) := by
  unfold rowMax
  have h : S1x200000.Reduces [1] S1 := by decide
  show max (Ideal.ofBits .f32 0xFF800000#32)
      (Host.reduce FloatOps.maximumf row (constant (F := Ideal) S_ .f32 0xFF800000#32) reducesTo_S1x200000_S1_d1 h_S_ j) = _
  rw [Host.reduce_eq_fold_single FloatOps.maximumf _ _ reducesTo_S1x200000_S1_d1 h h_S_ j]
  have hf : (row ∘ h.lift j) = (s : Fin 200000 → EReal) :=
    funext fun k => by
      show row (h.lift j k) = _
      rw [hrow]
      exact congrArg s (Fin.ext (by rw [h.lift_val]; simp [Shape.Reduces.liftVal]))
  show max (Ideal.ofBits .f32 0xFF800000#32)
      (Finset.fold max (Ideal.ofBits .f32 0xFF800000#32) (row ∘ h.lift j) (Finset.univ : Finset (Fin 200000))) = _
  rw [hf, bot_word]
  rfl

/-- The numerators of a row of scores `s`. -/
theorem rowNum_apply (i : S1x200000.Idx) :
    rowNum row i = Ideal.exp (s (i 1) - max ⊥ ((Finset.univ : Finset (Fin 200000)).fold max ⊥ s)) := by
  unfold rowNum
  show Ideal.exp (row i - broadcastInDim S1x200000 ![0, 1] bcast_S1x1_S1x200000_0_1
      (broadcastInDim S1x1 ![0] bcast_S1_S1x1_0 (rowMax row)) i) = _
  rw [broadcastInDim_apply _ bcast_S1x1_S1x200000_0_1 _ i (ix2 (0 : Fin 1) (0 : Fin 1)) (fun a => match a with
      | ⟨0, _⟩ => by show 0 = if (1 : Nat) = 1 then 0 else (i 0).val; rw [if_pos rfl]
      | ⟨1, _⟩ => by show 0 = if (1 : Nat) = 1 then 0 else (i 1).val; rw [if_pos rfl]),
    broadcastInDim_apply _ bcast_S1_S1x1_0 _ (ix2 (0 : Fin 1) (0 : Fin 1)) (ix1 (0 : Fin 1)) (fun a => match a with
      | ⟨0, _⟩ => by show 0 = if (1 : Nat) = 1 then 0 else 0; rw [if_pos rfl]),
    rowMax_apply row s hrow, hrow]

/-- The denominator of a row of scores `s`. -/
theorem rowDen_apply (j : S1.Idx) :
    rowDen row j = 0 + ∑ k : Fin 200000, Ideal.exp (s k - max ⊥ ((Finset.univ : Finset (Fin 200000)).fold max ⊥ s)) := by
  unfold rowDen
  have h : S1x200000.Reduces [1] S1 := by decide
  simp only [Host.reduceAdd, Ideal.hostReduceAdd_def]
  rw [Ideal.hostReduceAdd_single reducesTo_S1x200000_S1_d1 h]
  show Ideal.ofBits .f32 0x00000000#32 + _ = _
  rw [Ideal.ofBits_zero_f32]
  refine congrArg (0 + ·) (Finset.sum_congr rfl fun k _ => ?_)
  rw [rowNum_apply row s hrow]
  exact congrArg (fun k' => Ideal.exp (s k' - max ⊥ ((Finset.univ : Finset (Fin 200000)).fold max ⊥ s)))
    (Fin.ext (by rw [h.lift_val]; simp [Shape.Reduces.liftVal]))

end Row

/-- The tail's softmax of a column of raw scores `s`: `exp (s k - M) / L` with `M` the stabilising maximum and `L` the sum
    of the numerators. -/
theorem outA_apply (araw : S200000x1.Idx → EReal) (s : Fin 200000 → EReal) (h : ∀ k : Fin 200000, araw (ix2 k (0 : Fin 1)) = s k)
    (i : S1x200000.Idx) :
    outA araw i = Ideal.div (Ideal.exp (s (i 1) - max ⊥ ((Finset.univ : Finset (Fin 200000)).fold max ⊥ s)))
      (0 + ∑ k : Fin 200000, Ideal.exp (s k - max ⊥ ((Finset.univ : Finset (Fin 200000)).fold max ⊥ s))) := by
  have hrow : ∀ i, scoreRow araw i = s (i 1) := fun i => (scoreRow_apply araw i).trans (h (i 1))
  have e : outA araw i = FloatOps.hostDivf (rowNum (scoreRow araw) i) (broadcastInDim S1x200000 ![0, 1] bcast_S1x1_S1x200000_0_1
      (broadcastInDim S1x1 ![0] bcast_S1_S1x1_0 (rowDen (scoreRow araw))) i) := rfl
  rw [e, Ideal.hostDivf_def]
  rw [broadcastInDim_apply _ bcast_S1x1_S1x200000_0_1 _ i (ix2 (0 : Fin 1) (0 : Fin 1)) (fun a => match a with
      | ⟨0, _⟩ => by show 0 = if (1 : Nat) = 1 then 0 else (i 0).val; rw [if_pos rfl]
      | ⟨1, _⟩ => by show 0 = if (1 : Nat) = 1 then 0 else (i 1).val; rw [if_pos rfl]),
    broadcastInDim_apply _ bcast_S1_S1x1_0 _ (ix2 (0 : Fin 1) (0 : Fin 1)) (ix1 (0 : Fin 1)) (fun a => match a with
      | ⟨0, _⟩ => by show 0 = if (1 : Nat) = 1 then 0 else 0; rw [if_pos rfl]),
    rowNum_apply _ s hrow, rowDen_apply _ s hrow]

/-- On the raw scores of the bag the tail's softmax is the attention weights. -/
theorem outA_eq (araw : S200000x1.Idx → EReal) (x : (⟨3, ![1, 200000, 512]⟩ : Shape).Idx → EReal) (W1 : Cert.Spec.Mat 512 256)
    (b1 : Fin 256 → EReal) (Wa : Cert.Spec.Mat 256 256) (ba : Fin 256 → EReal) (Wb : Cert.Spec.Mat 256 256) (bb : Fin 256 → EReal)
    (Wc : Cert.Spec.Mat 256 1) (bc : Fin 1 → EReal)
    (h : ∀ k : Fin 200000, araw (ix2 k (0 : Fin 1)) = Cert.Spec.srow x W1 b1 Wa ba Wb bb Wc bc k) :
    outA araw = Cert.Spec.A x W1 b1 Wa ba Wb bb Wc bc :=
  funext fun i => (outA_apply araw _ h i).trans rfl

/-! ## The merge of the two cores' partial states -/

/-- The first core's entry of a `[2, 1, 1]` array, as a scalar. -/
def part0 (v : S2x1x1.Idx → EReal) : FVec Ideal S_ .f32 :=
  shapeCast S_ (extractStridedSlice S1x1x1 ![0, 0, 0] (v : FVec Ideal S2x1x1 .f32) slices_S2x1x1_S1x1x1_0_0_0) shapeCasts_S1x1x1_S_

/-- The second core's entry of a `[2, 1, 1]` array, as a scalar. -/
def part1 (v : S2x1x1.Idx → EReal) : FVec Ideal S_ .f32 :=
  shapeCast S_ (extractStridedSlice S1x1x1 ![1, 0, 0] (v : FVec Ideal S2x1x1 .f32) slices_S2x1x1_S1x1x1_1_0_0) shapeCasts_S1x1x1_S_

/-- The first core's row of a `[2, 1, 256]` array, as a vector. -/
def vec0 (v : S2x1x256.Idx → EReal) : FVec Ideal S256 .f32 :=
  shapeCast S256 (extractStridedSlice S1x1x256 ![0, 0, 0] (v : FVec Ideal S2x1x256 .f32) slices_S2x1x256_S1x1x256_0_0_0)
    shapeCasts_S1x1x256_S256

/-- The second core's row of a `[2, 1, 256]` array, as a vector. -/
def vec1 (v : S2x1x256.Idx → EReal) : FVec Ideal S256 .f32 :=
  shapeCast S256 (extractStridedSlice S1x1x256 ![1, 0, 0] (v : FVec Ideal S2x1x256 .f32) slices_S2x1x256_S1x1x256_1_0_0)
    shapeCasts_S1x1x256_S256

/-- The first core's rescaling factor: `exp (m0 - max m0 m1)`. -/
def scale0 (mo : S2x1x1.Idx → EReal) : FVec Ideal S_ .f32 :=
  Host.exp (subf (part0 mo) (maximumf (part0 mo) (part1 mo)))

/-- The second core's rescaling factor: `exp (m1 - max m0 m1)`. -/
def scale1 (mo : S2x1x1.Idx → EReal) : FVec Ideal S_ .f32 :=
  Host.exp (subf (part1 mo) (maximumf (part0 mo) (part1 mo)))

/-- The pooled feature the tail computes from the two cores' final maxima, denominators and numerators. -/
def outG (mo lo : S2x1x1.Idx → EReal) (ao : S2x1x256.Idx → EReal) : S1x256.Idx → EReal :=
  shapeCast S1x256
    (Host.divf
      (addf (mulf (vec0 ao) (broadcastInDim S256 ![] bcast_S_S256 (scale0 mo)))
        (mulf (vec1 ao) (broadcastInDim S256 ![] bcast_S_S256 (scale1 mo))))
      (broadcastInDim S256 ![] bcast_S_S256 (addf (mulf (part0 lo) (scale0 mo)) (mulf (part1 lo) (scale1 mo)))))
    shapeCasts_S256_S1x256

/-- The first core's scalar is entry `(0, 0, 0)` of the array. -/
theorem part0_apply (v : S2x1x1.Idx → EReal) (i : S_.Idx) : part0 v i = v (ix3 (0 : Fin 2) (0 : Fin 1) (0 : Fin 1)) := by
  unfold part0
  rw [shapeCast_apply _ shapeCasts_S1x1x1_S_ i (ix3 (0 : Fin 1) (0 : Fin 1) (0 : Fin 1))
    (by rw [Shape.rowMajor_val_three]; exact (Shape.rowMajorPi_zero _ _).symm)]
  exact extractStridedSlice_apply _ _ slices_S2x1x1_S1x1x1_0_0_0 _ (ix3 (0 : Fin 2) (0 : Fin 1) (0 : Fin 1))
    (fun a => by match a with | ⟨0, _⟩ => rfl | ⟨1, _⟩ => rfl | ⟨2, _⟩ => rfl)

/-- The second core's scalar is entry `(1, 0, 0)` of the array. -/
theorem part1_apply (v : S2x1x1.Idx → EReal) (i : S_.Idx) : part1 v i = v (ix3 (1 : Fin 2) (0 : Fin 1) (0 : Fin 1)) := by
  unfold part1
  rw [shapeCast_apply _ shapeCasts_S1x1x1_S_ i (ix3 (0 : Fin 1) (0 : Fin 1) (0 : Fin 1))
    (by rw [Shape.rowMajor_val_three]; exact (Shape.rowMajorPi_zero _ _).symm)]
  exact extractStridedSlice_apply _ _ slices_S2x1x1_S1x1x1_1_0_0 _ (ix3 (1 : Fin 2) (0 : Fin 1) (0 : Fin 1))
    (fun a => by match a with | ⟨0, _⟩ => rfl | ⟨1, _⟩ => rfl | ⟨2, _⟩ => rfl)

/-- Entry `j` of the first core's vector is entry `(0, 0, j)` of the array. -/
theorem vec0_apply (v : S2x1x256.Idx → EReal) (j : Fin 256) : vec0 v (ix1 j) = v (ix3 (0 : Fin 2) (0 : Fin 1) j) := by
  unfold vec0
  rw [shapeCast_apply _ shapeCasts_S1x1x256_S256 (ix1 j) (ix3 (0 : Fin 1) (0 : Fin 1) j)
    (by rw [Shape.rowMajor_val_three, Shape.rowMajor_val_one]; show (0 * 1 + 0) * 256 + j.val = j.val; omega)]
  exact extractStridedSlice_apply _ _ slices_S2x1x256_S1x1x256_0_0_0 _ (ix3 (0 : Fin 2) (0 : Fin 1) j)
    (fun a => by match a with | ⟨0, _⟩ => rfl | ⟨1, _⟩ => rfl | ⟨2, _⟩ => exact (Nat.zero_add _).symm)

/-- Entry `j` of the second core's vector is entry `(1, 0, j)` of the array. -/
theorem vec1_apply (v : S2x1x256.Idx → EReal) (j : Fin 256) : vec1 v (ix1 j) = v (ix3 (1 : Fin 2) (0 : Fin 1) j) := by
  unfold vec1
  rw [shapeCast_apply _ shapeCasts_S1x1x256_S256 (ix1 j) (ix3 (0 : Fin 1) (0 : Fin 1) j)
    (by rw [Shape.rowMajor_val_three, Shape.rowMajor_val_one]; show (0 * 1 + 0) * 256 + j.val = j.val; omega)]
  exact extractStridedSlice_apply _ _ slices_S2x1x256_S1x1x256_1_0_0 _ (ix3 (1 : Fin 2) (0 : Fin 1) j)
    (fun a => by match a with | ⟨0, _⟩ => rfl | ⟨1, _⟩ => rfl | ⟨2, _⟩ => exact (Nat.zero_add _).symm)

/-- The first core's rescaling factor, in the two maxima. -/
theorem scale0_apply (mo : S2x1x1.Idx → EReal) (i : S_.Idx) :
    scale0 mo i = Ideal.exp (mo (ix3 (0 : Fin 2) (0 : Fin 1) (0 : Fin 1))
      - max (mo (ix3 (0 : Fin 2) (0 : Fin 1) (0 : Fin 1))) (mo (ix3 (1 : Fin 2) (0 : Fin 1) (0 : Fin 1)))) := by
  unfold scale0
  show Ideal.exp (part0 mo i - max (part0 mo i) (part1 mo i)) = _
  rw [part0_apply, part1_apply]

/-- The second core's rescaling factor, in the two maxima. -/
theorem scale1_apply (mo : S2x1x1.Idx → EReal) (i : S_.Idx) :
    scale1 mo i = Ideal.exp (mo (ix3 (1 : Fin 2) (0 : Fin 1) (0 : Fin 1))
      - max (mo (ix3 (0 : Fin 2) (0 : Fin 1) (0 : Fin 1))) (mo (ix3 (1 : Fin 2) (0 : Fin 1) (0 : Fin 1)))) := by
  unfold scale1
  show Ideal.exp (part1 mo i - max (part0 mo i) (part1 mo i)) = _
  rw [part0_apply, part1_apply]

/-- A scalar broadcast to a vector reads the scalar at every index. -/
theorem bcastScalar_apply (x : FVec Ideal S_ .f32) (i : S256.Idx) : broadcastInDim S256 ![] bcast_S_S256 x i = x ix0 :=
  broadcastInDim_apply _ bcast_S_S256 x i ix0 (fun a => a.elim0)

/-- The tail's pooled feature is the quotient of the two cores' merged numerator and merged denominator. -/
theorem outG_apply (mo lo : S2x1x1.Idx → EReal) (ao : S2x1x256.Idx → EReal) (j : Fin 256) :
    outG mo lo ao (ix2 (0 : Fin 1) j)
      = Ideal.div
          (Cert.Online.mergeNum (mo (ix3 (0 : Fin 2) (0 : Fin 1) (0 : Fin 1))) (ao (ix3 (0 : Fin 2) (0 : Fin 1) j))
            (mo (ix3 (1 : Fin 2) (0 : Fin 1) (0 : Fin 1))) (ao (ix3 (1 : Fin 2) (0 : Fin 1) j)))
          (Cert.Online.mergeDen (mo (ix3 (0 : Fin 2) (0 : Fin 1) (0 : Fin 1))) (lo (ix3 (0 : Fin 2) (0 : Fin 1) (0 : Fin 1)))
            (mo (ix3 (1 : Fin 2) (0 : Fin 1) (0 : Fin 1))) (lo (ix3 (1 : Fin 2) (0 : Fin 1) (0 : Fin 1)))) := by
  unfold outG
  rw [shapeCast_a_1a_apply]
  show Ideal.div
      (vec0 ao (ix1 j) * broadcastInDim S256 ![] bcast_S_S256 (scale0 mo) (ix1 j)
        + vec1 ao (ix1 j) * broadcastInDim S256 ![] bcast_S_S256 (scale1 mo) (ix1 j))
      (broadcastInDim S256 ![] bcast_S_S256 (addf (mulf (part0 lo) (scale0 mo)) (mulf (part1 lo) (scale1 mo))) (ix1 j)) = _
  rw [bcastScalar_apply, bcastScalar_apply, bcastScalar_apply]
  show Ideal.div (vec0 ao (ix1 j) * scale0 mo ix0 + vec1 ao (ix1 j) * scale1 mo ix0)
      (part0 lo ix0 * scale0 mo ix0 + part1 lo ix0 * scale1 mo ix0) = _
  rw [vec0_apply, vec1_apply, scale0_apply, scale1_apply, part0_apply, part1_apply]
  rfl

/-! ## The three layers on the pooled feature -/

/-- The head's hidden layer as the tail spells it: the product, the bias broadcast to the one row, the maximum with a
    broadcast zero. -/
def headHid (g : S1x256.Idx → EReal) (a9 : S256x256.Idx → EReal) (a10 : S256.Idx → EReal) : FVec Ideal S1x256 .f32 :=
  maximumf
    (addf (Host.dotGeneral (φ₁ := .f32) (φ₂ := .f32) dot_S1x256_S256x256_S1x256_1_0_0_1_n_n none (g : FVec Ideal S1x256 .f32) (a9 : FVec Ideal S256x256 .f32))
      (broadcastInDim S1x256 ![1] bcast_S256_S1x256_1 (a10 : FVec Ideal S256 .f32)))
    (broadcastInDim S1x256 ![] bcast_S_S1x256 (constant (F := Ideal) S_ .f32 0x00000000#32))

/-- The class logits the tail computes from the pooled feature. -/
def outCls (g : S1x256.Idx → EReal) (a9 : S256x256.Idx → EReal) (a10 : S256.Idx → EReal) (a11 : S256x33.Idx → EReal)
    (a12 : S33.Idx → EReal) : S1x33.Idx → EReal :=
  addf (Host.dotGeneral (φ₁ := .f32) (φ₂ := .f32) dot_S1x256_S256x33_S1x33_1_0_0_1_n_n none (headHid g a9 a10) (a11 : FVec Ideal S256x33 .f32))
    (broadcastInDim S1x33 ![1] bcast_S33_S1x33_1 (a12 : FVec Ideal S33 .f32))

/-- The regression values the tail computes from the pooled feature. -/
def outReg (g : S1x256.Idx → EReal) (a9 : S256x256.Idx → EReal) (a10 : S256.Idx → EReal) (a13 : S256x55.Idx → EReal)
    (a14 : S55.Idx → EReal) : S55.Idx → EReal :=
  shapeCast S55
    (addf (Host.dotGeneral (φ₁ := .f32) (φ₂ := .f32) dot_S1x256_S256x55_S1x55_1_0_0_1_n_n none (headHid g a9 a10) (a13 : FVec Ideal S256x55 .f32))
      (broadcastInDim S1x55 ![1] bcast_S55_S1x55_1 (a14 : FVec Ideal S55 .f32)))
    shapeCasts_S1x55_S55

/-- A layer on a one-row matrix as a host program spells it: the general dot product, plus the bias broadcast to the one
    row along a new leading axis. -/
theorem host_layer_row {K N : ℕ} (D : DotDims ⟨2, ![1, K]⟩ ⟨2, ![K, N]⟩ ⟨2, ![1, N]⟩) (hD : D = DotDims.plain 1 K N)
    (prec : Option ContractPrecision) (x : FVec Ideal ⟨2, ![1, K]⟩ .f32) (w : FVec Ideal ⟨2, ![K, N]⟩ .f32)
    (b : FVec Ideal ⟨1, ![N]⟩ .f32) (h1 : (⟨1, ![N]⟩ : Shape).BroadcastsInDim ⟨2, ![1, N]⟩ ![1]) :
    addf (Host.dotGeneral D prec x w) (broadcastInDim ⟨2, ![1, N]⟩ ![1] h1 b) = dense x w (colBias b) := by
  funext i
  obtain ⟨p, q, rfl⟩ : ∃ (p : Fin 1) (q : Fin N), i = ix2 p q := ⟨i 0, i 1, eq_ix2 i⟩
  show FloatOps.dotGeneral D prec .single x w (ix2 p q) + broadcastInDim ⟨2, ![1, N]⟩ ![1] h1 b (ix2 p q)
    = (∑ k : Fin K, x (ix2 p k) * w (ix2 k q)) + b (ix1 q)
  have e1 : broadcastInDim ⟨2, ![1, N]⟩ ![1] h1 b (ix2 p q) = b (ix1 q) := by
    refine broadcastInDim_apply ![1] h1 b (ix2 p q) (ix1 q) fun a => ?_
    match a with
    | ⟨0, _⟩ =>
      show q.val = if N = 1 then 0 else q.val
      split
      · have := q.isLt; omega
      · rfl
  rw [dotGeneral_plain_apply D hD, e1]

/-- The three products on the pooled feature are plain matrix products of a one-row matrix. -/
theorem dot5 : dot_S1x256_S256x256_S1x256_1_0_0_1_n_n = DotDims.plain 1 256 256 := rfl
theorem dot6 : dot_S1x256_S256x33_S1x33_1_0_0_1_n_n = DotDims.plain 1 256 33 := rfl
theorem dot7 : dot_S1x256_S256x55_S1x55_1_0_0_1_n_n = DotDims.plain 1 256 55 := rfl

/-- The tail's hidden layer is the head's hidden layer of the specification. -/
theorem headHid_eq (g : S1x256.Idx → EReal) (a9 : S256x256.Idx → EReal) (a10 : S256.Idx → EReal) :
    headHid g a9 a10 = Cert.Spec.headHidden a9 (colBias a10) g := by
  unfold headHid
  rw [host_layer_row _ dot5, host_relu]
  rfl

/-- The tail's class logits are the specification's. -/
theorem outCls_eq (g : S1x256.Idx → EReal) (a9 : S256x256.Idx → EReal) (a10 : S256.Idx → EReal) (a11 : S256x33.Idx → EReal)
    (a12 : S33.Idx → EReal) : outCls g a9 a10 a11 a12 = Cert.Spec.classLogits a9 (colBias a10) g a11 (colBias a12) := by
  unfold outCls
  rw [host_layer_row _ dot6, headHid_eq]
  rfl

/-- The tail's regression values are the specification's. -/
theorem outReg_eq (g : S1x256.Idx → EReal) (a9 : S256x256.Idx → EReal) (a10 : S256.Idx → EReal) (a13 : S256x55.Idx → EReal)
    (a14 : S55.Idx → EReal) : outReg g a9 a10 a13 a14 = Cert.Spec.regValues a9 (colBias a10) g a13 (colBias a14) := by
  funext i
  obtain ⟨q, rfl⟩ : ∃ q : Fin 55, i = ix1 q := ⟨i 0, eq_ix1 i⟩
  unfold outReg
  rw [shapeCast_1a_a_apply, host_layer_row _ dot7, headHid_eq]
  rfl

end Cert.KernelIdeal.Tail

end
-- ==== Proof.TailWeights.lean ====
/-
  The program's first result — the attention weights — is the host's softmax of the score column the pallas_call left.
-/
import proofs.«105278_j19679540150395_2_alg».proof.Proof.KernelIdealFrame
import proofs.«105278_j19679540150395_2_alg».proof.Proof.Tail
import Idealize.ShloMosaic.PureOps.Ideal
import Idealize.ShloMosaic.Lib.Pipeline.Value
import Idealize.ShloMosaic.Lib.StableHlo.Run
import Idealize.ShloMosaic.Lib.ValueIdx

set_option maxRecDepth 16384

noncomputable section

namespace Cert.KernelIdeal.TailWeights

open Idealize.ShloMosaic Idealize.ShloMosaic.TcCoe Idealize.SL.Sem Idealize.ShloMosaic.ValueIdx
open Cert.KernelIdeal Cert.KernelIdeal.Gen Cert.KernelIdeal.GenP

variable (m : (ℓ : Loc nD τ sig) → Buf (Elt Ideal) ℓ) (c : Dev nD)

set_option maxHeartbeats 16000000 in
theorem tail :
    Pipeline.afterTail₀ cfgs (dats m) 0 (V0 m) [hostOps1, hostOps1_1, hostOps1_2] c main_v45
      = Tail.outA ((dats m 0 c).arrAt 9 cfg0.N) := by
  have e9 : Pipeline.withArrays (cfgs 0).spec c (V0 m c) (fun w => (dats m 0 c).arrAt w (cfgs 0).N) (Proc.devRef .tc main_v5_0) = (dats m 0 c).arrAt 9 cfg0.N :=
    Pipeline.withArrays_arr spec0 launch0.win.arr_inj c _ _ 9
  unfold Pipeline.afterTail₀
  simp only [hostOps1, hostOps1_1, hostOps1_2, List.flatten_cons, List.flatten_nil, List.append_nil, List.cons_append,
    List.nil_append]
  after_results
  rw [e9]
  rfl

end Cert.KernelIdeal.TailWeights

end
-- ==== Proof.TailPooled.lean ====
/-
  The program's second result — the pooled feature — is the host's merge of the two halves' final states the pallas_call left.
-/
import proofs.«105278_j19679540150395_2_alg».proof.Proof.KernelIdealFrame
import proofs.«105278_j19679540150395_2_alg».proof.Proof.Tail
import Idealize.ShloMosaic.PureOps.Ideal
import Idealize.ShloMosaic.Lib.Pipeline.Value
import Idealize.ShloMosaic.Lib.StableHlo.Run
import Idealize.ShloMosaic.Lib.ValueIdx

set_option maxRecDepth 16384

noncomputable section

namespace Cert.KernelIdeal.TailPooled

open Idealize.ShloMosaic Idealize.ShloMosaic.TcCoe Idealize.SL.Sem Idealize.ShloMosaic.ValueIdx
open Cert.KernelIdeal Cert.KernelIdeal.Gen Cert.KernelIdeal.GenP

variable (m : (ℓ : Loc nD τ sig) → Buf (Elt Ideal) ℓ) (c : Dev nD)

set_option maxHeartbeats 16000000 in
theorem tail :
    Pipeline.afterTail₀ cfgs (dats m) 0 (V0 m) [hostOps1, hostOps1_1, hostOps1_2] c main_v33
      = Tail.outG ((dats m 0 c).arrAt 10 cfg0.N) ((dats m 0 c).arrAt 11 cfg0.N) ((dats m 0 c).arrAt 12 cfg0.N) := by
  have e10 : Pipeline.withArrays (cfgs 0).spec c (V0 m c) (fun w => (dats m 0 c).arrAt w (cfgs 0).N) (Proc.devRef .tc main_v5_1) = (dats m 0 c).arrAt 10 cfg0.N :=
    Pipeline.withArrays_arr spec0 launch0.win.arr_inj c _ _ 10
  have e11 : Pipeline.withArrays (cfgs 0).spec c (V0 m c) (fun w => (dats m 0 c).arrAt w (cfgs 0).N) (Proc.devRef .tc main_v5_2) = (dats m 0 c).arrAt 11 cfg0.N :=
    Pipeline.withArrays_arr spec0 launch0.win.arr_inj c _ _ 11
  have e12 : Pipeline.withArrays (cfgs 0).spec c (V0 m c) (fun w => (dats m 0 c).arrAt w (cfgs 0).N) (Proc.devRef .tc main_v5_3) = (dats m 0 c).arrAt 12 cfg0.N :=
    Pipeline.withArrays_arr spec0 launch0.win.arr_inj c _ _ 12
  unfold Pipeline.afterTail₀
  simp only [hostOps1, hostOps1_1, hostOps1_2, List.flatten_cons, List.flatten_nil, List.append_nil, List.cons_append,
    List.nil_append]
  after_results
  rw [e10, e11, e12]
  rfl

end Cert.KernelIdeal.TailPooled

end
-- ==== Proof.TailLogits.lean ====
/-
  The program's third result — the class logits — is the host's head on the pooled feature.
-/
import proofs.«105278_j19679540150395_2_alg».proof.Proof.KernelIdealFrame
import proofs.«105278_j19679540150395_2_alg».proof.Proof.Tail
import Idealize.ShloMosaic.PureOps.Ideal
import Idealize.ShloMosaic.Lib.Pipeline.Value
import Idealize.ShloMosaic.Lib.StableHlo.Run
import Idealize.ShloMosaic.Lib.ValueIdx

set_option maxRecDepth 16384

noncomputable section

namespace Cert.KernelIdeal.TailLogits

open Idealize.ShloMosaic Idealize.ShloMosaic.TcCoe Idealize.SL.Sem Idealize.ShloMosaic.ValueIdx
open Cert.KernelIdeal Cert.KernelIdeal.Gen Cert.KernelIdeal.GenP

variable (m : (ℓ : Loc nD τ sig) → Buf (Elt Ideal) ℓ) (c : Dev nD)

set_option maxHeartbeats 16000000 in
theorem tail :
    Pipeline.afterTail₀ cfgs (dats m) 0 (V0 m) [hostOps1, hostOps1_1, hostOps1_2] c main_v52
      = Tail.outCls (Tail.outG ((dats m 0 c).arrAt 10 cfg0.N) ((dats m 0 c).arrAt 11 cfg0.N) ((dats m 0 c).arrAt 12 cfg0.N)) (m ((c.tc : Thread nD τ).loc main_arg9)) (m ((c.tc : Thread nD τ).loc main_arg10)) (m ((c.tc : Thread nD τ).loc main_arg11)) (m ((c.tc : Thread nD τ).loc main_arg12)) := by
  have e10 : Pipeline.withArrays (cfgs 0).spec c (V0 m c) (fun w => (dats m 0 c).arrAt w (cfgs 0).N) (Proc.devRef .tc main_v5_1) = (dats m 0 c).arrAt 10 cfg0.N :=
    Pipeline.withArrays_arr spec0 launch0.win.arr_inj c _ _ 10
  have e11 : Pipeline.withArrays (cfgs 0).spec c (V0 m c) (fun w => (dats m 0 c).arrAt w (cfgs 0).N) (Proc.devRef .tc main_v5_2) = (dats m 0 c).arrAt 11 cfg0.N :=
    Pipeline.withArrays_arr spec0 launch0.win.arr_inj c _ _ 11
  have e12 : Pipeline.withArrays (cfgs 0).spec c (V0 m c) (fun w => (dats m 0 c).arrAt w (cfgs 0).N) (Proc.devRef .tc main_v5_3) = (dats m 0 c).arrAt 12 cfg0.N :=
    Pipeline.withArrays_arr spec0 launch0.win.arr_inj c _ _ 12
  have ea9 : Pipeline.withArrays (cfgs 0).spec c (V0 m c) (fun w => (dats m 0 c).arrAt w (cfgs 0).N) (Proc.devRef .tc main_arg9) = m ((c.tc : Thread nD τ).loc main_arg9) :=
    (Pipeline.withArrays_of_ne _ c (V0 m c) _ main_arg9 (by exact (by decide : ∀ w, Pipeline.arrRef spec0 w ≠ main_arg9))).trans
      (V_main_arg9 m c)
  have ea10 : Pipeline.withArrays (cfgs 0).spec c (V0 m c) (fun w => (dats m 0 c).arrAt w (cfgs 0).N) (Proc.devRef .tc main_arg10) = m ((c.tc : Thread nD τ).loc main_arg10) :=
    (Pipeline.withArrays_of_ne _ c (V0 m c) _ main_arg10 (by exact (by decide : ∀ w, Pipeline.arrRef spec0 w ≠ main_arg10))).trans
      (V_main_arg10 m c)
  have ea11 : Pipeline.withArrays (cfgs 0).spec c (V0 m c) (fun w => (dats m 0 c).arrAt w (cfgs 0).N) (Proc.devRef .tc main_arg11) = m ((c.tc : Thread nD τ).loc main_arg11) :=
    (Pipeline.withArrays_of_ne _ c (V0 m c) _ main_arg11 (by exact (by decide : ∀ w, Pipeline.arrRef spec0 w ≠ main_arg11))).trans
      (V_main_arg11 m c)
  have ea12 : Pipeline.withArrays (cfgs 0).spec c (V0 m c) (fun w => (dats m 0 c).arrAt w (cfgs 0).N) (Proc.devRef .tc main_arg12) = m ((c.tc : Thread nD τ).loc main_arg12) :=
    (Pipeline.withArrays_of_ne _ c (V0 m c) _ main_arg12 (by exact (by decide : ∀ w, Pipeline.arrRef spec0 w ≠ main_arg12))).trans
      (V_main_arg12 m c)
  unfold Pipeline.afterTail₀
  simp only [hostOps1, hostOps1_1, hostOps1_2, List.flatten_cons, List.flatten_nil, List.append_nil, List.cons_append,
    List.nil_append]
  after_results
  rw [e10, e11, e12, ea9, ea10, ea11, ea12]
  rfl

end Cert.KernelIdeal.TailLogits

end
-- ==== Proof.TailValues.lean ====
/-
  The program's fourth result — the regression values — is the host's head on the pooled feature.
-/
import proofs.«105278_j19679540150395_2_alg».proof.Proof.KernelIdealFrame
import proofs.«105278_j19679540150395_2_alg».proof.Proof.Tail
import Idealize.ShloMosaic.PureOps.Ideal
import Idealize.ShloMosaic.Lib.Pipeline.Value
import Idealize.ShloMosaic.Lib.StableHlo.Run
import Idealize.ShloMosaic.Lib.ValueIdx

set_option maxRecDepth 16384

noncomputable section

namespace Cert.KernelIdeal.TailValues

open Idealize.ShloMosaic Idealize.ShloMosaic.TcCoe Idealize.SL.Sem Idealize.ShloMosaic.ValueIdx
open Cert.KernelIdeal Cert.KernelIdeal.Gen Cert.KernelIdeal.GenP

variable (m : (ℓ : Loc nD τ sig) → Buf (Elt Ideal) ℓ) (c : Dev nD)

set_option maxHeartbeats 16000000 in
theorem tail :
    Pipeline.afterTail₀ cfgs (dats m) 0 (V0 m) [hostOps1, hostOps1_1, hostOps1_2] c main_v56
      = Tail.outReg (Tail.outG ((dats m 0 c).arrAt 10 cfg0.N) ((dats m 0 c).arrAt 11 cfg0.N) ((dats m 0 c).arrAt 12 cfg0.N)) (m ((c.tc : Thread nD τ).loc main_arg9)) (m ((c.tc : Thread nD τ).loc main_arg10)) (m ((c.tc : Thread nD τ).loc main_arg13)) (m ((c.tc : Thread nD τ).loc main_arg14)) := by
  have e10 : Pipeline.withArrays (cfgs 0).spec c (V0 m c) (fun w => (dats m 0 c).arrAt w (cfgs 0).N) (Proc.devRef .tc main_v5_1) = (dats m 0 c).arrAt 10 cfg0.N :=
    Pipeline.withArrays_arr spec0 launch0.win.arr_inj c _ _ 10
  have e11 : Pipeline.withArrays (cfgs 0).spec c (V0 m c) (fun w => (dats m 0 c).arrAt w (cfgs 0).N) (Proc.devRef .tc main_v5_2) = (dats m 0 c).arrAt 11 cfg0.N :=
    Pipeline.withArrays_arr spec0 launch0.win.arr_inj c _ _ 11
  have e12 : Pipeline.withArrays (cfgs 0).spec c (V0 m c) (fun w => (dats m 0 c).arrAt w (cfgs 0).N) (Proc.devRef .tc main_v5_3) = (dats m 0 c).arrAt 12 cfg0.N :=
    Pipeline.withArrays_arr spec0 launch0.win.arr_inj c _ _ 12
  have ea9 : Pipeline.withArrays (cfgs 0).spec c (V0 m c) (fun w => (dats m 0 c).arrAt w (cfgs 0).N) (Proc.devRef .tc main_arg9) = m ((c.tc : Thread nD τ).loc main_arg9) :=
    (Pipeline.withArrays_of_ne _ c (V0 m c) _ main_arg9 (by exact (by decide : ∀ w, Pipeline.arrRef spec0 w ≠ main_arg9))).trans
      (V_main_arg9 m c)
  have ea10 : Pipeline.withArrays (cfgs 0).spec c (V0 m c) (fun w => (dats m 0 c).arrAt w (cfgs 0).N) (Proc.devRef .tc main_arg10) = m ((c.tc : Thread nD τ).loc main_arg10) :=
    (Pipeline.withArrays_of_ne _ c (V0 m c) _ main_arg10 (by exact (by decide : ∀ w, Pipeline.arrRef spec0 w ≠ main_arg10))).trans
      (V_main_arg10 m c)
  have ea13 : Pipeline.withArrays (cfgs 0).spec c (V0 m c) (fun w => (dats m 0 c).arrAt w (cfgs 0).N) (Proc.devRef .tc main_arg13) = m ((c.tc : Thread nD τ).loc main_arg13) :=
    (Pipeline.withArrays_of_ne _ c (V0 m c) _ main_arg13 (by exact (by decide : ∀ w, Pipeline.arrRef spec0 w ≠ main_arg13))).trans
      (V_main_arg13 m c)
  have ea14 : Pipeline.withArrays (cfgs 0).spec c (V0 m c) (fun w => (dats m 0 c).arrAt w (cfgs 0).N) (Proc.devRef .tc main_arg14) = m ((c.tc : Thread nD τ).loc main_arg14) :=
    (Pipeline.withArrays_of_ne _ c (V0 m c) _ main_arg14 (by exact (by decide : ∀ w, Pipeline.arrRef spec0 w ≠ main_arg14))).trans
      (V_main_arg14 m c)
  unfold Pipeline.afterTail₀
  simp only [hostOps1, hostOps1_1, hostOps1_2, List.flatten_cons, List.flatten_nil, List.append_nil, List.cons_append,
    List.nil_append]
  after_results
  rw [e10, e11, e12, ea9, ea10, ea13, ea14]
  rfl

end Cert.KernelIdeal.TailValues

end
-- ==== Proof.Bridge.lean ====
/-
  The pooled feature of the attention-pooling network, for real scores and real hidden features, is the quotient of
  the merged numerator by the merged denominator of the online softmax recurrence run over the two halves of the bag.

  When the attention scores are the coerced reals `sR k` and column `j` of the hidden features is the coerced reals
  `hR j k`, the largest score and the softmax denominator of the network are the maximum and the denominator of the
  whole bag for the scores `sR`, entry `j` of the pooled feature is the softmax-weighted mean
  `∑ k, (exp (sR k - M) / L) * hR j k`, and that mean is what the two halves' final states merge to.
-/
import proofs.«105278_j19679540150395_2_alg».proof.Proof.Spec
import proofs.«105278_j19679540150395_2_alg».proof.Proof.OnlineLaws

noncomputable section

open scoped BigOperators

namespace Cert.Bridge

open Idealize.ShloMosaic Idealize.ShloMosaic.ValueIdx Cert.Spec Cert.Online

section

variable (x : (⟨3, ![1, 200000, 512]⟩ : Shape).Idx → EReal) (W1 : Mat 512 256) (b1 : Fin 256 → EReal)
  (Wa : Mat 256 256) (ba : Fin 256 → EReal) (Wb : Mat 256 256) (bb : Fin 256 → EReal) (Wc : Mat 256 1)
  (bc : Fin 1 → EReal)

/-- The network's largest score is the maximum of the whole bag for the real scores. -/
theorem smax_eq_gmax (sR : ℕ → ℝ)
    (hs : ∀ k : Fin 200000, srow x W1 b1 Wa ba Wb bb Wc bc k = ((sR k.val : ℝ) : EReal)) :
    smax x W1 b1 Wa ba Wb bb Wc bc = gmax sR := by
  have e : srow x W1 b1 Wa ba Wb bb Wc bc = fun k : Fin 200000 => ((sR k.val : ℝ) : EReal) := funext hs
  rw [smax, e, gmax]

/-- The network's softmax denominator is the denominator of the whole bag for the real scores. -/
theorem sden_eq_gden (sR : ℕ → ℝ)
    (hs : ∀ k : Fin 200000, srow x W1 b1 Wa ba Wb bb Wc bc k = ((sR k.val : ℝ) : EReal)) :
    sden x W1 b1 Wa ba Wb bb Wc bc = gden sR := by
  rw [sden, smax_eq_gmax x W1 b1 Wa ba Wb bb Wc bc sR hs, gden]
  exact congrArg (fun t => (0 : EReal) + t) (Finset.sum_congr rfl (fun k _ => by rw [hs k]))

theorem pooled_eq_merged (sR : ℕ → ℝ) (hR : ℕ → ℕ → ℝ)
    (hs : ∀ k : Fin 200000, Cert.Spec.srow x W1 b1 Wa ba Wb bb Wc bc k = ((sR k.val : ℝ) : EReal))
    (hh : ∀ (k : Fin 200000) (j : Fin 256),
      Cert.Spec.H x W1 b1 (Idealize.ShloMosaic.ValueIdx.ix2 k j) = ((hR j.val k.val : ℝ) : EReal))
    (j : Fin 256) :
    Cert.Spec.pooled x W1 b1 Wa ba Wb bb Wc bc (Idealize.ShloMosaic.ValueIdx.ix2 (0 : Fin 1) j)
      = Ideal.div
          (Cert.Online.mergeNum (runMax 0 49 sR) (runNum 0 49 sR (hR j.val)) (runMax 1 49 sR)
            (runNum 1 49 sR (hR j.val)))
          (Cert.Online.mergeDen (runMax 0 49 sR) (runDen 0 49 sR) (runMax 1 49 sR) (runDen 1 49 sR)) := by
  rw [merged_eq sR (hR j.val)]
  show ∑ k : Fin 200000, weight x W1 b1 Wa ba Wb bb Wc bc k * H x W1 b1 (ix2 k j) = _
  refine Finset.sum_congr rfl (fun k _ => ?_)
  rw [weight, smax_eq_gmax x W1 b1 Wa ba Wb bb Wc bc sR hs, sden_eq_gden x W1 b1 Wa ba Wb bb Wc bc sR hs,
    hs k, hh k j]

end

end Cert.Bridge

end
-- ==== Proof.RealClosure.lean ====
/-
  Real data stay real through the attention scores.

  An array over the extended reals is called real when every entry is a coerced real number. A finite sum of products
  of coerced reals plus a coerced real is a coerced real, so a dense layer of real arrays is real; the maximum of a
  coerced real and zero is a coerced real, so the rectifier of a real array is real; the hyperbolic tangent and the
  logistic function of a coerced real are coerced reals, so the gated features are real. Hence the hidden features
  and the attention scores of a real bag under real weights are coerced reals, and can be named as real functions
  of the key's position (and of the column).
-/
import proofs.«105278_j19679540150395_2_alg».proof.Proof.Spec

noncomputable section

open scoped BigOperators

namespace Cert.RealClosure

open Idealize.ShloMosaic Idealize.ShloMosaic.ValueIdx Cert.DenseLayer Cert.LayerForms Cert.Spec

/-- Every entry of the array is a coerced real. -/
def IsReal {S : Shape} (f : S.Idx → EReal) : Prop := ∀ i, ∃ r : ℝ, f i = (r : EReal)

/-- Every entry of the bias vector is a coerced real. -/
def IsRealVec {N : ℕ} (b : Fin N → EReal) : Prop := ∀ q, ∃ r : ℝ, b q = (r : EReal)

/-- A finite sum of coerced reals is a coerced real. -/
theorem real_sum {κ : Type*} (S : Finset κ) (f : κ → EReal) (h : ∀ k ∈ S, ∃ r : ℝ, f k = (r : EReal)) :
    ∃ r : ℝ, ∑ k ∈ S, f k = (r : EReal) := by
  classical
  induction S using Finset.induction_on with
  | empty => exact ⟨0, by rw [Finset.sum_empty, EReal.coe_zero]⟩
  | insert a S ha ih =>
    obtain ⟨r1, h1⟩ := h a (Finset.mem_insert_self a S)
    obtain ⟨r2, h2⟩ := ih (fun k hk => h k (Finset.mem_insert_of_mem hk))
    exact ⟨r1 + r2, by rw [Finset.sum_insert ha, h1, h2, EReal.coe_add]⟩

/-- A dense layer of real arrays is real. -/
theorem dense_real {M K N : ℕ} {x : (⟨2, ![M, K]⟩ : Shape).Idx → EReal} {w : (⟨2, ![K, N]⟩ : Shape).Idx → EReal}
    {b : Fin N → EReal} (hx : IsReal x) (hw : IsReal w) (hb : IsRealVec b) : IsReal (dense x w b) := by
  intro i
  show ∃ r : ℝ, (∑ k : Fin K, x (ix2 (i 0) k) * w (ix2 k (i 1))) + b (i 1) = (r : EReal)
  obtain ⟨rs, hrs⟩ := real_sum Finset.univ (fun k : Fin K => x (ix2 (i 0) k) * w (ix2 k (i 1))) (fun k _ => by
    obtain ⟨a, ha⟩ := hx (ix2 (i 0) k)
    obtain ⟨c, hc⟩ := hw (ix2 k (i 1))
    exact ⟨a * c, by rw [ha, hc, EReal.coe_mul]⟩)
  obtain ⟨rb, hrb⟩ := hb (i 1)
  exact ⟨rs + rb, by rw [hrs, hrb, EReal.coe_add]⟩

/-- The rectifier of a real array is real. -/
theorem relu_real {S : Shape} {v : S.Idx → EReal} (hv : IsReal v) : IsReal (relu v) := by
  intro i
  obtain ⟨r, hr⟩ := hv i
  refine ⟨max r 0, ?_⟩
  show max (v i) 0 = ((max r 0 : ℝ) : EReal)
  rw [hr, ← EReal.coe_zero]
  exact EReal.coe_strictMono.monotone.map_max.symm

/-- The hidden features of a real array under real weights are real. -/
theorem hidden_real {M : ℕ} {xp : Mat M 512} {W1 : Mat 512 256} {b1 : Fin 256 → EReal}
    (hx : IsReal xp) (hW1 : IsReal W1) (hb1 : IsRealVec b1) : IsReal (hidden xp W1 b1) :=
  relu_real (dense_real hx hW1 hb1)

/-- The gated features of a real array under real weights are real. -/
theorem gate_real {M : ℕ} {h : Mat M 256} {Wa : Mat 256 256} {ba : Fin 256 → EReal} {Wb : Mat 256 256}
    {bb : Fin 256 → EReal} (hh : IsReal h) (hWa : IsReal Wa) (hba : IsRealVec ba) (hWb : IsReal Wb)
    (hbb : IsRealVec bb) : IsReal (gate h Wa ba Wb bb) := by
  intro i
  obtain ⟨a, ha⟩ := dense_real hh hWa hba i
  obtain ⟨c, hc⟩ := dense_real hh hWb hbb i
  refine ⟨Real.tanh a * (1 + Real.exp (-c))⁻¹, ?_⟩
  show Ideal.tanh (dense h Wa ba i) * Ideal.logistic (dense h Wb bb i) = _
  rw [ha, hc, Ideal.tanh_coe, Ideal.logistic_coe, EReal.coe_mul]

/-- The attention scores of a real array under real weights are real. -/
theorem score_real {M : ℕ} {h : Mat M 256} {Wa : Mat 256 256} {ba : Fin 256 → EReal} {Wb : Mat 256 256}
    {bb : Fin 256 → EReal} {Wc : Mat 256 1} {bc : Fin 1 → EReal} (hh : IsReal h) (hWa : IsReal Wa)
    (hba : IsRealVec ba) (hWb : IsReal Wb) (hbb : IsRealVec bb) (hWc : IsReal Wc) (hbc : IsRealVec bc) :
    IsReal (score h Wa ba Wb bb Wc bc) :=
  dense_real (gate_real hh hWa hba hWb hbb) hWc hbc

/-- The bag with its leading axis dropped is real when the bag is. -/
theorem rows_real {x : (⟨3, ![1, 200000, 512]⟩ : Shape).Idx → EReal} (hx : IsReal x) : IsReal (rows x) :=
  fun i => hx (ix3 (0 : Fin 1) (i 0) (i 1))

/-- The hidden features of the whole bag are real. -/
theorem H_isReal {x : (⟨3, ![1, 200000, 512]⟩ : Shape).Idx → EReal} {W1 : Mat 512 256} {b1 : Fin 256 → EReal}
    (hx : IsReal x) (hW1 : IsReal W1) (hb1 : IsRealVec b1) : IsReal (H x W1 b1) :=
  hidden_real (rows_real hx) hW1 hb1

/-- The attention scores of the whole bag are a real function of the key's position. -/
theorem srow_real (x : (⟨3, ![1, 200000, 512]⟩ : Shape).Idx → EReal) (W1 : Mat 512 256) (b1 : Fin 256 → EReal)
    (Wa : Mat 256 256) (ba : Fin 256 → EReal) (Wb : Mat 256 256) (bb : Fin 256 → EReal) (Wc : Mat 256 1)
    (bc : Fin 1 → EReal) (hx : IsReal x) (hW1 : IsReal W1) (hb1 : IsRealVec b1) (hWa : IsReal Wa)
    (hba : IsRealVec ba) (hWb : IsReal Wb) (hbb : IsRealVec bb) (hWc : IsReal Wc) (hbc : IsRealVec bc) :
    ∃ sR : ℕ → ℝ, ∀ k : Fin 200000, Cert.Spec.srow x W1 b1 Wa ba Wb bb Wc bc k = ((sR k.val : ℝ) : EReal) := by
  have hs := score_real (H_isReal hx hW1 hb1) hWa hba hWb hbb hWc hbc
  choose g hg using hs
  refine ⟨fun n => if h : n < 200000 then g (ix2 (⟨n, h⟩ : Fin 200000) (0 : Fin 1)) else 0, fun k => ?_⟩
  show score (H x W1 b1) Wa ba Wb bb Wc bc (ix2 k (0 : Fin 1)) = _
  rw [hg]
  beta_reduce
  rw [dif_pos k.isLt]

/-- The hidden features of the whole bag are, column by column, real functions of the key's position. -/
theorem H_real (x : (⟨3, ![1, 200000, 512]⟩ : Shape).Idx → EReal) (W1 : Mat 512 256) (b1 : Fin 256 → EReal)
    (hx : IsReal x) (hW1 : IsReal W1) (hb1 : IsRealVec b1) :
    ∃ hR : ℕ → ℕ → ℝ, ∀ (k : Fin 200000) (j : Fin 256),
      Cert.Spec.H x W1 b1 (Idealize.ShloMosaic.ValueIdx.ix2 k j) = ((hR j.val k.val : ℝ) : EReal) := by
  have hh := H_isReal hx hW1 hb1
  choose g hg using hh
  refine ⟨fun j k => if h : k < 200000 ∧ j < 256 then g (ix2 (⟨k, h.1⟩ : Fin 200000) (⟨j, h.2⟩ : Fin 256)) else 0,
    fun k j => ?_⟩
  rw [hg]
  beta_reduce
  rw [dif_pos ⟨k.isLt, j.isLt⟩]

end Cert.RealClosure

end
-- ==== Proof.Finite.lean ====
/-
  The precondition says every entry of every argument array is finite; on the extended reals that makes every
  entry a coerced real number.

  The precondition is a conjunction, one conjunct per argument array: the conjunction over all entries `x` of
  `|x| < +∞`, where `|x| = max x (-x)`. An extended real whose absolute value is below `⊤` is neither `⊤` nor `⊥`,
  so it is a coerced real.
-/
import proofs.«105278_j19679540150395_2_alg».proof.Defs
import proofs.«105278_j19679540150395_2_alg».proof.Proof.Gen.Pre_finite_inputs
import Idealize.ShloMosaic.Lib.ReduceAll
import Idealize.ShloMosaic.Lib.ValueIdx

noncomputable section

namespace Cert.Finite

open Idealize.ShloMosaic Idealize.SL.Sem

/-- The scalar shape has one index. -/
instance subsingleton_scalar_idx : Subsingleton (⟨0, ![]⟩ : Shape).Idx := ⟨fun a b => funext fun d => d.elim0⟩

/-- The bit pattern of positive infinity denotes `⊤`. -/
theorem ofBits_inf : Ideal.ofBits .f32 0x7F800000#32 = (⊤ : EReal) := by
  simp [Ideal.ofBits, Ideal.ieee]

/-- An extended real whose absolute value is below `⊤` is a coerced real. -/
theorem real_of_abs_lt_top (x : EReal) (h : max x (-x) < ⊤) : ∃ r : ℝ, x = (r : EReal) := by
  have h1 : x ≠ ⊤ := fun e => by subst e; simp at h
  have h2 : x ≠ ⊥ := fun e => by subst e; simp at h
  exact ⟨x.toReal, (EReal.coe_toReal h1 h2).symm⟩

/-- A comparison "below" that came out 1 says the first is below the second. -/
theorem lt_of_cmp_olt (a b : EReal) (h : Ideal.cmp .olt a b = 1#1) : a < b := by
  have h' : BitVec.ofBool (decide (a < b)) = 1#1 := h
  by_contra hn
  rw [decide_eq_false hn] at h'
  exact absurd h' (by decide)

/-- One conjunct of the precondition: if the conjunction over all entries of `|x| < +∞` is 1, every entry is real. -/
theorem all_real {S : Shape} {axes : List (Fin S.rank)} (x : FVec Ideal S .f32)
    (hb : (⟨0, ![]⟩ : Shape).BroadcastsInDim S (![] : Fin 0 → Fin S.rank)) (hr : S.ReducesTo axes ⟨0, ![]⟩)
    (hu : 0 < (⟨0, ![]⟩ : Shape).numel) (init : IVec ⟨0, ![]⟩ 1)
    (e : Host.reduce IntOp.andi
          (cmpf .olt (Host.absf x) (broadcastInDim S ![] hb (constant (F := Ideal) ⟨0, ![]⟩ .f32 0x7F800000#32)))
          init hr hu ValueIdx.ix0 = 1#1) :
    ∀ i, ∃ r : ℝ, x i = (r : EReal) := by
  intro i
  have hi := Host.reduce_andi_all _ init hr hu ValueIdx.ix0 e i
  have hi' : Ideal.cmp .olt (max (x i) (-(x i))) (Ideal.ofBits .f32 0x7F800000#32) = 1#1 := hi
  rw [ofBits_inf] at hi'
  exact real_of_abs_lt_top (x i) (lt_of_cmp_olt _ _ hi')

theorem real_inputs [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal)) := by
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at e
  simp only [IntOp.andi_eq_one] at e
  obtain ⟨⟨⟨⟨⟨⟨⟨⟨⟨⟨⟨⟨⟨⟨h0, h1⟩, h2⟩, h3⟩, h4⟩, h5⟩, h6⟩, h7⟩, h8⟩, -⟩, -⟩, -⟩, -⟩, -⟩, -⟩ := e
  exact ⟨all_real _ _ _ _ _ h0, all_real _ _ _ _ _ h1, all_real _ _ _ _ _ h2, all_real _ _ _ _ _ h3,
    all_real _ _ _ _ _ h4, all_real _ _ _ _ _ h5, all_real _ _ _ _ _ h6, all_real _ _ _ _ _ h7,
    all_real _ _ _ _ _ h8⟩

end Cert.Finite

end
-- ==== Proof.KernelRun.lean ====
/-
  The idealized kernel program's run, read: its four results as functions of its arguments.

  The pallas_call leaves the bag's attention scores and, for each half of the bag, the half's largest score with its
  softmax denominator and numerators shifted by that maximum (the online softmax recurrence over the half's 50 blocks
  computes exactly these, when the inputs are real numbers). The host then takes the softmax of the scores — the
  attention weights — and merges the two halves: rescaled to the larger of the two maxima, the numerators add up to the
  whole bag's numerator and the denominators to its denominator, so their quotient is the attention-weighted mean of the
  hidden features, the pooled feature. The heads are the same three dense layers on both sides.
-/
import proofs.«105278_j19679540150395_2_alg».proof.Proof.KernelIdealFrame
import proofs.«105278_j19679540150395_2_alg».proof.Proof.Finals
import proofs.«105278_j19679540150395_2_alg».proof.Proof.Tail
import proofs.«105278_j19679540150395_2_alg».proof.Proof.TailWeights
import proofs.«105278_j19679540150395_2_alg».proof.Proof.TailPooled
import proofs.«105278_j19679540150395_2_alg».proof.Proof.TailLogits
import proofs.«105278_j19679540150395_2_alg».proof.Proof.TailValues
import proofs.«105278_j19679540150395_2_alg».proof.Proof.Bridge
import proofs.«105278_j19679540150395_2_alg».proof.Proof.RealClosure
import proofs.«105278_j19679540150395_2_alg».proof.Proof.Finite
import proofs.«105278_j19679540150395_2_alg».proof.Proof.Spec
import proofs.«105278_j19679540150395_2_alg».proof.Proof.LibLayerForms
import proofs.«105278_j19679540150395_2_alg».proof.Proof.Gen.Pre_finite_inputs
import proofs.«105278_j19679540150395_2_alg».proof.Defs
import Idealize.ShloMosaic.PureOps.Ideal

set_option maxRecDepth 16384

noncomputable section

namespace Cert.KernelIdeal.Run

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP
open Cert.Spec Cert.LayerForms

variable (m : (ℓ : Loc nD τ sig) → Buf (Elt Ideal) ℓ) (ρ : Dev nD → PrngReg)

/-- What the host operations after the pallas_call leave in the four result buffers. -/
theorem results [Cert.Pre_finite_inputs.Facts] (hPre : Cert.Pre_KernelIdeal m) (c : Dev nD) :
    Pipeline.afterTail₀ cfgs (dats m) 0 (V0 m) [hostOps1, hostOps1_1, hostOps1_2] c main_v45 = Spec.A (m ((c.tc : Thread nD τ).loc main_arg0)) (m ((c.tc : Thread nD τ).loc main_arg1)) (colBias (m ((c.tc : Thread nD τ).loc main_arg2))) (m ((c.tc : Thread nD τ).loc main_arg3)) (colBias (m ((c.tc : Thread nD τ).loc main_arg4))) (m ((c.tc : Thread nD τ).loc main_arg5)) (colBias (m ((c.tc : Thread nD τ).loc main_arg6))) (m ((c.tc : Thread nD τ).loc main_arg7)) (colBias (m ((c.tc : Thread nD τ).loc main_arg8)))
    ∧ Pipeline.afterTail₀ cfgs (dats m) 0 (V0 m) [hostOps1, hostOps1_1, hostOps1_2] c main_v33 = Spec.pooled (m ((c.tc : Thread nD τ).loc main_arg0)) (m ((c.tc : Thread nD τ).loc main_arg1)) (colBias (m ((c.tc : Thread nD τ).loc main_arg2))) (m ((c.tc : Thread nD τ).loc main_arg3)) (colBias (m ((c.tc : Thread nD τ).loc main_arg4))) (m ((c.tc : Thread nD τ).loc main_arg5)) (colBias (m ((c.tc : Thread nD τ).loc main_arg6))) (m ((c.tc : Thread nD τ).loc main_arg7)) (colBias (m ((c.tc : Thread nD τ).loc main_arg8)))
    ∧ Pipeline.afterTail₀ cfgs (dats m) 0 (V0 m) [hostOps1, hostOps1_1, hostOps1_2] c main_v52 = Spec.classLogits (m ((c.tc : Thread nD τ).loc main_arg9)) (colBias (m ((c.tc : Thread nD τ).loc main_arg10))) (Spec.pooled (m ((c.tc : Thread nD τ).loc main_arg0)) (m ((c.tc : Thread nD τ).loc main_arg1)) (colBias (m ((c.tc : Thread nD τ).loc main_arg2))) (m ((c.tc : Thread nD τ).loc main_arg3)) (colBias (m ((c.tc : Thread nD τ).loc main_arg4))) (m ((c.tc : Thread nD τ).loc main_arg5)) (colBias (m ((c.tc : Thread nD τ).loc main_arg6))) (m ((c.tc : Thread nD τ).loc main_arg7)) (colBias (m ((c.tc : Thread nD τ).loc main_arg8)))) (m ((c.tc : Thread nD τ).loc main_arg11)) (colBias (m ((c.tc : Thread nD τ).loc main_arg12)))
    ∧ Pipeline.afterTail₀ cfgs (dats m) 0 (V0 m) [hostOps1, hostOps1_1, hostOps1_2] c main_v56 = Spec.regValues (m ((c.tc : Thread nD τ).loc main_arg9)) (colBias (m ((c.tc : Thread nD τ).loc main_arg10))) (Spec.pooled (m ((c.tc : Thread nD τ).loc main_arg0)) (m ((c.tc : Thread nD τ).loc main_arg1)) (colBias (m ((c.tc : Thread nD τ).loc main_arg2))) (m ((c.tc : Thread nD τ).loc main_arg3)) (colBias (m ((c.tc : Thread nD τ).loc main_arg4))) (m ((c.tc : Thread nD τ).loc main_arg5)) (colBias (m ((c.tc : Thread nD τ).loc main_arg6))) (m ((c.tc : Thread nD τ).loc main_arg7)) (colBias (m ((c.tc : Thread nD τ).loc main_arg8)))) (m ((c.tc : Thread nD τ).loc main_arg13)) (colBias (m ((c.tc : Thread nD τ).loc main_arg14))) := by
  obtain ⟨r0, r1, r2, r3, r4, r5, r6, r7, r8⟩ := Cert.Finite.real_inputs m hPre c
  obtain ⟨sR, hs⟩ := Cert.RealClosure.srow_real (m ((c.tc : Thread nD τ).loc main_arg0)) (m ((c.tc : Thread nD τ).loc main_arg1)) (colBias (m ((c.tc : Thread nD τ).loc main_arg2))) (m ((c.tc : Thread nD τ).loc main_arg3)) (colBias (m ((c.tc : Thread nD τ).loc main_arg4))) (m ((c.tc : Thread nD τ).loc main_arg5)) (colBias (m ((c.tc : Thread nD τ).loc main_arg6))) (m ((c.tc : Thread nD τ).loc main_arg7)) (colBias (m ((c.tc : Thread nD τ).loc main_arg8)))
    r0 r1 (fun q => r2 (ix1 q)) r3 (fun q => r4 (ix1 q)) r5 (fun q => r6 (ix1 q)) r7 (fun q => r8 (ix1 q))
  obtain ⟨hR, hh⟩ := Cert.RealClosure.H_real (m ((c.tc : Thread nD τ).loc main_arg0)) (m ((c.tc : Thread nD τ).loc main_arg1)) (colBias (m ((c.tc : Thread nD τ).loc main_arg2))) r0 r1 (fun q => r2 (ix1 q))
  have hA : Pipeline.afterTail₀ cfgs (dats m) 0 (V0 m) [hostOps1, hostOps1_1, hostOps1_2] c main_v45 = Spec.A (m ((c.tc : Thread nD τ).loc main_arg0)) (m ((c.tc : Thread nD τ).loc main_arg1)) (colBias (m ((c.tc : Thread nD τ).loc main_arg2))) (m ((c.tc : Thread nD τ).loc main_arg3)) (colBias (m ((c.tc : Thread nD τ).loc main_arg4))) (m ((c.tc : Thread nD τ).loc main_arg5)) (colBias (m ((c.tc : Thread nD τ).loc main_arg6))) (m ((c.tc : Thread nD τ).loc main_arg7)) (colBias (m ((c.tc : Thread nD τ).loc main_arg8))) := by
    rw [TailWeights.tail, Finals.final_col]
    exact Tail.outA_eq (Finals.scoreCol m c) (m ((c.tc : Thread nD τ).loc main_arg0)) (m ((c.tc : Thread nD τ).loc main_arg1)) (colBias (m ((c.tc : Thread nD τ).loc main_arg2))) (m ((c.tc : Thread nD τ).loc main_arg3)) (colBias (m ((c.tc : Thread nD τ).loc main_arg4))) (m ((c.tc : Thread nD τ).loc main_arg5)) (colBias (m ((c.tc : Thread nD τ).loc main_arg6))) (m ((c.tc : Thread nD τ).loc main_arg7)) (colBias (m ((c.tc : Thread nD τ).loc main_arg8))) (fun k => rfl)
  have hG : Pipeline.afterTail₀ cfgs (dats m) 0 (V0 m) [hostOps1, hostOps1_1, hostOps1_2] c main_v33 = Spec.pooled (m ((c.tc : Thread nD τ).loc main_arg0)) (m ((c.tc : Thread nD τ).loc main_arg1)) (colBias (m ((c.tc : Thread nD τ).loc main_arg2))) (m ((c.tc : Thread nD τ).loc main_arg3)) (colBias (m ((c.tc : Thread nD τ).loc main_arg4))) (m ((c.tc : Thread nD τ).loc main_arg5)) (colBias (m ((c.tc : Thread nD τ).loc main_arg6))) (m ((c.tc : Thread nD τ).loc main_arg7)) (colBias (m ((c.tc : Thread nD τ).loc main_arg8))) := by
    rw [TailPooled.tail, Finals.final_max m c sR hR hs hh, Finals.final_den m c sR hR hs hh, Finals.final_num m c sR hR hs hh]
    funext i
    obtain ⟨u, j, rfl⟩ : ∃ (u : Fin 1) (j : Fin 256), i = ix2 u j := ⟨i 0, i 1, eq_ix2 i⟩
    obtain rfl : u = 0 := Subsingleton.elim _ _
    rw [Tail.outG_apply]
    exact (Cert.Bridge.pooled_eq_merged (m ((c.tc : Thread nD τ).loc main_arg0)) (m ((c.tc : Thread nD τ).loc main_arg1)) (colBias (m ((c.tc : Thread nD τ).loc main_arg2))) (m ((c.tc : Thread nD τ).loc main_arg3)) (colBias (m ((c.tc : Thread nD τ).loc main_arg4))) (m ((c.tc : Thread nD τ).loc main_arg5)) (colBias (m ((c.tc : Thread nD τ).loc main_arg6))) (m ((c.tc : Thread nD τ).loc main_arg7)) (colBias (m ((c.tc : Thread nD τ).loc main_arg8))) sR hR hs hh j).symm
  refine ⟨hA, hG, ?_, ?_⟩
  · rw [TailLogits.tail, ← TailPooled.tail m c, hG]
    exact Tail.outCls_eq _ _ _ _ _
  · rw [TailValues.tail, ← TailPooled.tail m c, hG]
    exact Tail.outReg_eq _ _ _ _ _

/-- Under the precondition every weakly fair execution of the idealized kernel program terminates with the attention
    weights, the pooled feature, the class logits and the regression values in its four result buffers, and its fifteen
    arguments unchanged. -/
theorem run [Cert.Pre_finite_inputs.Facts] (hPre : Cert.Pre_KernelIdeal m) :
    θ_run defs (onTc (τ := τ) (main (F := Ideal))) ⟨m, fun _ => 0, ρ⟩ (fun r => ∀ c : Dev nD,
      r.2.mem ((c.tc : Thread nD τ).loc main_v45) = Spec.A (m ((c.tc : Thread nD τ).loc main_arg0)) (m ((c.tc : Thread nD τ).loc main_arg1)) (colBias (m ((c.tc : Thread nD τ).loc main_arg2))) (m ((c.tc : Thread nD τ).loc main_arg3)) (colBias (m ((c.tc : Thread nD τ).loc main_arg4))) (m ((c.tc : Thread nD τ).loc main_arg5)) (colBias (m ((c.tc : Thread nD τ).loc main_arg6))) (m ((c.tc : Thread nD τ).loc main_arg7)) (colBias (m ((c.tc : Thread nD τ).loc main_arg8)))
      ∧ r.2.mem ((c.tc : Thread nD τ).loc main_v33) = Spec.pooled (m ((c.tc : Thread nD τ).loc main_arg0)) (m ((c.tc : Thread nD τ).loc main_arg1)) (colBias (m ((c.tc : Thread nD τ).loc main_arg2))) (m ((c.tc : Thread nD τ).loc main_arg3)) (colBias (m ((c.tc : Thread nD τ).loc main_arg4))) (m ((c.tc : Thread nD τ).loc main_arg5)) (colBias (m ((c.tc : Thread nD τ).loc main_arg6))) (m ((c.tc : Thread nD τ).loc main_arg7)) (colBias (m ((c.tc : Thread nD τ).loc main_arg8)))
      ∧ r.2.mem ((c.tc : Thread nD τ).loc main_v52) = Spec.classLogits (m ((c.tc : Thread nD τ).loc main_arg9)) (colBias (m ((c.tc : Thread nD τ).loc main_arg10))) (Spec.pooled (m ((c.tc : Thread nD τ).loc main_arg0)) (m ((c.tc : Thread nD τ).loc main_arg1)) (colBias (m ((c.tc : Thread nD τ).loc main_arg2))) (m ((c.tc : Thread nD τ).loc main_arg3)) (colBias (m ((c.tc : Thread nD τ).loc main_arg4))) (m ((c.tc : Thread nD τ).loc main_arg5)) (colBias (m ((c.tc : Thread nD τ).loc main_arg6))) (m ((c.tc : Thread nD τ).loc main_arg7)) (colBias (m ((c.tc : Thread nD τ).loc main_arg8)))) (m ((c.tc : Thread nD τ).loc main_arg11)) (colBias (m ((c.tc : Thread nD τ).loc main_arg12)))
      ∧ r.2.mem ((c.tc : Thread nD τ).loc main_v56) = Spec.regValues (m ((c.tc : Thread nD τ).loc main_arg9)) (colBias (m ((c.tc : Thread nD τ).loc main_arg10))) (Spec.pooled (m ((c.tc : Thread nD τ).loc main_arg0)) (m ((c.tc : Thread nD τ).loc main_arg1)) (colBias (m ((c.tc : Thread nD τ).loc main_arg2))) (m ((c.tc : Thread nD τ).loc main_arg3)) (colBias (m ((c.tc : Thread nD τ).loc main_arg4))) (m ((c.tc : Thread nD τ).loc main_arg5)) (colBias (m ((c.tc : Thread nD τ).loc main_arg6))) (m ((c.tc : Thread nD τ).loc main_arg7)) (colBias (m ((c.tc : Thread nD τ).loc main_arg8)))) (m ((c.tc : Thread nD τ).loc main_arg13)) (colBias (m ((c.tc : Thread nD τ).loc main_arg14)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨((h c).2 main_v45 (Pipeline.mem_restRefs_of main_v45 (by decide) (by decide))).trans (results m hPre c).1,
      ((h c).2 main_v33 (Pipeline.mem_restRefs_of main_v33 (by decide) (by decide))).trans (results m hPre c).2.1,
      ((h c).2 main_v52 (Pipeline.mem_restRefs_of main_v52 (by decide) (by decide))).trans (results m hPre c).2.2.1,
      ((h c).2 main_v56 (Pipeline.mem_restRefs_of main_v56 (by decide) (by decide))).trans (results m hPre c).2.2.2,
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c))⟩) (run_main m ρ)

end Cert.KernelIdeal.Run

end
-- ==== Proof.LibLogistic.lean ====
/-
  The logistic function on the extended reals, in the two ways a program spells it, and its threshold at one half.

  A host program spells the logistic function of `l` as `1 / (1 + exp (-(l / 1)))` (`hostLogistic`): on a real `r` that is
  the real number `1 / (1 + e^(-r))`, at `-∞` it is `0` (the exponential of `+∞` is `+∞`, and `1 / +∞ = 0`), at `+∞` it is
  `1` (the exponential of `-∞` is `0`). A vector unit spells it with one hyperbolic tangent, `1/2 · tanh (l / 2) + 1/2`;
  the two agree at every extended real (`half_tanh`): on a real because
  `tanh (r/2) = (e^(r/2) - e^(-r/2)) / (e^(r/2) + e^(-r/2)) = (1 - e^(-r)) / (1 + e^(-r))`, at the infinities because
  `tanh` has the limits `-1` and `1` there.

  The logistic function is increasing with value `1/2` at `0`, so it exceeds `1/2` exactly where its argument is positive
  (`half_lt_hostLogistic`), the infinities included.
-/
import Idealize.ShloMosaic.PureOps.Ideal
import Idealize.ShloMosaic.PureOps.Ideal.Laws

noncomputable section

namespace Cert.LibLogistic

open Idealize.ShloMosaic

/-- The single-precision word of `0.5` is the real number one half. -/
theorem ofBits_half : Ideal.ofBits .f32 0x3F000000#32 = ((1 / 2 : ℝ) : EReal) := by
  simp [Ideal.ofBits, Ideal.ieee, -EReal.coe_mul]; norm_num

/-- The single-precision word of `1.0` is the real number one. -/
theorem ofBits_one : Ideal.ofBits .f32 0x3F800000#32 = ((1 : ℝ) : EReal) := by
  simp [Ideal.ofBits, Ideal.ieee, -EReal.coe_mul]; norm_num

/-- The logistic function of `l` as a host program spells it: `1 / (1 + exp (-(l / 1)))`. -/
def hostLogistic (l : EReal) : EReal :=
  Ideal.div ((1 : ℝ) : EReal) (((1 : ℝ) : EReal) + Ideal.exp (-(Ideal.div l ((1 : ℝ) : EReal))))

/-- A quotient by one is the dividend. -/
theorem div_one' (x : EReal) : Ideal.div x ((1 : ℝ) : EReal) = x := by
  rw [Ideal.div_coe one_ne_zero]; simp

theorem hostLogistic_coe (r : ℝ) : hostLogistic (r : EReal) = ((1 / (1 + Real.exp (-r)) : ℝ) : EReal) := by
  have hpos : (1 + Real.exp (-r) : ℝ) ≠ 0 := by positivity
  unfold hostLogistic
  rw [div_one', ← EReal.coe_neg]
  show Ideal.div ((1 : ℝ) : EReal) (((1 : ℝ) : EReal) + ((Real.exp (-r) : ℝ) : EReal)) = _
  rw [← EReal.coe_add, Ideal.div_coe hpos, ← EReal.coe_mul, one_mul]

theorem hostLogistic_bot : hostLogistic ⊥ = 0 := by
  unfold hostLogistic
  rw [div_one', EReal.neg_bot]
  show Ideal.div ((1 : ℝ) : EReal) (((1 : ℝ) : EReal) + ⊤) = 0
  rw [EReal.coe_add_top]
  simp [Ideal.div]

theorem hostLogistic_top : hostLogistic ⊤ = 1 := by
  unfold hostLogistic
  rw [div_one', EReal.neg_top]
  show Ideal.div ((1 : ℝ) : EReal) (((1 : ℝ) : EReal) + 0) = 1
  rw [add_zero, div_one']; rfl

/-- On the reals, `1/2 · tanh (r/2) + 1/2 = 1 / (1 + e^(-r))`. -/
theorem real_half_tanh (r : ℝ) : 1 / 2 * Real.tanh (1 / 2 * r) + 1 / 2 = 1 / (1 + Real.exp (-r)) := by
  have hb : Real.exp (-r) = Real.exp (-(1 / 2 * r)) * Real.exp (-(1 / 2 * r)) := by
    rw [← Real.exp_add]; congr 1; ring
  have hinv : Real.exp (-(1 / 2 * r)) = (Real.exp (1 / 2 * r))⁻¹ := Real.exp_neg _
  have hp : 0 < Real.exp (1 / 2 * r) := Real.exp_pos _
  rw [Real.tanh_eq_sinh_div_cosh, Real.sinh_eq, Real.cosh_eq, hb, hinv]
  generalize Real.exp (1 / 2 * r) = a at hp
  have ha : a ≠ 0 := ne_of_gt hp
  have h2 : a * a + 1 ≠ 0 := by positivity
  field_simp
  ring

/-- The vector unit's spelling `1/2 · tanh (1/2 · l) + 1/2` is the host's logistic function, at every extended real. -/
theorem half_tanh (l : EReal) :
    ((1 / 2 : ℝ) : EReal) * Ideal.tanh (((1 / 2 : ℝ) : EReal) * l) + ((1 / 2 : ℝ) : EReal) = hostLogistic l := by
  induction l using EReal.rec with
  | bot =>
    rw [EReal.coe_mul_bot_of_pos (by norm_num), hostLogistic_bot]
    show ((1 / 2 : ℝ) : EReal) * (-1 : EReal) + ((1 / 2 : ℝ) : EReal) = 0
    have : (-1 : EReal) = ((-1 : ℝ) : EReal) := by rw [EReal.coe_neg, EReal.coe_one]
    rw [this, ← EReal.coe_mul, ← EReal.coe_add]; norm_num
  | top =>
    rw [EReal.coe_mul_top_of_pos (by norm_num), hostLogistic_top]
    show ((1 / 2 : ℝ) : EReal) * (1 : EReal) + ((1 / 2 : ℝ) : EReal) = 1
    have : (1 : EReal) = ((1 : ℝ) : EReal) := EReal.coe_one.symm
    rw [this, ← EReal.coe_mul, ← EReal.coe_add]; norm_num
  | coe r =>
    rw [← EReal.coe_mul, hostLogistic_coe]
    show ((1 / 2 : ℝ) : EReal) * ((Real.tanh (1 / 2 * r) : ℝ) : EReal) + ((1 / 2 : ℝ) : EReal) = _
    rw [← EReal.coe_mul, ← EReal.coe_add, real_half_tanh]

/-- The logistic function exceeds one half exactly at the positive extended reals. -/
theorem half_lt_hostLogistic (l : EReal) : ((1 / 2 : ℝ) : EReal) < hostLogistic l ↔ 0 < l := by
  induction l using EReal.rec with
  | bot =>
    rw [hostLogistic_bot]
    constructor
    · intro h; exact absurd h (by norm_cast; norm_num)
    · intro h; exact absurd h (not_lt_bot)
  | top =>
    rw [hostLogistic_top]
    constructor
    · intro _; exact EReal.zero_lt_top
    · intro _; norm_cast; norm_num
  | coe r =>
    rw [hostLogistic_coe, EReal.coe_lt_coe_iff]
    have hz : (0 : EReal) < (r : EReal) ↔ 0 < r := by norm_cast
    rw [hz]
    have hpos : (0 : ℝ) < 1 + Real.exp (-r) := by positivity
    rw [lt_div_iff₀ hpos]
    have he : Real.exp (-r) < 1 ↔ -r < 0 := Real.exp_lt_one_iff
    constructor
    · intro h
      have : Real.exp (-r) < 1 := by linarith
      have := he.mp this
      linarith
    · intro h
      have : Real.exp (-r) < 1 := he.mpr (by linarith)
      linarith

end Cert.LibLogistic

end
-- ==== Proof.RefSide.lean ====
/-
  The reference program computes the attention-pooling network of the specification.

  The reference is a sequence of whole-array operations on its fifteen arguments; each stage's value is identified with
  the corresponding function of the specification, in program order:

  * the bag with its leading axis of size one dropped is `rows`; a general dot product of a `[M, K]` by a `[K, N]`
    matrix plus a bias vector broadcast over the rows is the layer `dense`, and the maximum with a broadcast zero is
    the rectifier, so the hidden features are `H`;
  * the gate is `tanh u * (1 / (1 + exp (-v)))` entry by entry with `u`, `v` two layers of `H`, and
    `1 / (1 + exp (-v))` is the logistic function of `v`; one more layer, with one output column, gives the score
    column, and its transpose is the row of scores `srow`;
  * the softmax of that row is spelt: the maximum of the row folded from minus infinity, compared once more with minus
    infinity (`smax`); the exponentials of the differences; their sum added to a zero initial value (`sden`); the
    quotients (`weight`);
  * the pooled feature is the product of the one row of weights with `H`, `∑ k, weight k * H (k, j)`;
  * each of the three layers on the pooled feature has ONE row, and its bias is broadcast to that row directly
    (`host_layer_row`); the last result is the one-row matrix of regression values read as a vector.

  `out0` … `out3` state the four results of the reference, as the run of the program names them, as `A`, `pooled`,
  `classLogits` and `regValues` of the arguments' contents.
-/
import proofs.«105278_j19679540150395_2_alg».proof.Proof.Gen.ReferenceIdeal.Read
import proofs.«105278_j19679540150395_2_alg».proof.Proof.Spec
import proofs.«105278_j19679540150395_2_alg».proof.Proof.LibLayerForms
import proofs.«105278_j19679540150395_2_alg».proof.Proof.LibLogistic
import Idealize.ShloMosaic.PureOps.Reduce
import Idealize.ShloMosaic.Lib.Pipeline.Value
import Idealize.ShloMosaic.Lib.ValueIdx

noncomputable section

open scoped BigOperators

namespace Cert.RefSide

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo Cert.DenseLayer Cert.LayerForms

variable (x0 : (⟨S1x200000x512, .f32⟩ : BufTy).Contents (Elt Ideal)) (x1 : (⟨S512x256, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S256x1, .f32⟩ : BufTy).Contents (Elt Ideal))
  (x8 : (⟨S1, .f32⟩ : BufTy).Contents (Elt Ideal))

/-- The reference's four kinds of general dot product are plain matrix products: rows of the left operand against columns of the right. -/
theorem dot1 : dot_S200000x512_S512x256_S200000x256_1_0_0_1_n_n = DotDims.plain 200000 512 256 := rfl
theorem dot2 : dot_S200000x256_S256x256_S200000x256_1_0_0_1_n_n = DotDims.plain 200000 256 256 := rfl
theorem dot3 : dot_S200000x256_S256x1_S200000x1_1_0_0_1_n_n = DotDims.plain 200000 256 1 := rfl

/-- Dropping the bag's leading axis of size one: entry `(p, k)` of the result is entry `(0, p, k)` of the bag. -/
theorem rows_eq : val_main_v0 (F := Ideal) x0 = Cert.Spec.rows x0 := by
  funext i
  rw [val_main_v0_apply]
  refine congrArg x0 (funext fun a => Fin.ext ?_)
  have h0 : (i 0).val < 200000 := (i 0).isLt
  have h1 : (i 1).val < 512 := (i 1).isLt
  match a with
  | ⟨0, _⟩ => rfl
  | ⟨1, _⟩ => show ((i 0).val * 512 + (i 1).val) / 512 % 200000 = (i 0).val; omega
  | ⟨2, _⟩ => show ((i 0).val * 512 + (i 1).val) % 512 = (i 1).val; omega

/-- The hidden features: the product with `W1` plus the bias on every row, clamped below at zero. -/
theorem hidden_eq : val_main_v5 (F := Ideal) x0 x1 x2 = Cert.Spec.H x0 x1 (colBias x2) := by
  unfold val_main_v5 val_main_v4 val_main_v1 val_main_v3 val_main_v2 val_main_call0_v0 val_main_call0_cst
  rw [host_layer _ dot1, host_relu, rows_eq]
  rfl

/-- The layer under the hyperbolic tangent. -/
theorem gateA_eq : val_main_v9 (F := Ideal) x0 x1 x2 x3 x4 = dense (Cert.Spec.H x0 x1 (colBias x2)) x3 (colBias x4) := by
  unfold val_main_v9 val_main_v6 val_main_v8 val_main_v7
  rw [host_layer _ dot2, hidden_eq]

/-- The layer under the logistic function. -/
theorem gateB_eq : val_main_v14 (F := Ideal) x0 x1 x2 x5 x6 = dense (Cert.Spec.H x0 x1 (colBias x2)) x5 (colBias x6) := by
  unfold val_main_v14 val_main_v11 val_main_v13 val_main_v12
  rw [host_layer _ dot2, hidden_eq]

/-- The gated features: `tanh u * (1 / (1 + exp (-v)))` entry by entry, the quotient being the logistic function of `v`. -/
theorem gate_eq : val_main_v21 (F := Ideal) x0 x1 x2 x3 x4 x5 x6
    = Cert.Spec.gate (Cert.Spec.H x0 x1 (colBias x2)) x3 (colBias x4) x5 (colBias x6) := by
  funext i
  unfold val_main_v21 val_main_v10 val_main_v20 val_main_v19 val_main_v18 val_main_v17 val_main_v16 val_main_v15 val_main_cst
    val_main_cst_0
  rw [gateA_eq, gateB_eq]
  show Ideal.tanh (dense (Cert.Spec.H x0 x1 (colBias x2)) x3 (colBias x4) i)
      * Ideal.div (Ideal.ofBits .f32 0x3F800000#32)
          (Ideal.ofBits .f32 0x3F800000#32 + Ideal.exp (-(dense (Cert.Spec.H x0 x1 (colBias x2)) x5 (colBias x6) i)))
    = _
  rw [Cert.LibLogistic.ofBits_one, EReal.coe_one]
  rfl

/-- The attention scores as a column. -/
theorem score_eq : val_main_v25 (F := Ideal) x0 x1 x2 x3 x4 x5 x6 x7 x8
    = Cert.Spec.score (Cert.Spec.H x0 x1 (colBias x2)) x3 (colBias x4) x5 (colBias x6) x7 (colBias x8) := by
  unfold val_main_v25 val_main_v22 val_main_v24 val_main_v23
  rw [host_layer _ dot3, gate_eq]
  rfl

/-- The scores transposed into a row: entry `(0, k)` is the score of instance `k`. -/
theorem row_eq (i : S1x200000.Idx) : val_main_v26 (F := Ideal) x0 x1 x2 x3 x4 x5 x6 x7 x8 i = Cert.Spec.srow x0 x1 (colBias x2) x3 (colBias x4) x5 (colBias x6) x7 (colBias x8) (i 1) := by
  rw [val_main_v26_apply, score_eq]
  unfold Cert.Spec.srow
  refine congrArg _ (funext fun a => Fin.ext ?_)
  have h0 : (i 0).val < 1 := (i 0).isLt
  match a with
  | ⟨0, _⟩ => rfl
  | ⟨1, _⟩ => show (i 0).val = 0; omega

/-- The single-precision word of minus infinity is the least extended real. -/
theorem bot_word : Ideal.ofBits .f32 0xFF800000#32 = (⊥ : EReal) := by
  simp [Ideal.ofBits, Ideal.ieee]

/-- The maximum-reduction of the row of scores along its long axis, started from minus infinity, is the maximum of the scores folded from `⊥`. -/
theorem rowmax_eq (j : S1.Idx) : val_main_v27 (F := Ideal) x0 x1 x2 x3 x4 x5 x6 x7 x8 j
    = (Finset.univ : Finset (Fin 200000)).fold max ⊥ (Cert.Spec.srow x0 x1 (colBias x2) x3 (colBias x4) x5 (colBias x6) x7 (colBias x8)) := by
  unfold val_main_v27 val_main_cst_1
  have h : S1x200000.Reduces [1] S1 := by decide
  rw [Host.reduce_eq_fold_single FloatOps.maximumf _ _ reducesTo_S1x200000_S1_d1 h h_S_ j]
  have hf : (val_main_v26 (F := Ideal) x0 x1 x2 x3 x4 x5 x6 x7 x8 ∘ h.lift j) = (Cert.Spec.srow x0 x1 (colBias x2) x3 (colBias x4) x5 (colBias x6) x7 (colBias x8) : Fin 200000 → EReal) :=
    funext fun k => by
      show val_main_v26 (F := Ideal) x0 x1 x2 x3 x4 x5 x6 x7 x8 (h.lift j k) = _
      rw [row_eq]
      exact congrArg (Cert.Spec.srow x0 x1 (colBias x2) x3 (colBias x4) x5 (colBias x6) x7 (colBias x8)) (Fin.ext (by rw [h.lift_val]; simp [Shape.Reduces.liftVal]))
  show Finset.fold max (Ideal.ofBits .f32 0xFF800000#32) (val_main_v26 (F := Ideal) x0 x1 x2 x3 x4 x5 x6 x7 x8 ∘ h.lift j)
      (Finset.univ : Finset (Fin 200000)) = _
  rw [hf, bot_word]
  rfl

/-- The stabilising maximum: the reduced maximum compared once more with minus infinity. -/
theorem smax_eq (j : S1.Idx) : val_main_v29 (F := Ideal) x0 x1 x2 x3 x4 x5 x6 x7 x8 j = Cert.Spec.smax x0 x1 (colBias x2) x3 (colBias x4) x5 (colBias x6) x7 (colBias x8) := by
  unfold val_main_v29 val_main_v28 val_main_cst_2
  show max (Ideal.ofBits .f32 0xFF800000#32) (val_main_v27 (F := Ideal) x0 x1 x2 x3 x4 x5 x6 x7 x8 j) = _
  rw [rowmax_eq, bot_word]
  rfl

/-- The numerators `exp (s k - M)`. -/
theorem num_eq (i : S1x200000.Idx) : val_main_v33 (F := Ideal) x0 x1 x2 x3 x4 x5 x6 x7 x8 i
    = Ideal.exp (Cert.Spec.srow x0 x1 (colBias x2) x3 (colBias x4) x5 (colBias x6) x7 (colBias x8) (i 1) - Cert.Spec.smax x0 x1 (colBias x2) x3 (colBias x4) x5 (colBias x6) x7 (colBias x8)) := by
  rw [val_main_v33_apply, val_main_v32_apply, val_main_v31_apply, val_main_v30_apply, smax_eq, row_eq]
  rfl

/-- The denominator: the sum of the numerators added to a zero initial value. -/
theorem den_eq (j : S1.Idx) : val_main_v34 (F := Ideal) x0 x1 x2 x3 x4 x5 x6 x7 x8 j = Cert.Spec.sden x0 x1 (colBias x2) x3 (colBias x4) x5 (colBias x6) x7 (colBias x8) := by
  rw [val_main_v34_apply]
  unfold val_main_cst_3 Cert.Spec.sden
  show Ideal.ofBits .f32 0x00000000#32 + _ = _
  rw [Ideal.ofBits_zero_f32]
  refine congrArg (0 + ·) (Finset.sum_congr rfl fun k _ => ?_)
  rw [num_eq]
  rfl

/-- The attention weights, entry by entry: numerator over denominator. -/
theorem weight_eq (i : S1x200000.Idx) : val_main_v37 (F := Ideal) x0 x1 x2 x3 x4 x5 x6 x7 x8 i = Cert.Spec.weight x0 x1 (colBias x2) x3 (colBias x4) x5 (colBias x6) x7 (colBias x8) (i 1) := by
  rw [val_main_v37_apply, val_main_v36_apply, val_main_v35_apply, den_eq, num_eq]
  rfl

/-- The attention weights as a one-row matrix. -/
theorem weights_eq : val_main_v37 (F := Ideal) x0 x1 x2 x3 x4 x5 x6 x7 x8 = Cert.Spec.A x0 x1 (colBias x2) x3 (colBias x4) x5 (colBias x6) x7 (colBias x8) :=
  funext fun i => weight_eq x0 x1 x2 x3 x4 x5 x6 x7 x8 i

/-- The pooled feature: the one row of weights against the columns of the hidden features. -/
theorem pooled_eq : val_main_v38 (F := Ideal) x0 x1 x2 x3 x4 x5 x6 x7 x8 = Cert.Spec.pooled x0 x1 (colBias x2) x3 (colBias x4) x5 (colBias x6) x7 (colBias x8) := by
  funext i
  rw [val_main_v38_apply, hidden_eq]
  unfold Cert.Spec.pooled
  refine Finset.sum_congr rfl fun k _ => ?_
  rw [weight_eq]
  have e : ridx_main_v38 i k = ix2 k (i 1) :=
    funext fun a => Fin.ext (by match a with | ⟨0, _⟩ => rfl | ⟨1, _⟩ => rfl)
  rw [e]
  rfl

variable (x9 : (⟨S256x256, .f32⟩ : BufTy).Contents (Elt Ideal)) (x10 : (⟨S256, .f32⟩ : BufTy).Contents (Elt Ideal))
  (x11 : (⟨S256x33, .f32⟩ : BufTy).Contents (Elt Ideal)) (x12 : (⟨S33, .f32⟩ : BufTy).Contents (Elt Ideal))
  (x13 : (⟨S256x55, .f32⟩ : BufTy).Contents (Elt Ideal)) (x14 : (⟨S55, .f32⟩ : BufTy).Contents (Elt Ideal))

/-- A layer on a one-row matrix as a host program spells it: the general dot product, plus the bias broadcast to the one
    row along a new leading axis. -/
theorem host_layer_row {K N : ℕ} (D : DotDims ⟨2, ![1, K]⟩ ⟨2, ![K, N]⟩ ⟨2, ![1, N]⟩) (hD : D = DotDims.plain 1 K N)
    (prec : Option ContractPrecision) (x : FVec Ideal ⟨2, ![1, K]⟩ .f32) (w : FVec Ideal ⟨2, ![K, N]⟩ .f32)
    (b : FVec Ideal ⟨1, ![N]⟩ .f32) (h1 : (⟨1, ![N]⟩ : Shape).BroadcastsInDim ⟨2, ![1, N]⟩ ![1]) :
    addf (Host.dotGeneral D prec x w) (broadcastInDim ⟨2, ![1, N]⟩ ![1] h1 b) = dense x w (colBias b) := by
  funext i
  obtain ⟨p, q, rfl⟩ : ∃ (p : Fin 1) (q : Fin N), i = ix2 p q := ⟨i 0, i 1, eq_ix2 i⟩
  show FloatOps.dotGeneral D prec .single x w (ix2 p q) + broadcastInDim ⟨2, ![1, N]⟩ ![1] h1 b (ix2 p q)
    = (∑ k : Fin K, x (ix2 p k) * w (ix2 k q)) + b (ix1 q)
  have e1 : broadcastInDim ⟨2, ![1, N]⟩ ![1] h1 b (ix2 p q) = b (ix1 q) := by
    refine broadcastInDim_apply ![1] h1 b (ix2 p q) (ix1 q) fun a => ?_
    match a with
    | ⟨0, _⟩ =>
      show q.val = if N = 1 then 0 else q.val
      split
      · have := q.isLt; omega
      · rfl
  rw [dotGeneral_plain_apply D hD, e1]

theorem dot5 : dot_S1x256_S256x256_S1x256_1_0_0_1_n_n = DotDims.plain 1 256 256 := rfl
theorem dot6 : dot_S1x256_S256x33_S1x33_1_0_0_1_n_n = DotDims.plain 1 256 33 := rfl
theorem dot7 : dot_S1x256_S256x55_S1x55_1_0_0_1_n_n = DotDims.plain 1 256 55 := rfl

/-- The head's hidden layer on the pooled feature. -/
theorem head_eq : val_main_v42 (F := Ideal) x0 x1 x2 x3 x4 x5 x6 x7 x8 x9 x10
    = Cert.Spec.headHidden x9 (colBias x10) (Cert.Spec.pooled x0 x1 (colBias x2) x3 (colBias x4) x5 (colBias x6) x7 (colBias x8)) := by
  unfold val_main_v42 val_main_v41 val_main_v39 val_main_v40 val_main_call1_v0 val_main_call1_cst
  rw [host_layer_row _ dot5, host_relu, pooled_eq]
  rfl

/-- The class logits. -/
theorem logits_eq : val_main_v45 (F := Ideal) x0 x1 x2 x3 x4 x5 x6 x7 x8 x9 x10 x11 x12
    = Cert.Spec.classLogits x9 (colBias x10) (Cert.Spec.pooled x0 x1 (colBias x2) x3 (colBias x4) x5 (colBias x6) x7 (colBias x8)) x11 (colBias x12) := by
  unfold val_main_v45 val_main_v43 val_main_v44
  rw [host_layer_row _ dot6, head_eq]
  rfl

/-- The regression values: the one-row result read as a vector. -/
theorem reg_eq : val_main_v49 (F := Ideal) x0 x1 x2 x3 x4 x5 x6 x7 x8 x9 x10 x13 x14
    = Cert.Spec.regValues x9 (colBias x10) (Cert.Spec.pooled x0 x1 (colBias x2) x3 (colBias x4) x5 (colBias x6) x7 (colBias x8)) x13 (colBias x14) := by
  funext i
  rw [val_main_v49_apply]
  unfold val_main_v48 val_main_v46 val_main_v47
  rw [host_layer_row _ dot7, head_eq]
  unfold Cert.Spec.regValues
  refine congrArg _ (funext fun a => Fin.ext ?_)
  have h0 : (i 0).val < 55 := (i 0).isLt
  match a with
  | ⟨0, _⟩ => rfl
  | ⟨1, _⟩ => show (i 0).val % 55 = (i 0).val; omega

section Results

variable (m : (ℓ : Loc nD τ sig) → Buf (Elt Ideal) ℓ) (c : Dev nD)

/-- The reference's first result is the attention weights. -/
theorem out0 : Cert.ReferenceIdeal.Value.res_main_v37 (F := Ideal) m c
    = Cert.Spec.A (m ((c.tc : Thread nD τ).loc main_arg0)) (m ((c.tc : Thread nD τ).loc main_arg1)) (colBias (m ((c.tc : Thread nD τ).loc main_arg2))) (m ((c.tc : Thread nD τ).loc main_arg3)) (colBias (m ((c.tc : Thread nD τ).loc main_arg4))) (m ((c.tc : Thread nD τ).loc main_arg5))
      (colBias (m ((c.tc : Thread nD τ).loc main_arg6))) (m ((c.tc : Thread nD τ).loc main_arg7)) (colBias (m ((c.tc : Thread nD τ).loc main_arg8))) := by
  rw [val_main_v37_eq]
  exact weights_eq _ _ _ _ _ _ _ _ _

/-- The reference's second result is the pooled feature. -/
theorem out1 : Cert.ReferenceIdeal.Value.res_main_v38 (F := Ideal) m c
    = Cert.Spec.pooled (m ((c.tc : Thread nD τ).loc main_arg0)) (m ((c.tc : Thread nD τ).loc main_arg1)) (colBias (m ((c.tc : Thread nD τ).loc main_arg2))) (m ((c.tc : Thread nD τ).loc main_arg3)) (colBias (m ((c.tc : Thread nD τ).loc main_arg4))) (m ((c.tc : Thread nD τ).loc main_arg5))
      (colBias (m ((c.tc : Thread nD τ).loc main_arg6))) (m ((c.tc : Thread nD τ).loc main_arg7)) (colBias (m ((c.tc : Thread nD τ).loc main_arg8))) := by
  rw [val_main_v38_eq]
  exact pooled_eq _ _ _ _ _ _ _ _ _

/-- The reference's third result is the class logits of the pooled feature. -/
theorem out2 : Cert.ReferenceIdeal.Value.res_main_v45 (F := Ideal) m c
    = Cert.Spec.classLogits (m ((c.tc : Thread nD τ).loc main_arg9)) (colBias (m ((c.tc : Thread nD τ).loc main_arg10)))
      (Cert.Spec.pooled (m ((c.tc : Thread nD τ).loc main_arg0)) (m ((c.tc : Thread nD τ).loc main_arg1)) (colBias (m ((c.tc : Thread nD τ).loc main_arg2))) (m ((c.tc : Thread nD τ).loc main_arg3)) (colBias (m ((c.tc : Thread nD τ).loc main_arg4))) (m ((c.tc : Thread nD τ).loc main_arg5))
      (colBias (m ((c.tc : Thread nD τ).loc main_arg6))) (m ((c.tc : Thread nD τ).loc main_arg7)) (colBias (m ((c.tc : Thread nD τ).loc main_arg8))))
      (m ((c.tc : Thread nD τ).loc main_arg11)) (colBias (m ((c.tc : Thread nD τ).loc main_arg12))) := by
  rw [val_main_v45_eq]
  exact logits_eq _ _ _ _ _ _ _ _ _ _ _ _ _

/-- The reference's fourth result is the regression values of the pooled feature. -/
theorem out3 : Cert.ReferenceIdeal.Value.res_main_v49 (F := Ideal) m c
    = Cert.Spec.regValues (m ((c.tc : Thread nD τ).loc main_arg9)) (colBias (m ((c.tc : Thread nD τ).loc main_arg10)))
      (Cert.Spec.pooled (m ((c.tc : Thread nD τ).loc main_arg0)) (m ((c.tc : Thread nD τ).loc main_arg1)) (colBias (m ((c.tc : Thread nD τ).loc main_arg2))) (m ((c.tc : Thread nD τ).loc main_arg3)) (colBias (m ((c.tc : Thread nD τ).loc main_arg4))) (m ((c.tc : Thread nD τ).loc main_arg5))
      (colBias (m ((c.tc : Thread nD τ).loc main_arg6))) (m ((c.tc : Thread nD τ).loc main_arg7)) (colBias (m ((c.tc : Thread nD τ).loc main_arg8))))
      (m ((c.tc : Thread nD τ).loc main_arg13)) (colBias (m ((c.tc : Thread nD τ).loc main_arg14))) := by
  rw [val_main_v49_eq]
  exact reg_eq _ _ _ _ _ _ _ _ _ _ _ _ _

end Results

end Cert.RefSide

end
-- ==== Proof.lean ====
/-
  The attention-pooling kernel against its reference, on the extended reals.

  Both programs map a bag of 200000 instances to its attention weights, its pooled feature and two heads' outputs on the
  pooled feature. The reference takes the softmax of the attention scores over the whole bag and then the weighted mean
  of the hidden features. The kernel never holds the whole bag: each half of its grid streams 50 blocks of 2000
  instances and carries a running maximum, a running softmax denominator and a running numerator, rescaling them by
  `exp (old maximum - new maximum)` whenever the maximum grows; the host merges the two halves' states the same way
  and divides. On real inputs the two agree: rescaling a sum of `exp (s k - M)` by `exp (M - M')` is the sum of
  `exp (s k - M')`, so after the last block and the merge the numerator and the denominator are the whole bag's, shifted
  by the whole bag's maximum, and their quotient is the reference's weighted mean. The precondition (every input finite)
  is what makes the scores and the hidden features real numbers, for which these identities hold. The attention
  weights and the heads are the same host operations on both sides.

  The ideal pass rewrote no operation, so the kernel's idealization is its own text read on the extended reals.
-/
import proofs.«105278_j19679540150395_2_alg».proof.Defs
import proofs.«105278_j19679540150395_2_alg».proof.Proof.Gen.Kernel
import proofs.«105278_j19679540150395_2_alg».proof.Proof.KernelFrame
import proofs.«105278_j19679540150395_2_alg».proof.Proof.Gen.KernelIdeal
import proofs.«105278_j19679540150395_2_alg».proof.Proof.KernelIdealFrame
import proofs.«105278_j19679540150395_2_alg».proof.Proof.Gen.ReferenceIdeal
import proofs.«105278_j19679540150395_2_alg».proof.Proof.Gen.ReferenceIdeal.Run
import proofs.«105278_j19679540150395_2_alg».proof.Proof.Gen.Pre_finite_inputs
import proofs.«105278_j19679540150395_2_alg».proof.Proof.KernelRun
import proofs.«105278_j19679540150395_2_alg».proof.Proof.RefSide
import Idealize.ShloMosaic.Adequacy
import Idealize.ShloMosaic.Init

noncomputable section

namespace Cert.Proof

open Idealize.ShloMosaic Idealize.ShloMosaic.TcCoe Idealize.SL.Sem Cert.Spec Cert.LayerForms

set_option maxHeartbeats 4000000 in
/-- From memories that agree on the fifteen arguments, both idealized programs end with the same four results: the
    attention weights, the pooled feature, the class logits and the regression values of the specification. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hPre hagree
  haveI : Cert.Pre_finite_inputs.Facts := Cert.Pre_finite_inputs.Gen.facts
  refine ⟨fun c => Spec.A (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (colBias (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (colBias (m ((c.tc : Thread Cert.KernelIdeal.nD Cert.KernelIdeal.τ).loc Cert.KernelIdeal.main_arg4))) (m ((c.tc : Thread Cert.KernelIdeal.nD Cert.KernelIdeal.τ).loc Cert.KernelIdeal.main_arg5)) (colBias (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (colBias (m ((c.tc : Thread Cert.KernelIdeal.nD Cert.KernelIdeal.τ).loc Cert.KernelIdeal.main_arg8))),
    fun c => Spec.pooled (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (colBias (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (colBias (m ((c.tc : Thread Cert.KernelIdeal.nD Cert.KernelIdeal.τ).loc Cert.KernelIdeal.main_arg4))) (m ((c.tc : Thread Cert.KernelIdeal.nD Cert.KernelIdeal.τ).loc Cert.KernelIdeal.main_arg5)) (colBias (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (colBias (m ((c.tc : Thread Cert.KernelIdeal.nD Cert.KernelIdeal.τ).loc Cert.KernelIdeal.main_arg8))),
    fun c => Spec.classLogits (m ((c.tc : Thread Cert.KernelIdeal.nD Cert.KernelIdeal.τ).loc Cert.KernelIdeal.main_arg9)) (colBias (m ((c.tc : Thread Cert.KernelIdeal.nD Cert.KernelIdeal.τ).loc Cert.KernelIdeal.main_arg10))) (Spec.pooled (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (colBias (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (colBias (m ((c.tc : Thread Cert.KernelIdeal.nD Cert.KernelIdeal.τ).loc Cert.KernelIdeal.main_arg4))) (m ((c.tc : Thread Cert.KernelIdeal.nD Cert.KernelIdeal.τ).loc Cert.KernelIdeal.main_arg5)) (colBias (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (colBias (m ((c.tc : Thread Cert.KernelIdeal.nD Cert.KernelIdeal.τ).loc Cert.KernelIdeal.main_arg8)))) (m ((c.tc : Thread Cert.KernelIdeal.nD Cert.KernelIdeal.τ).loc Cert.KernelIdeal.main_arg11)) (colBias (m ((c.tc : Thread Cert.KernelIdeal.nD Cert.KernelIdeal.τ).loc Cert.KernelIdeal.main_arg12))),
    fun c => Spec.regValues (m ((c.tc : Thread Cert.KernelIdeal.nD Cert.KernelIdeal.τ).loc Cert.KernelIdeal.main_arg9)) (colBias (m ((c.tc : Thread Cert.KernelIdeal.nD Cert.KernelIdeal.τ).loc Cert.KernelIdeal.main_arg10))) (Spec.pooled (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (colBias (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (colBias (m ((c.tc : Thread Cert.KernelIdeal.nD Cert.KernelIdeal.τ).loc Cert.KernelIdeal.main_arg4))) (m ((c.tc : Thread Cert.KernelIdeal.nD Cert.KernelIdeal.τ).loc Cert.KernelIdeal.main_arg5)) (colBias (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (colBias (m ((c.tc : Thread Cert.KernelIdeal.nD Cert.KernelIdeal.τ).loc Cert.KernelIdeal.main_arg8)))) (m ((c.tc : Thread Cert.KernelIdeal.nD Cert.KernelIdeal.τ).loc Cert.KernelIdeal.main_arg13)) (colBias (m ((c.tc : Thread Cert.KernelIdeal.nD Cert.KernelIdeal.τ).loc Cert.KernelIdeal.main_arg14))),
    Cert.KernelIdeal.Run.run m ρ hPre, ?_⟩
  refine (θ_run Cert.ReferenceIdeal.defs _ _).mono (fun _ h c => ?_) (Cert.ReferenceIdeal.Value.run (F := Ideal) m' ρ')
  obtain ⟨g0, g1, g2, g3, g4, g5, g6, g7, g8, g9, g10, g11, g12, g13, g14⟩ := hagree c
  refine ⟨(h c).1.trans ((Cert.RefSide.out0 m' c).trans ?_), (h c).2.1.trans ((Cert.RefSide.out1 m' c).trans ?_),
    (h c).2.2.1.trans ((Cert.RefSide.out2 m' c).trans ?_), (h c).2.2.2.1.trans ((Cert.RefSide.out3 m' c).trans ?_),
    (h c).2.2.2.2⟩
  · rw [g0, g1, g2, g3, g4, g5, g6, g7, g8]
  · rw [g0, g1, g2, g3, g4, g5, g6, g7, g8]
  · rw [g0, g1, g2, g3, g4, g5, g6, g7, g8, g9, g10, g11, g12]
  · rw [g0, g1, g2, g3, g4, g5, g6, g7, g8, g9, g10, g13, g14]

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  fun m ρ _ => (θ_run Cert.ReferenceIdeal.defs _ _).mono (fun _ h c => (h c).2.2.2.2)
    (Cert.ReferenceIdeal.Value.run (F := Ideal) m ρ),
  trivial,
  algebraic⟩

end Cert.Proof

end
